-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S384x64 : Shape := ⟨2, ![384, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S64x2 .f32) (main_v50 : FVec F S64x2 .f32) : IVec S_ 1 :=
  let main_v51 : IVec S64x2 1 := cmpf .olt main_v49 main_v50
  let main_c_19 : IVec S_ 1 := constantI S_ 1 1#1
  let main_v52 : IVec S_ 1 := (fun x v => Host.reduce IntOp.andi x v reducesTo_S64x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S3x128 .f32) (main_arg9 : FVec F S384x64 .f32) (main_arg10 : FVec F S64 .f32) (main_arg11 : FVec F S64x2 .f32) (main_arg12 : FVec F S2 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S384x64 .f32 := Host.absf main_arg9
  let main_cst_14 : FVec F S_ .f32 := constant S_ .f32 0x7F800000#32
  let main_v40 : FVec F S384x64 .f32 := broadcastInDim S384x64 ![] bcast_S_S384x64 main_cst_14
  let main_v41 : IVec S384x64 1 := cmpf .olt main_v39 main_v40
  let main_c_15 : IVec S_ 1 := constantI S_ 1 1#1
  let main_v42 : IVec S_ 1 := (fun x v => Host.reduce IntOp.andi x v reducesTo_S384x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x2 .f32 := Host.absf main_arg11
  let main_cst_18 : FVec F S_ .f32 := constant S_ .f32 0x7F800000#32
  let main_v50 : FVec F S64x2 .f32 := broadcastInDim S64x2 ![] bcast_S_S64x2 main_cst_18
  fn_part3 (F := F) main_arg12 main_v48 main_v49 main_v50

def fn_part1 {F : FTy → Type} [FloatOps F] (main_arg5 : FVec F S3x128 .f32) (main_arg6 : FVec F S3x128 .f32) (main_arg7 : FVec F S3x128 .f32) (main_arg8 : FVec F S3x128 .f32) (main_arg9 : FVec F S384x64 .f32) (main_arg10 : FVec F S64 .f32) (main_arg11 : FVec F S64x2 .f32) (main_arg12 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) (main_arg8 : FVec F S3x128 .f32) (main_arg9 : FVec F S384x64 .f32) (main_arg10 : FVec F S64 .f32) (main_arg11 : FVec F S64x2 .f32) (main_arg12 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S384x64 : Shape := ⟨2, ![384, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1000x128 : Shape := ⟨2, ![1000, 128]⟩
abbrev S50000x384 : Shape := ⟨2, ![50000, 384]⟩
abbrev S1x64 : Shape := ⟨2, ![1, 64]⟩
abbrev S1x2 : Shape := ⟨2, ![1, 2]⟩
abbrev S50000x2 : Shape := ⟨2, ![50000, 2]⟩
abbrev S1000x384 : Shape := ⟨2, ![1000, 384]⟩
abbrev S1000x2 : Shape := ⟨2, ![1000, 2]⟩
abbrev S1000x64 : Shape := ⟨2, ![1000, 64]⟩

abbrev nBuf : Space → Nat
  | .hbm => 141
  | .vmem => 47
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S384x64, .f32⟩
  | 10 => ⟨S64, .f32⟩
  | 11 => ⟨S64x2, .f32⟩
  | 12 => ⟨S2, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x1, .f32⟩
  | 43 => ⟨S50000x128, .f32⟩
  | 44 => ⟨S50000x128, .f32⟩
  | 45 => ⟨S1x128x128, .f32⟩
  | 46 => ⟨S128x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x1, .f32⟩
  | 79 => ⟨S50000x128, .f32⟩
  | 80 => ⟨S50000x128, .f32⟩
  | 81 => ⟨S1x128x128, .f32⟩
  | 82 => ⟨S128x128, .f32⟩
  | 83 => ⟨S1x128, .f32⟩
  | 84 => ⟨S128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S50000x128, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S50000x1, .f32⟩
  | 115 => ⟨S50000x128, .f32⟩
  | 116 => ⟨S50000x128, .f32⟩
  | 117 => ⟨S1x128x128, .f32⟩
  | 118 => ⟨S128x128, .f32⟩
  | 119 => ⟨S1x128, .f32⟩
  | 120 => ⟨S128, .f32⟩
  | 121 => ⟨S1x128x128, .f32⟩
  | 122 => ⟨S128x128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S50000x128, .f32⟩
  | 9 => ⟨S50000x384, .f32⟩
  | 10 => ⟨S1x64, .f32⟩
  | 11 => ⟨S1x2, .f32⟩
  | 12 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1000x128, .f32⟩
  | .local _ .vmem, ⟨38, _⟩ => ⟨S1000x128, .f32⟩
  | .local _ .vmem, ⟨39, _⟩ => ⟨S1000x384, .f32⟩
  | .local _ .vmem, ⟨40, _⟩ => ⟨S1000x384, .f32⟩
  | .local _ .vmem, ⟨41, _⟩ => ⟨S384x64, .f32⟩
  | .local _ .vmem, ⟨42, _⟩ => ⟨S1x64, .f32⟩
  | .local _ .vmem, ⟨43, _⟩ => ⟨S64x2, .f32⟩
  | .local _ .vmem, ⟨44, _⟩ => ⟨S1x2, .f32⟩
  | .local _ .vmem, ⟨45, _⟩ => ⟨S1000x2, .f32⟩
  | .local _ .vmem, ⟨46, _⟩ => ⟨S1000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_5 : Ref sig .tc := ⟨.hbm, 65, rfl⟩
abbrev main_v45 : Ref sig .tc := ⟨.hbm, 66, rfl⟩
abbrev main_v46 : Ref sig .tc := ⟨.hbm, 67, rfl⟩
abbrev main_c_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_8 : Ref sig .tc := ⟨.hbm, 101, rfl⟩
abbrev main_v78 : Ref sig .tc := ⟨.hbm, 102, rfl⟩
abbrev main_v79 : Ref sig .tc := ⟨.hbm, 103, rfl⟩
abbrev main_c_9 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_10 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg5_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem5_1 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S384x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  shapeCasts_S64_S1x64 : S64.ShapeCasts S1x64
  shapeCasts_S2_S1x2 : S2.ShapeCasts S1x2
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  inb_S384x64_S384x64_0_0 : ∀ a, (![0, 0] : Fin 2 → Nat) a + S384x64.size a ≤ S384x64.size a
  h_S384x64 : 0 < S384x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x128_S1000x128_1_0_0_1_n_n_wf : DotDims.WF S1000x128 S128x128 S1000x128 [1] [0] [0] [1] [] []
  dot_S1000x384_S384x64_S1000x64_1_0_0_1_n_n_wf : DotDims.WF S1000x384 S384x64 S1000x64 [1] [0] [0] [1] [] []
  dot_S1000x64_S64x2_S1000x2_1_0_0_1_n_n_wf : DotDims.WF S1000x64 S64x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x128.size a ≤ S50000x128.size a
  hwx0_9 : ∀ i : grid0.Coords, EltTy.bits .f32 = 32 ∨ (Rect.block (s := S50000x128) S1000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S50000x128.size a
  hwx1_9 : ∀ i : grid1.Coords, EltTy.bits .f32 = 32 ∨ (Rect.block (s := S50000x128) S1000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x128.size a ≤ S50000x128.size a
  hwx2_9 : ∀ i : grid2.Coords, EltTy.bits .f32 = 32 ∨ (Rect.block (s := S50000x128) S1000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x384.size a ≤ S50000x384.size a
  hwx3_0 : ∀ i : grid3.Coords, EltTy.bits .f32 = 32 ∨ (Rect.block (s := S50000x384) S1000x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x64.size a ≤ S384x64.size a
  hwx3_1 : ∀ i : grid3.Coords, EltTy.bits .f32 = 32 ∨ (Rect.block (s := S384x64) S384x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x2.size a ≤ S64x2.size a
  hwx3_3 : ∀ i : grid3.Coords, EltTy.bits .f32 = 32 ∨ (Rect.block (s := S64x2) S64x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x2.size a ≤ S50000x2.size a
  hwx3_5 : ∀ i : grid3.Coords, EltTy.bits .f32 = 32 ∨ (Rect.block (s := S50000x2) S1000x2.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x384_S384x64_S1000x64_1_0_0_1_n_n : DotDims S1000x384 S384x64 S1000x64 where
  lhsContracting := [1]
  rhsContracting := [0]
  lhsNonContracting := [0]
  rhsNonContracting := [1]
  lhsBatch := []
  rhsBatch := []
  wf := dot_S1000x384_S384x64_S1000x64_1_0_0_1_n_n_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

abbrev win0_0 : Pipeline.Window sig grid0 :=
  Pipeline.Window.ofSpec (Memref.whole main_v24) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S1000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v57) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v75) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v76) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v77) S1000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v90) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v92) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v105) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v106) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v107) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v108) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v109) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v110) S1000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v111) S1000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S384x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v112) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v113) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v114) S1000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S384x64 : Shape := ⟨2, ![384, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x384 : Shape := ⟨2, ![50000, 384]⟩
abbrev S50000x64 : Shape := ⟨2, ![50000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S384x64, .f32⟩
  | 10 => ⟨S64, .f32⟩
  | 11 => ⟨S64x2, .f32⟩
  | 12 => ⟨S2, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x1, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S1x128x128, .f32⟩
  | 54 => ⟨S128x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S50000x1, .f32⟩
  | 98 => ⟨S50000x128, .f32⟩
  | 99 => ⟨S50000x128, .f32⟩
  | 100 => ⟨S1x128x128, .f32⟩
  | 101 => ⟨S128x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S_, .f32⟩
  | 120 => ⟨S128, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x1, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S128, .f32⟩
  | 46 => ⟨S_, .f32⟩
  | 47 => ⟨S128, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x384, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x2, .f32⟩
  | 75 => ⟨S1x2, .f32⟩
  | 76 => ⟨S50000x2, .f32⟩
  | 77 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call0_cst : Ref sig .tc := ⟨.hbm, 81, rfl⟩
abbrev main_call0_v0 : Ref sig .tc := ⟨.hbm, 82, rfl⟩
abbrev main_v60 : Ref sig .tc := ⟨.hbm, 83, rfl⟩
abbrev main_c_6 : Ref sig .tc := ⟨.hbm, 84, rfl⟩
abbrev main_v61 : Ref sig .tc := ⟨.hbm, 85, rfl⟩
abbrev main_v62 : Ref sig .tc := ⟨.hbm, 86, rfl⟩
abbrev main_c_7 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_9 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_call1_cst : Ref sig .tc := ⟨.hbm, 136, rfl⟩
abbrev main_call1_v0 : Ref sig .tc := ⟨.hbm, 137, rfl⟩
abbrev main_v109 : Ref sig .tc := ⟨.hbm, 138, rfl⟩
abbrev main_c_10 : Ref sig .tc := ⟨.hbm, 139, rfl⟩
abbrev main_v110 : Ref sig .tc := ⟨.hbm, 140, rfl⟩
abbrev main_v111 : Ref sig .tc := ⟨.hbm, 141, rfl⟩
abbrev main_c_11 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_12 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_13 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_call2_cst : Ref sig .tc := ⟨.hbm, 191, rfl⟩
abbrev main_call2_v0 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_call3_cst : Ref sig .tc := ⟨.hbm, 199, rfl⟩
abbrev main_call3_v0 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x384_S384x64_S50000x64_1_0_0_1_n_n_wf : DotDims.WF S50000x384 S384x64 S50000x64 [1] [0] [0] [1] [] []
  dot_S50000x64_S64x2_S50000x2_1_0_0_1_n_n_wf : DotDims.WF S50000x64 S64x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x384_S384x64_S50000x64_1_0_0_1_n_n : DotDims S50000x384 S384x64 S50000x64 where
  lhsContracting := [1]
  rhsContracting := [0]
  lhsNonContracting := [0]
  rhsNonContracting := [1]
  lhsBatch := []
  rhsBatch := []
  wf := dot_S50000x384_S384x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.BitsRegion0.lean ====
/-
  Region 0 of the program's four kernel launches, at any float instance: the kernel body's run on one block and the
  per-point proof data a pipelined launch needs (which buffer holds which block when the body is called, and what the body
  leaves).  Stated at a PARAMETER `V`, the contents of the core's buffers when the region is entered.
-/
import proofs.«160495_j17575006175717_1_alg».proof.Proof.Gen.Kernel.Launch
import proofs.«160495_j17575006175717_1_alg».proof.Proof.Gen.Kernel.Skeleton
import proofs.«160495_j17575006175717_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of a thousand rows: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the kernel body `cc0__layer_kernel` on one block of rows, at any contents `V` of the core's buffers on entry

The body reads a block of 1000 rows of the neighbour means and of the features, the two 128×128 weight matrices and the five
per-feature rows, and stores, for every row of the block,
  max( ((means·Wl + bl) + features·Wr − mean) · (var + ε)^(-1/2) · γ + β , 0 )
over the whole output block in one store.  What is proved here is only that it runs, and WHAT it stores as a function of the
blocks it was handed (the payload of the one store); the arithmetic is read elsewhere. -/

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or the block index
    stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or the block index
    stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetched it or the block index
    stood still since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the point fetched it or the block index
    stood still since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether the point fetched it or the block index
    stood still since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, whether the point fetched it or the block index
    stood still since the last fetch. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, whether the point fetched it or the block index
    stood still since the last fetch. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, whether the point fetched it or the block index
    stood still since the last fetch. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer, from the input blocks: its one store, over the whole buffer. -/
def out0_9 (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) : Vec F S1000x128 .f32 :=
  View.canon [⟨(Rect.unit (s := S1000x128) ![0, 0] S1000x128.size inb_S1000x128_S1000x128_0_0), k0_pay1 (k0_pay2 (View.ld x0 (Rect.unit (s := S1000x128) ![0, 0] S1000x128.size inb_S1000x128_S1000x128_0_0)) (View.ld x1 (Rect.unit (s := S1000x128) ![0, 0] S1000x128.size inb_S1000x128_S1000x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S1x128) ![0, 0] S1x128.size inb_S1x128_S1x128_0_0)) (View.ld x8 (Rect.unit (s := S1x128) ![0, 0] S1x128.size inb_S1x128_S1x128_0_0)) (View.ld x7 (Rect.unit (s := S1x128) ![0, 0] S1x128.size inb_S1x128_S1x128_0_0)) (View.ld x5 (Rect.unit (s := S1x128) ![0, 0] S1x128.size inb_S1x128_S1x128_0_0)) (View.ld x6 (Rect.unit (s := S1x128) ![0, 0] S1x128.size inb_S1x128_S1x128_0_0))) (Scalar.ofBits .f32 0x00000000#32)⟩]

/-- The one store covers the buffer. -/
theorem cover0_9 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The body on whole staging buffers — the inputs' at contents `xW`, the output's at anything — runs to the end, leaves the
    inputs' as they were and the output's at `out0_9` of them. -/
theorem sound_kernel0 (c : Dev nD) (E : Set ℕ) (i : grid0.Coords) (arg1 : Memref sig .tc .vmem S1000x128 .f32) (harg1 : arg1.IsWhole) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1000x128 .f32) (harg10 : arg10.IsWhole)
    (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The proof data of this pipeline on core `c`: the arrays as the region finds them; after the body at point `t` each
    input's buffer at its block and the output's at `out0_9` of the input blocks; nothing carried between points,
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's run applies; what is carried beside the
    windows passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.BitsRegion1.lean ====
/-
  Region 1 of the program's four kernel launches, at any float instance: the kernel body's run on one block and the
  per-point proof data a pipelined launch needs (which buffer holds which block when the body is called, and what the body
  leaves).  Stated at a PARAMETER `V`, the contents of the core's buffers when the region is entered.
-/
import proofs.«160495_j17575006175717_1_alg».proof.Proof.Gen.Kernel.Launch
import proofs.«160495_j17575006175717_1_alg».proof.Proof.Gen.Kernel.Skeleton
import proofs.«160495_j17575006175717_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of a thousand rows: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the kernel body `cc1__layer_kernel` on one block of rows, at any contents `V` of the core's buffers on entry

The body reads a block of 1000 rows of the neighbour means and of the features, the two 128×128 weight matrices and the five
per-feature rows, and stores, for every row of the block,
  max( ((means·Wl + bl) + features·Wr − mean) · (var + ε)^(-1/2) · γ + β , 0 )
over the whole output block in one store.  What is proved here is only that it runs, and WHAT it stores as a function of the
blocks it was handed (the payload of the one store); the arithmetic is read elsewhere. -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or the block index
    stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or the block index
    stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetched it or the block index
    stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetched it or the block index
    stood still since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the point fetched it or the block index
    stood still since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether the point fetched it or the block index
    stood still since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, whether the point fetched it or the block index
    stood still since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, whether the point fetched it or the block index
    stood still since the last fetch. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer, from the input blocks: its one store, over the whole buffer. -/
def out1_9 (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) : Vec F S1000x128 .f32 :=
  View.canon [⟨(Rect.unit (s := S1000x128) ![0, 0] S1000x128.size inb_S1000x128_S1000x128_0_0), k1_pay1 (k1_pay2 (View.ld x0 (Rect.unit (s := S1000x128) ![0, 0] S1000x128.size inb_S1000x128_S1000x128_0_0)) (View.ld x1 (Rect.unit (s := S1000x128) ![0, 0] S1000x128.size inb_S1000x128_S1000x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S1x128) ![0, 0] S1x128.size inb_S1x128_S1x128_0_0)) (View.ld x8 (Rect.unit (s := S1x128) ![0, 0] S1x128.size inb_S1x128_S1x128_0_0)) (View.ld x7 (Rect.unit (s := S1x128) ![0, 0] S1x128.size inb_S1x128_S1x128_0_0)) (View.ld x5 (Rect.unit (s := S1x128) ![0, 0] S1x128.size inb_S1x128_S1x128_0_0)) (View.ld x6 (Rect.unit (s := S1x128) ![0, 0] S1x128.size inb_S1x128_S1x128_0_0)))⟩]

/-- The one store covers the buffer. -/
theorem cover1_9 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The body on whole staging buffers — the inputs' at contents `xW`, the output's at anything — runs to the end, leaves the
    inputs' as they were and the output's at `out1_9` of them. -/
theorem sound_kernel1 (c : Dev nD) (E : Set ℕ) (i : grid1.Coords) (arg1 : Memref sig .tc .vmem S1000x128 .f32) (harg1 : arg1.IsWhole) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1000x128 .f32) (harg10 : arg10.IsWhole)
    (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- The proof data of this pipeline on core `c`: the arrays as the region finds them; after the body at point `t` each
    input's buffer at its block and the output's at `out1_9` of the input blocks; nothing carried between points,
    nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's run applies; what is carried beside the
    windows passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.BitsRegion2.lean ====
/-
  Region 2 of the program's four kernel launches, at any float instance: the kernel body's run on one block and the
  per-point proof data a pipelined launch needs (which buffer holds which block when the body is called, and what the body
  leaves).  Stated at a PARAMETER `V`, the contents of the core's buffers when the region is entered.
-/
import proofs.«160495_j17575006175717_1_alg».proof.Proof.Gen.Kernel.Launch
import proofs.«160495_j17575006175717_1_alg».proof.Proof.Gen.Kernel.Skeleton
import proofs.«160495_j17575006175717_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of a thousand rows: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: the kernel body `cc2__layer_kernel` on one block of rows, at any contents `V` of the core's buffers on entry

The body reads a block of 1000 rows of the neighbour means and of the features, the two 128×128 weight matrices and the five
per-feature rows, and stores, for every row of the block,
  max( ((means·Wl + bl) + features·Wr − mean) · (var + ε)^(-1/2) · γ + β , 0 )
over the whole output block in one store.  What is proved here is only that it runs, and WHAT it stores as a function of the
blocks it was handed (the payload of the one store); the arithmetic is read elsewhere. -/

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or the block index
    stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or the block index
    stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or the block index
    stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetched it or the block index
    stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetched it or the block index
    stood still since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether the point fetched it or the block index
    stood still since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, whether the point fetched it or the block index
    stood still since the last fetch. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, whether the point fetched it or the block index
    stood still since the last fetch. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's staging buffer holds its block at every point, whether the point fetched it or the block index
    stood still since the last fetch. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output window's buffer, from the input blocks: its one store, over the whole buffer. -/
def out2_9 (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) : Vec F S1000x128 .f32 :=
  View.canon [⟨(Rect.unit (s := S1000x128) ![0, 0] S1000x128.size inb_S1000x128_S1000x128_0_0), k2_pay1 (k2_pay2 (View.ld x0 (Rect.unit (s := S1000x128) ![0, 0] S1000x128.size inb_S1000x128_S1000x128_0_0)) (View.ld x1 (Rect.unit (s := S1000x128) ![0, 0] S1000x128.size inb_S1000x128_S1000x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S1x128) ![0, 0] S1x128.size inb_S1x128_S1x128_0_0)) (View.ld x8 (Rect.unit (s := S1x128) ![0, 0] S1x128.size inb_S1x128_S1x128_0_0)) (View.ld x7 (Rect.unit (s := S1x128) ![0, 0] S1x128.size inb_S1x128_S1x128_0_0)) (View.ld x5 (Rect.unit (s := S1x128) ![0, 0] S1x128.size inb_S1x128_S1x128_0_0)) (View.ld x6 (Rect.unit (s := S1x128) ![0, 0] S1x128.size inb_S1x128_S1x128_0_0)))⟩]

/-- The one store covers the buffer. -/
theorem cover2_9 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The body on whole staging buffers — the inputs' at contents `xW`, the output's at anything — runs to the end, leaves the
    inputs' as they were and the output's at `out2_9` of them. -/
theorem sound_kernel2 (c : Dev nD) (E : Set ℕ) (i : grid2.Coords) (arg1 : Memref sig .tc .vmem S1000x128 .f32) (harg1 : arg1.IsWhole) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1000x128 .f32) (harg10 : arg10.IsWhole)
    (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8 arg9 harg9 arg10 harg10) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The proof data of this pipeline on core `c`: the arrays as the region finds them; after the body at point `t` each
    input's buffer at its block and the output's at `out2_9` of the input blocks; nothing carried between points,
    nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's run applies; what is carried beside the
    windows passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.BitsRegion3.lean ====
/-
  Region 3 of the program's four kernel launches, at any float instance: the kernel body's run on one block and the
  per-point proof data a pipelined launch needs (which buffer holds which block when the body is called, and what the body
  leaves).  Stated at a PARAMETER `V`, the contents of the core's buffers when the region is entered.
-/
import proofs.«160495_j17575006175717_1_alg».proof.Proof.Gen.Kernel.Launch
import proofs.«160495_j17575006175717_1_alg».proof.Proof.Gen.Kernel.Skeleton
import proofs.«160495_j17575006175717_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of a thousand rows: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3: the kernel body `cc3__clf_kernel` on one block of rows, at any contents `V` of the core's buffers on entry

The body reads a block of 1000 joined rows (384 features), the two classifier matrices and their bias rows, and stores
  max(rows·W₁ + b₁, 0)·W₂ + b₂
over the whole output block in one store.  What is proved here is only that it runs, and WHAT it stores as a function of the
blocks it was handed. -/

section
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or the block index
    stood still since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or the block index
    stood still since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or the block index
    stood still since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the point fetched it or the block index
    stood still since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the point fetched it or the block index
    stood still since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the output window's buffer, from the input blocks: its one store, over the whole buffer. -/
def out3_5 (x0 : Vec F S1000x384 .f32) (x1 : Vec F S384x64 .f32) (x2 : Vec F S1x64 .f32) (x3 : Vec F S64x2 .f32) (x4 : Vec F S1x2 .f32) : Vec F S1000x2 .f32 :=
  View.canon [⟨(Rect.unit (s := S1000x2) ![0, 0] S1000x2.size inb_S1000x2_S1000x2_0_0), k3_pay1 (View.ld x0 (Rect.unit (s := S1000x384) ![0, 0] S1000x384.size inb_S1000x384_S1000x384_0_0)) (View.ld x1 (Rect.unit (s := S384x64) ![0, 0] S384x64.size inb_S384x64_S384x64_0_0)) (View.ld x2 (Rect.unit (s := S1x64) ![0, 0] S1x64.size inb_S1x64_S1x64_0_0)) (View.ld x3 (Rect.unit (s := S64x2) ![0, 0] S64x2.size inb_S64x2_S64x2_0_0)) (View.ld x4 (Rect.unit (s := S1x2) ![0, 0] S1x2.size inb_S1x2_S1x2_0_0))⟩]

/-- The one store covers the buffer. -/
theorem cover3_5 (p0 : Vec F S1000x2 .f32) (y : S1000x2.Idx) :
    ∃ pc ∈ ([⟨(Rect.unit (s := S1000x2) ![0, 0] S1000x2.size inb_S1000x2_S1000x2_0_0), p0⟩] : List (View.Piece (Elt F) S1000x2 .f32)), y ∈ pc.1.set :=
  View.cover_of_tiled [⟨(Rect.unit (s := S1000x2) ![0, 0] S1000x2.size inb_S1000x2_S1000x2_0_0), p0⟩] S1000x2.size (by rfl) y

set_option maxHeartbeats 4000000 in
/-- The body on whole staging buffers — the inputs' at contents `xW`, the output's at anything — runs to the end, leaves the
    inputs' as they were and the output's at `out3_5` of them. -/
theorem sound_kernel3 (c : Dev nD) (E : Set ℕ) (i : grid3.Coords) (arg1 : Memref sig .tc .vmem S1000x384 .f32) (harg1 : arg1.IsWhole) (arg2 : Memref sig .tc .vmem S384x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S1x2 .f32) (harg5 : arg5.IsWhole) (arg6 : Memref sig .tc .vmem S1000x2 .f32) (harg6 : arg6.IsWhole)
    (x0 : Vec F S1000x384 .f32) (x1 : Vec F S384x64 .f32) (x2 : Vec F S1x64 .f32) (x3 : Vec F S64x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__clf_kernel i arg1 harg1 arg2 harg2 arg3 harg3 arg4 harg4 arg5 harg5 arg6 harg6) K := by
  simp only [cc3__clf_kernel_eq_skeleton]; unfold cc3__clf_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline on core `c`: the arrays as the region finds them; after the body at point `t` each
    input's buffer at its block and the output's at `out3_5` of the input blocks; nothing carried between points,
    nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's run applies; what is carried beside the
    windows passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end

end Cert.Kernel.Hand

end
-- ==== Proof.BitsRun.lean ====
/-
  The whole run of the program, at any float instance.  @main is eight stretches in a row: host operations, kernel launch 0,
  host operations, launch 1, host operations, launch 2, host operations (the joined rows), launch 3.  The contents of the
  core's buffers at each boundary are a fold from the launch memory: a host stretch applies its operations; a launch leaves
  every array of its windows at what its pipeline's write-backs leave (the inputs as entered, the output at the blocks the
  body stored) and every other buffer as entered.  The run theorem says: every execution terminates, nothing faults, the
  result array holds the last fold's contents and the thirteen argument arrays hold what they held at launch.
-/
import proofs.«160495_j17575006175717_1_alg».proof.Proof.BitsRegion0
import proofs.«160495_j17575006175717_1_alg».proof.Proof.BitsRegion1
import proofs.«160495_j17575006175717_1_alg».proof.Proof.BitsRegion2
import proofs.«160495_j17575006175717_1_alg».proof.Proof.BitsRegion3
import proofs.«160495_j17575006175717_1_alg».proof.Proof.Gen.Kernel.Regions

-- membership in a rectangle of a thousand rows: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After host stretch 0 (launch 0's entry). -/
abbrev W1 : Dev nD → Valuation τ sig (Elt F) := fun c => StableHlo.after hostOps0 (W0 m c)
/-- The same read at the core's own references. -/
abbrev V1 : (c : Dev nD) → (b : Ref sig .tc) → Buf (Elt F) ((c : Thread nD τ).loc b) := fun c b => W1 m c b
/-- At launch 0's exit: its windows' arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the launch as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After host stretch 1 (launch 1's entry). -/
abbrev W3 : Dev nD → Valuation τ sig (Elt F) := fun c => StableHlo.after hostOps1 (W2 m c)
/-- The same read at the core's own references. -/
abbrev V3 : (c : Dev nD) → (b : Ref sig .tc) → Buf (Elt F) ((c : Thread nD τ).loc b) := fun c b => W3 m c b
/-- At launch 1's exit: its windows' arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input window's array leaves the launch as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After host stretch 2 (launch 2's entry). -/
abbrev W5 : Dev nD → Valuation τ sig (Elt F) := fun c => StableHlo.after hostOps2 (W4 m c)
/-- The same read at the core's own references. -/
abbrev V5 : (c : Dev nD) → (b : Ref sig .tc) → Buf (Elt F) ((c : Thread nD τ).loc b) := fun c b => W5 m c b
/-- At launch 2's exit: its windows' arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- An input window's array leaves the launch as it entered. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After host stretch 3 (launch 3's entry). -/
abbrev W7 : Dev nD → Valuation τ sig (Elt F) := fun c => StableHlo.after hostOps3 (W6 m c)
/-- The same read at the core's own references. -/
abbrev V7 : (c : Dev nD) → (b : Ref sig .tc) → Buf (Elt F) ((c : Thread nD τ).loc b) := fun c b => W7 m c b
/-- At launch 3's exit: its windows' arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- An input window's array leaves the launch as it entered. -/
theorem W8_in (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The arguments end as launched: no host operation writes one, and a launch reads it through an input window or not at all -/

theorem W0_main_arg0 (c : Dev nD) : W0 m c (Proc.devRef .tc main_arg0) = m ((c : Thread nD τ).loc main_arg0) := rfl
theorem W1_main_arg0 (c : Dev nD) : W1 m c (Proc.devRef .tc main_arg0) = m ((c : Thread nD τ).loc main_arg0) :=
  (StableHlo.after_of_writes_sub hostOps0 _ hostOps0_writes (by decide : main_arg0 ∉ hostOps0_W)).trans (W0_main_arg0 m c)
theorem W2_main_arg0 (c : Dev nD) : W2 m c (Proc.devRef .tc main_arg0) = m ((c : Thread nD τ).loc main_arg0) :=
  (W2_in m c 1 rfl).trans (W1_main_arg0 m c)
theorem W3_main_arg0 (c : Dev nD) : W3 m c (Proc.devRef .tc main_arg0) = m ((c : Thread nD τ).loc main_arg0) :=
  (StableHlo.after_of_writes_sub hostOps1 _ hostOps1_writes (by decide : main_arg0 ∉ hostOps1_W)).trans (W2_main_arg0 m c)
theorem W4_main_arg0 (c : Dev nD) : W4 m c (Proc.devRef .tc main_arg0) = m ((c : Thread nD τ).loc main_arg0) :=
  (W4_of_ne m c main_arg0 (by decide)).trans (W3_main_arg0 m c)
theorem W5_main_arg0 (c : Dev nD) : W5 m c (Proc.devRef .tc main_arg0) = m ((c : Thread nD τ).loc main_arg0) :=
  (StableHlo.after_of_writes_sub hostOps2 _ hostOps2_writes (by decide : main_arg0 ∉ hostOps2_W)).trans (W4_main_arg0 m c)
theorem W6_main_arg0 (c : Dev nD) : W6 m c (Proc.devRef .tc main_arg0) = m ((c : Thread nD τ).loc main_arg0) :=
  (W6_of_ne m c main_arg0 (by decide)).trans (W5_main_arg0 m c)
theorem W7_main_arg0 (c : Dev nD) : W7 m c (Proc.devRef .tc main_arg0) = m ((c : Thread nD τ).loc main_arg0) :=
  (StableHlo.after_of_writes_sub hostOps3 _ hostOps3_writes (by decide : main_arg0 ∉ hostOps3_W)).trans (W6_main_arg0 m c)
theorem W8_main_arg0 (c : Dev nD) : W8 m c (Proc.devRef .tc main_arg0) = m ((c : Thread nD τ).loc main_arg0) :=
  (W8_of_ne m c main_arg0 (by decide)).trans (W7_main_arg0 m c)
theorem W0_main_arg1 (c : Dev nD) : W0 m c (Proc.devRef .tc main_arg1) = m ((c : Thread nD τ).loc main_arg1) := rfl
theorem W1_main_arg1 (c : Dev nD) : W1 m c (Proc.devRef .tc main_arg1) = m ((c : Thread nD τ).loc main_arg1) :=
  (StableHlo.after_of_writes_sub hostOps0 _ hostOps0_writes (by decide : main_arg1 ∉ hostOps0_W)).trans (W0_main_arg1 m c)
theorem W2_main_arg1 (c : Dev nD) : W2 m c (Proc.devRef .tc main_arg1) = m ((c : Thread nD τ).loc main_arg1) :=
  (W2_of_ne m c main_arg1 (by decide)).trans (W1_main_arg1 m c)
theorem W3_main_arg1 (c : Dev nD) : W3 m c (Proc.devRef .tc main_arg1) = m ((c : Thread nD τ).loc main_arg1) :=
  (StableHlo.after_of_writes_sub hostOps1 _ hostOps1_writes (by decide : main_arg1 ∉ hostOps1_W)).trans (W2_main_arg1 m c)
theorem W4_main_arg1 (c : Dev nD) : W4 m c (Proc.devRef .tc main_arg1) = m ((c : Thread nD τ).loc main_arg1) :=
  (W4_of_ne m c main_arg1 (by decide)).trans (W3_main_arg1 m c)
theorem W5_main_arg1 (c : Dev nD) : W5 m c (Proc.devRef .tc main_arg1) = m ((c : Thread nD τ).loc main_arg1) :=
  (StableHlo.after_of_writes_sub hostOps2 _ hostOps2_writes (by decide : main_arg1 ∉ hostOps2_W)).trans (W4_main_arg1 m c)
theorem W6_main_arg1 (c : Dev nD) : W6 m c (Proc.devRef .tc main_arg1) = m ((c : Thread nD τ).loc main_arg1) :=
  (W6_of_ne m c main_arg1 (by decide)).trans (W5_main_arg1 m c)
theorem W7_main_arg1 (c : Dev nD) : W7 m c (Proc.devRef .tc main_arg1) = m ((c : Thread nD τ).loc main_arg1) :=
  (StableHlo.after_of_writes_sub hostOps3 _ hostOps3_writes (by decide : main_arg1 ∉ hostOps3_W)).trans (W6_main_arg1 m c)
theorem W8_main_arg1 (c : Dev nD) : W8 m c (Proc.devRef .tc main_arg1) = m ((c : Thread nD τ).loc main_arg1) :=
  (W8_of_ne m c main_arg1 (by decide)).trans (W7_main_arg1 m c)
theorem W0_main_arg2 (c : Dev nD) : W0 m c (Proc.devRef .tc main_arg2) = m ((c : Thread nD τ).loc main_arg2) := rfl
theorem W1_main_arg2 (c : Dev nD) : W1 m c (Proc.devRef .tc main_arg2) = m ((c : Thread nD τ).loc main_arg2) :=
  (StableHlo.after_of_writes_sub hostOps0 _ hostOps0_writes (by decide : main_arg2 ∉ hostOps0_W)).trans (W0_main_arg2 m c)
theorem W2_main_arg2 (c : Dev nD) : W2 m c (Proc.devRef .tc main_arg2) = m ((c : Thread nD τ).loc main_arg2) :=
  (W2_of_ne m c main_arg2 (by decide)).trans (W1_main_arg2 m c)
theorem W3_main_arg2 (c : Dev nD) : W3 m c (Proc.devRef .tc main_arg2) = m ((c : Thread nD τ).loc main_arg2) :=
  (StableHlo.after_of_writes_sub hostOps1 _ hostOps1_writes (by decide : main_arg2 ∉ hostOps1_W)).trans (W2_main_arg2 m c)
theorem W4_main_arg2 (c : Dev nD) : W4 m c (Proc.devRef .tc main_arg2) = m ((c : Thread nD τ).loc main_arg2) :=
  (W4_of_ne m c main_arg2 (by decide)).trans (W3_main_arg2 m c)
theorem W5_main_arg2 (c : Dev nD) : W5 m c (Proc.devRef .tc main_arg2) = m ((c : Thread nD τ).loc main_arg2) :=
  (StableHlo.after_of_writes_sub hostOps2 _ hostOps2_writes (by decide : main_arg2 ∉ hostOps2_W)).trans (W4_main_arg2 m c)
theorem W6_main_arg2 (c : Dev nD) : W6 m c (Proc.devRef .tc main_arg2) = m ((c : Thread nD τ).loc main_arg2) :=
  (W6_of_ne m c main_arg2 (by decide)).trans (W5_main_arg2 m c)
theorem W7_main_arg2 (c : Dev nD) : W7 m c (Proc.devRef .tc main_arg2) = m ((c : Thread nD τ).loc main_arg2) :=
  (StableHlo.after_of_writes_sub hostOps3 _ hostOps3_writes (by decide : main_arg2 ∉ hostOps3_W)).trans (W6_main_arg2 m c)
theorem W8_main_arg2 (c : Dev nD) : W8 m c (Proc.devRef .tc main_arg2) = m ((c : Thread nD τ).loc main_arg2) :=
  (W8_of_ne m c main_arg2 (by decide)).trans (W7_main_arg2 m c)
theorem W0_main_arg3 (c : Dev nD) : W0 m c (Proc.devRef .tc main_arg3) = m ((c : Thread nD τ).loc main_arg3) := rfl
theorem W1_main_arg3 (c : Dev nD) : W1 m c (Proc.devRef .tc main_arg3) = m ((c : Thread nD τ).loc main_arg3) :=
  (StableHlo.after_of_writes_sub hostOps0 _ hostOps0_writes (by decide : main_arg3 ∉ hostOps0_W)).trans (W0_main_arg3 m c)
theorem W2_main_arg3 (c : Dev nD) : W2 m c (Proc.devRef .tc main_arg3) = m ((c : Thread nD τ).loc main_arg3) :=
  (W2_of_ne m c main_arg3 (by decide)).trans (W1_main_arg3 m c)
theorem W3_main_arg3 (c : Dev nD) : W3 m c (Proc.devRef .tc main_arg3) = m ((c : Thread nD τ).loc main_arg3) :=
  (StableHlo.after_of_writes_sub hostOps1 _ hostOps1_writes (by decide : main_arg3 ∉ hostOps1_W)).trans (W2_main_arg3 m c)
theorem W4_main_arg3 (c : Dev nD) : W4 m c (Proc.devRef .tc main_arg3) = m ((c : Thread nD τ).loc main_arg3) :=
  (W4_of_ne m c main_arg3 (by decide)).trans (W3_main_arg3 m c)
theorem W5_main_arg3 (c : Dev nD) : W5 m c (Proc.devRef .tc main_arg3) = m ((c : Thread nD τ).loc main_arg3) :=
  (StableHlo.after_of_writes_sub hostOps2 _ hostOps2_writes (by decide : main_arg3 ∉ hostOps2_W)).trans (W4_main_arg3 m c)
theorem W6_main_arg3 (c : Dev nD) : W6 m c (Proc.devRef .tc main_arg3) = m ((c : Thread nD τ).loc main_arg3) :=
  (W6_of_ne m c main_arg3 (by decide)).trans (W5_main_arg3 m c)
theorem W7_main_arg3 (c : Dev nD) : W7 m c (Proc.devRef .tc main_arg3) = m ((c : Thread nD τ).loc main_arg3) :=
  (StableHlo.after_of_writes_sub hostOps3 _ hostOps3_writes (by decide : main_arg3 ∉ hostOps3_W)).trans (W6_main_arg3 m c)
theorem W8_main_arg3 (c : Dev nD) : W8 m c (Proc.devRef .tc main_arg3) = m ((c : Thread nD τ).loc main_arg3) :=
  (W8_of_ne m c main_arg3 (by decide)).trans (W7_main_arg3 m c)
theorem W0_main_arg4 (c : Dev nD) : W0 m c (Proc.devRef .tc main_arg4) = m ((c : Thread nD τ).loc main_arg4) := rfl
theorem W1_main_arg4 (c : Dev nD) : W1 m c (Proc.devRef .tc main_arg4) = m ((c : Thread nD τ).loc main_arg4) :=
  (StableHlo.after_of_writes_sub hostOps0 _ hostOps0_writes (by decide : main_arg4 ∉ hostOps0_W)).trans (W0_main_arg4 m c)
theorem W2_main_arg4 (c : Dev nD) : W2 m c (Proc.devRef .tc main_arg4) = m ((c : Thread nD τ).loc main_arg4) :=
  (W2_of_ne m c main_arg4 (by decide)).trans (W1_main_arg4 m c)
theorem W3_main_arg4 (c : Dev nD) : W3 m c (Proc.devRef .tc main_arg4) = m ((c : Thread nD τ).loc main_arg4) :=
  (StableHlo.after_of_writes_sub hostOps1 _ hostOps1_writes (by decide : main_arg4 ∉ hostOps1_W)).trans (W2_main_arg4 m c)
theorem W4_main_arg4 (c : Dev nD) : W4 m c (Proc.devRef .tc main_arg4) = m ((c : Thread nD τ).loc main_arg4) :=
  (W4_of_ne m c main_arg4 (by decide)).trans (W3_main_arg4 m c)
theorem W5_main_arg4 (c : Dev nD) : W5 m c (Proc.devRef .tc main_arg4) = m ((c : Thread nD τ).loc main_arg4) :=
  (StableHlo.after_of_writes_sub hostOps2 _ hostOps2_writes (by decide : main_arg4 ∉ hostOps2_W)).trans (W4_main_arg4 m c)
theorem W6_main_arg4 (c : Dev nD) : W6 m c (Proc.devRef .tc main_arg4) = m ((c : Thread nD τ).loc main_arg4) :=
  (W6_of_ne m c main_arg4 (by decide)).trans (W5_main_arg4 m c)
theorem W7_main_arg4 (c : Dev nD) : W7 m c (Proc.devRef .tc main_arg4) = m ((c : Thread nD τ).loc main_arg4) :=
  (StableHlo.after_of_writes_sub hostOps3 _ hostOps3_writes (by decide : main_arg4 ∉ hostOps3_W)).trans (W6_main_arg4 m c)
theorem W8_main_arg4 (c : Dev nD) : W8 m c (Proc.devRef .tc main_arg4) = m ((c : Thread nD τ).loc main_arg4) :=
  (W8_of_ne m c main_arg4 (by decide)).trans (W7_main_arg4 m c)
theorem W0_main_arg5 (c : Dev nD) : W0 m c (Proc.devRef .tc main_arg5) = m ((c : Thread nD τ).loc main_arg5) := rfl
theorem W1_main_arg5 (c : Dev nD) : W1 m c (Proc.devRef .tc main_arg5) = m ((c : Thread nD τ).loc main_arg5) :=
  (StableHlo.after_of_writes_sub hostOps0 _ hostOps0_writes (by decide : main_arg5 ∉ hostOps0_W)).trans (W0_main_arg5 m c)
theorem W2_main_arg5 (c : Dev nD) : W2 m c (Proc.devRef .tc main_arg5) = m ((c : Thread nD τ).loc main_arg5) :=
  (W2_of_ne m c main_arg5 (by decide)).trans (W1_main_arg5 m c)
theorem W3_main_arg5 (c : Dev nD) : W3 m c (Proc.devRef .tc main_arg5) = m ((c : Thread nD τ).loc main_arg5) :=
  (StableHlo.after_of_writes_sub hostOps1 _ hostOps1_writes (by decide : main_arg5 ∉ hostOps1_W)).trans (W2_main_arg5 m c)
theorem W4_main_arg5 (c : Dev nD) : W4 m c (Proc.devRef .tc main_arg5) = m ((c : Thread nD τ).loc main_arg5) :=
  (W4_of_ne m c main_arg5 (by decide)).trans (W3_main_arg5 m c)
theorem W5_main_arg5 (c : Dev nD) : W5 m c (Proc.devRef .tc main_arg5) = m ((c : Thread nD τ).loc main_arg5) :=
  (StableHlo.after_of_writes_sub hostOps2 _ hostOps2_writes (by decide : main_arg5 ∉ hostOps2_W)).trans (W4_main_arg5 m c)
theorem W6_main_arg5 (c : Dev nD) : W6 m c (Proc.devRef .tc main_arg5) = m ((c : Thread nD τ).loc main_arg5) :=
  (W6_of_ne m c main_arg5 (by decide)).trans (W5_main_arg5 m c)
theorem W7_main_arg5 (c : Dev nD) : W7 m c (Proc.devRef .tc main_arg5) = m ((c : Thread nD τ).loc main_arg5) :=
  (StableHlo.after_of_writes_sub hostOps3 _ hostOps3_writes (by decide : main_arg5 ∉ hostOps3_W)).trans (W6_main_arg5 m c)
theorem W8_main_arg5 (c : Dev nD) : W8 m c (Proc.devRef .tc main_arg5) = m ((c : Thread nD τ).loc main_arg5) :=
  (W8_of_ne m c main_arg5 (by decide)).trans (W7_main_arg5 m c)
theorem W0_main_arg6 (c : Dev nD) : W0 m c (Proc.devRef .tc main_arg6) = m ((c : Thread nD τ).loc main_arg6) := rfl
theorem W1_main_arg6 (c : Dev nD) : W1 m c (Proc.devRef .tc main_arg6) = m ((c : Thread nD τ).loc main_arg6) :=
  (StableHlo.after_of_writes_sub hostOps0 _ hostOps0_writes (by decide : main_arg6 ∉ hostOps0_W)).trans (W0_main_arg6 m c)
theorem W2_main_arg6 (c : Dev nD) : W2 m c (Proc.devRef .tc main_arg6) = m ((c : Thread nD τ).loc main_arg6) :=
  (W2_of_ne m c main_arg6 (by decide)).trans (W1_main_arg6 m c)
theorem W3_main_arg6 (c : Dev nD) : W3 m c (Proc.devRef .tc main_arg6) = m ((c : Thread nD τ).loc main_arg6) :=
  (StableHlo.after_of_writes_sub hostOps1 _ hostOps1_writes (by decide : main_arg6 ∉ hostOps1_W)).trans (W2_main_arg6 m c)
theorem W4_main_arg6 (c : Dev nD) : W4 m c (Proc.devRef .tc main_arg6) = m ((c : Thread nD τ).loc main_arg6) :=
  (W4_of_ne m c main_arg6 (by decide)).trans (W3_main_arg6 m c)
theorem W5_main_arg6 (c : Dev nD) : W5 m c (Proc.devRef .tc main_arg6) = m ((c : Thread nD τ).loc main_arg6) :=
  (StableHlo.after_of_writes_sub hostOps2 _ hostOps2_writes (by decide : main_arg6 ∉ hostOps2_W)).trans (W4_main_arg6 m c)
theorem W6_main_arg6 (c : Dev nD) : W6 m c (Proc.devRef .tc main_arg6) = m ((c : Thread nD τ).loc main_arg6) :=
  (W6_of_ne m c main_arg6 (by decide)).trans (W5_main_arg6 m c)
theorem W7_main_arg6 (c : Dev nD) : W7 m c (Proc.devRef .tc main_arg6) = m ((c : Thread nD τ).loc main_arg6) :=
  (StableHlo.after_of_writes_sub hostOps3 _ hostOps3_writes (by decide : main_arg6 ∉ hostOps3_W)).trans (W6_main_arg6 m c)
theorem W8_main_arg6 (c : Dev nD) : W8 m c (Proc.devRef .tc main_arg6) = m ((c : Thread nD τ).loc main_arg6) :=
  (W8_of_ne m c main_arg6 (by decide)).trans (W7_main_arg6 m c)
theorem W0_main_arg7 (c : Dev nD) : W0 m c (Proc.devRef .tc main_arg7) = m ((c : Thread nD τ).loc main_arg7) := rfl
theorem W1_main_arg7 (c : Dev nD) : W1 m c (Proc.devRef .tc main_arg7) = m ((c : Thread nD τ).loc main_arg7) :=
  (StableHlo.after_of_writes_sub hostOps0 _ hostOps0_writes (by decide : main_arg7 ∉ hostOps0_W)).trans (W0_main_arg7 m c)
theorem W2_main_arg7 (c : Dev nD) : W2 m c (Proc.devRef .tc main_arg7) = m ((c : Thread nD τ).loc main_arg7) :=
  (W2_of_ne m c main_arg7 (by decide)).trans (W1_main_arg7 m c)
theorem W3_main_arg7 (c : Dev nD) : W3 m c (Proc.devRef .tc main_arg7) = m ((c : Thread nD τ).loc main_arg7) :=
  (StableHlo.after_of_writes_sub hostOps1 _ hostOps1_writes (by decide : main_arg7 ∉ hostOps1_W)).trans (W2_main_arg7 m c)
theorem W4_main_arg7 (c : Dev nD) : W4 m c (Proc.devRef .tc main_arg7) = m ((c : Thread nD τ).loc main_arg7) :=
  (W4_of_ne m c main_arg7 (by decide)).trans (W3_main_arg7 m c)
theorem W5_main_arg7 (c : Dev nD) : W5 m c (Proc.devRef .tc main_arg7) = m ((c : Thread nD τ).loc main_arg7) :=
  (StableHlo.after_of_writes_sub hostOps2 _ hostOps2_writes (by decide : main_arg7 ∉ hostOps2_W)).trans (W4_main_arg7 m c)
theorem W6_main_arg7 (c : Dev nD) : W6 m c (Proc.devRef .tc main_arg7) = m ((c : Thread nD τ).loc main_arg7) :=
  (W6_of_ne m c main_arg7 (by decide)).trans (W5_main_arg7 m c)
theorem W7_main_arg7 (c : Dev nD) : W7 m c (Proc.devRef .tc main_arg7) = m ((c : Thread nD τ).loc main_arg7) :=
  (StableHlo.after_of_writes_sub hostOps3 _ hostOps3_writes (by decide : main_arg7 ∉ hostOps3_W)).trans (W6_main_arg7 m c)
theorem W8_main_arg7 (c : Dev nD) : W8 m c (Proc.devRef .tc main_arg7) = m ((c : Thread nD τ).loc main_arg7) :=
  (W8_of_ne m c main_arg7 (by decide)).trans (W7_main_arg7 m c)
theorem W0_main_arg8 (c : Dev nD) : W0 m c (Proc.devRef .tc main_arg8) = m ((c : Thread nD τ).loc main_arg8) := rfl
theorem W1_main_arg8 (c : Dev nD) : W1 m c (Proc.devRef .tc main_arg8) = m ((c : Thread nD τ).loc main_arg8) :=
  (StableHlo.after_of_writes_sub hostOps0 _ hostOps0_writes (by decide : main_arg8 ∉ hostOps0_W)).trans (W0_main_arg8 m c)
theorem W2_main_arg8 (c : Dev nD) : W2 m c (Proc.devRef .tc main_arg8) = m ((c : Thread nD τ).loc main_arg8) :=
  (W2_of_ne m c main_arg8 (by decide)).trans (W1_main_arg8 m c)
theorem W3_main_arg8 (c : Dev nD) : W3 m c (Proc.devRef .tc main_arg8) = m ((c : Thread nD τ).loc main_arg8) :=
  (StableHlo.after_of_writes_sub hostOps1 _ hostOps1_writes (by decide : main_arg8 ∉ hostOps1_W)).trans (W2_main_arg8 m c)
theorem W4_main_arg8 (c : Dev nD) : W4 m c (Proc.devRef .tc main_arg8) = m ((c : Thread nD τ).loc main_arg8) :=
  (W4_of_ne m c main_arg8 (by decide)).trans (W3_main_arg8 m c)
theorem W5_main_arg8 (c : Dev nD) : W5 m c (Proc.devRef .tc main_arg8) = m ((c : Thread nD τ).loc main_arg8) :=
  (StableHlo.after_of_writes_sub hostOps2 _ hostOps2_writes (by decide : main_arg8 ∉ hostOps2_W)).trans (W4_main_arg8 m c)
theorem W6_main_arg8 (c : Dev nD) : W6 m c (Proc.devRef .tc main_arg8) = m ((c : Thread nD τ).loc main_arg8) :=
  (W6_of_ne m c main_arg8 (by decide)).trans (W5_main_arg8 m c)
theorem W7_main_arg8 (c : Dev nD) : W7 m c (Proc.devRef .tc main_arg8) = m ((c : Thread nD τ).loc main_arg8) :=
  (StableHlo.after_of_writes_sub hostOps3 _ hostOps3_writes (by decide : main_arg8 ∉ hostOps3_W)).trans (W6_main_arg8 m c)
theorem W8_main_arg8 (c : Dev nD) : W8 m c (Proc.devRef .tc main_arg8) = m ((c : Thread nD τ).loc main_arg8) :=
  (W8_of_ne m c main_arg8 (by decide)).trans (W7_main_arg8 m c)
theorem W0_main_arg9 (c : Dev nD) : W0 m c (Proc.devRef .tc main_arg9) = m ((c : Thread nD τ).loc main_arg9) := rfl
theorem W1_main_arg9 (c : Dev nD) : W1 m c (Proc.devRef .tc main_arg9) = m ((c : Thread nD τ).loc main_arg9) :=
  (StableHlo.after_of_writes_sub hostOps0 _ hostOps0_writes (by decide : main_arg9 ∉ hostOps0_W)).trans (W0_main_arg9 m c)
theorem W2_main_arg9 (c : Dev nD) : W2 m c (Proc.devRef .tc main_arg9) = m ((c : Thread nD τ).loc main_arg9) :=
  (W2_of_ne m c main_arg9 (by decide)).trans (W1_main_arg9 m c)
theorem W3_main_arg9 (c : Dev nD) : W3 m c (Proc.devRef .tc main_arg9) = m ((c : Thread nD τ).loc main_arg9) :=
  (StableHlo.after_of_writes_sub hostOps1 _ hostOps1_writes (by decide : main_arg9 ∉ hostOps1_W)).trans (W2_main_arg9 m c)
theorem W4_main_arg9 (c : Dev nD) : W4 m c (Proc.devRef .tc main_arg9) = m ((c : Thread nD τ).loc main_arg9) :=
  (W4_of_ne m c main_arg9 (by decide)).trans (W3_main_arg9 m c)
theorem W5_main_arg9 (c : Dev nD) : W5 m c (Proc.devRef .tc main_arg9) = m ((c : Thread nD τ).loc main_arg9) :=
  (StableHlo.after_of_writes_sub hostOps2 _ hostOps2_writes (by decide : main_arg9 ∉ hostOps2_W)).trans (W4_main_arg9 m c)
theorem W6_main_arg9 (c : Dev nD) : W6 m c (Proc.devRef .tc main_arg9) = m ((c : Thread nD τ).loc main_arg9) :=
  (W6_of_ne m c main_arg9 (by decide)).trans (W5_main_arg9 m c)
theorem W7_main_arg9 (c : Dev nD) : W7 m c (Proc.devRef .tc main_arg9) = m ((c : Thread nD τ).loc main_arg9) :=
  (StableHlo.after_of_writes_sub hostOps3 _ hostOps3_writes (by decide : main_arg9 ∉ hostOps3_W)).trans (W6_main_arg9 m c)
theorem W8_main_arg9 (c : Dev nD) : W8 m c (Proc.devRef .tc main_arg9) = m ((c : Thread nD τ).loc main_arg9) :=
  (W8_in m c 1 rfl).trans (W7_main_arg9 m c)
theorem W0_main_arg10 (c : Dev nD) : W0 m c (Proc.devRef .tc main_arg10) = m ((c : Thread nD τ).loc main_arg10) := rfl
theorem W1_main_arg10 (c : Dev nD) : W1 m c (Proc.devRef .tc main_arg10) = m ((c : Thread nD τ).loc main_arg10) :=
  (StableHlo.after_of_writes_sub hostOps0 _ hostOps0_writes (by decide : main_arg10 ∉ hostOps0_W)).trans (W0_main_arg10 m c)
theorem W2_main_arg10 (c : Dev nD) : W2 m c (Proc.devRef .tc main_arg10) = m ((c : Thread nD τ).loc main_arg10) :=
  (W2_of_ne m c main_arg10 (by decide)).trans (W1_main_arg10 m c)
theorem W3_main_arg10 (c : Dev nD) : W3 m c (Proc.devRef .tc main_arg10) = m ((c : Thread nD τ).loc main_arg10) :=
  (StableHlo.after_of_writes_sub hostOps1 _ hostOps1_writes (by decide : main_arg10 ∉ hostOps1_W)).trans (W2_main_arg10 m c)
theorem W4_main_arg10 (c : Dev nD) : W4 m c (Proc.devRef .tc main_arg10) = m ((c : Thread nD τ).loc main_arg10) :=
  (W4_of_ne m c main_arg10 (by decide)).trans (W3_main_arg10 m c)
theorem W5_main_arg10 (c : Dev nD) : W5 m c (Proc.devRef .tc main_arg10) = m ((c : Thread nD τ).loc main_arg10) :=
  (StableHlo.after_of_writes_sub hostOps2 _ hostOps2_writes (by decide : main_arg10 ∉ hostOps2_W)).trans (W4_main_arg10 m c)
theorem W6_main_arg10 (c : Dev nD) : W6 m c (Proc.devRef .tc main_arg10) = m ((c : Thread nD τ).loc main_arg10) :=
  (W6_of_ne m c main_arg10 (by decide)).trans (W5_main_arg10 m c)
theorem W7_main_arg10 (c : Dev nD) : W7 m c (Proc.devRef .tc main_arg10) = m ((c : Thread nD τ).loc main_arg10) :=
  (StableHlo.after_of_writes_sub hostOps3 _ hostOps3_writes (by decide : main_arg10 ∉ hostOps3_W)).trans (W6_main_arg10 m c)
theorem W8_main_arg10 (c : Dev nD) : W8 m c (Proc.devRef .tc main_arg10) = m ((c : Thread nD τ).loc main_arg10) :=
  (W8_of_ne m c main_arg10 (by decide)).trans (W7_main_arg10 m c)
theorem W0_main_arg11 (c : Dev nD) : W0 m c (Proc.devRef .tc main_arg11) = m ((c : Thread nD τ).loc main_arg11) := rfl
theorem W1_main_arg11 (c : Dev nD) : W1 m c (Proc.devRef .tc main_arg11) = m ((c : Thread nD τ).loc main_arg11) :=
  (StableHlo.after_of_writes_sub hostOps0 _ hostOps0_writes (by decide : main_arg11 ∉ hostOps0_W)).trans (W0_main_arg11 m c)
theorem W2_main_arg11 (c : Dev nD) : W2 m c (Proc.devRef .tc main_arg11) = m ((c : Thread nD τ).loc main_arg11) :=
  (W2_of_ne m c main_arg11 (by decide)).trans (W1_main_arg11 m c)
theorem W3_main_arg11 (c : Dev nD) : W3 m c (Proc.devRef .tc main_arg11) = m ((c : Thread nD τ).loc main_arg11) :=
  (StableHlo.after_of_writes_sub hostOps1 _ hostOps1_writes (by decide : main_arg11 ∉ hostOps1_W)).trans (W2_main_arg11 m c)
theorem W4_main_arg11 (c : Dev nD) : W4 m c (Proc.devRef .tc main_arg11) = m ((c : Thread nD τ).loc main_arg11) :=
  (W4_of_ne m c main_arg11 (by decide)).trans (W3_main_arg11 m c)
theorem W5_main_arg11 (c : Dev nD) : W5 m c (Proc.devRef .tc main_arg11) = m ((c : Thread nD τ).loc main_arg11) :=
  (StableHlo.after_of_writes_sub hostOps2 _ hostOps2_writes (by decide : main_arg11 ∉ hostOps2_W)).trans (W4_main_arg11 m c)
theorem W6_main_arg11 (c : Dev nD) : W6 m c (Proc.devRef .tc main_arg11) = m ((c : Thread nD τ).loc main_arg11) :=
  (W6_of_ne m c main_arg11 (by decide)).trans (W5_main_arg11 m c)
theorem W7_main_arg11 (c : Dev nD) : W7 m c (Proc.devRef .tc main_arg11) = m ((c : Thread nD τ).loc main_arg11) :=
  (StableHlo.after_of_writes_sub hostOps3 _ hostOps3_writes (by decide : main_arg11 ∉ hostOps3_W)).trans (W6_main_arg11 m c)
theorem W8_main_arg11 (c : Dev nD) : W8 m c (Proc.devRef .tc main_arg11) = m ((c : Thread nD τ).loc main_arg11) :=
  (W8_in m c 3 rfl).trans (W7_main_arg11 m c)
theorem W0_main_arg12 (c : Dev nD) : W0 m c (Proc.devRef .tc main_arg12) = m ((c : Thread nD τ).loc main_arg12) := rfl
theorem W1_main_arg12 (c : Dev nD) : W1 m c (Proc.devRef .tc main_arg12) = m ((c : Thread nD τ).loc main_arg12) :=
  (StableHlo.after_of_writes_sub hostOps0 _ hostOps0_writes (by decide : main_arg12 ∉ hostOps0_W)).trans (W0_main_arg12 m c)
theorem W2_main_arg12 (c : Dev nD) : W2 m c (Proc.devRef .tc main_arg12) = m ((c : Thread nD τ).loc main_arg12) :=
  (W2_of_ne m c main_arg12 (by decide)).trans (W1_main_arg12 m c)
theorem W3_main_arg12 (c : Dev nD) : W3 m c (Proc.devRef .tc main_arg12) = m ((c : Thread nD τ).loc main_arg12) :=
  (StableHlo.after_of_writes_sub hostOps1 _ hostOps1_writes (by decide : main_arg12 ∉ hostOps1_W)).trans (W2_main_arg12 m c)
theorem W4_main_arg12 (c : Dev nD) : W4 m c (Proc.devRef .tc main_arg12) = m ((c : Thread nD τ).loc main_arg12) :=
  (W4_of_ne m c main_arg12 (by decide)).trans (W3_main_arg12 m c)
theorem W5_main_arg12 (c : Dev nD) : W5 m c (Proc.devRef .tc main_arg12) = m ((c : Thread nD τ).loc main_arg12) :=
  (StableHlo.after_of_writes_sub hostOps2 _ hostOps2_writes (by decide : main_arg12 ∉ hostOps2_W)).trans (W4_main_arg12 m c)
theorem W6_main_arg12 (c : Dev nD) : W6 m c (Proc.devRef .tc main_arg12) = m ((c : Thread nD τ).loc main_arg12) :=
  (W6_of_ne m c main_arg12 (by decide)).trans (W5_main_arg12 m c)
theorem W7_main_arg12 (c : Dev nD) : W7 m c (Proc.devRef .tc main_arg12) = m ((c : Thread nD τ).loc main_arg12) :=
  (StableHlo.after_of_writes_sub hostOps3 _ hostOps3_writes (by decide : main_arg12 ∉ hostOps3_W)).trans (W6_main_arg12 m c)
theorem W8_main_arg12 (c : Dev nD) : W8 m c (Proc.devRef .tc main_arg12) = m ((c : Thread nD τ).loc main_arg12) :=
  (W8_of_ne m c main_arg12 (by decide)).trans (W7_main_arg12 m c)

/-! ## The proof data family and what rides beside the buffers -/

abbrev adm : (p : Fin 4) → (pcfgs (F := F) p).Adm := fun p => (cfgs p).toPCfg_adm
/-- Every pipeline's proof data, each at its launch's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- Launch 0: entered from every unscoped buffer at the boundary's contents, left at the next boundary's. Its windows'
    arrays are split out of the buffers on entry and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at the boundary's contents, left at the next boundary's. Its windows'
    arrays are split out of the buffers on entry and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at the boundary's contents, left at the next boundary's. Its windows'
    arrays are split out of the buffers on entry and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at the boundary's contents, left at the next boundary's. Its windows'
    arrays are split out of the buffers on entry and put back at the exit contents; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
theorem main_run (c : Dev nD) : main (F := F) c = Pipeline.Seg.run (segs m) := (main_chain c).trans (by chain_rfl)

/-- What the last launch leaves in the result array: the blocks its body stored, point by point. -/
abbrev result (c : Dev nD) : Buf (Elt F) ((c : Thread nD τ).loc main_v114) := (dat3 (V7 m) c).arrAt 5 cfg3.N

set_option backward.isDefEq.respectTransparency.types false in
/-- THE RUN: from any memory with zero counters every weakly fair execution of @main terminates, nothing faulting; the
    result array ends at `result` and every argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v114) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨(h c _ (mem_uc main_v114 (by decide))).trans (W8_arr m c 5),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c),
       (h c _ (mem_uc main_arg4 (by decide))).trans (W8_main_arg4 m c),
       (h c _ (mem_uc main_arg5 (by decide))).trans (W8_main_arg5 m c),
       (h c _ (mem_uc main_arg6 (by decide))).trans (W8_main_arg6 m c),
       (h c _ (mem_uc main_arg7 (by decide))).trans (W8_main_arg7 m c),
       (h c _ (mem_uc main_arg8 (by decide))).trans (W8_main_arg8 m c),
       (h c _ (mem_uc main_arg9 (by decide))).trans (W8_main_arg9 m c),
       (h c _ (mem_uc main_arg10 (by decide))).trans (W8_main_arg10 m c),
       (h c _ (mem_uc main_arg11 (by decide))).trans (W8_main_arg11 m c),
       (h c _ (mem_uc main_arg12 (by decide))).trans (W8_main_arg12 m c)⟩)

end Cert.Kernel.Hand

end
-- ==== Proof.IdealRegion0.lean ====
/-
  Region 0 of the program's four kernel launches, at any float instance: the kernel body's run on one block and the
  per-point proof data a pipelined launch needs (which buffer holds which block when the body is called, and what the body
  leaves).  Stated at a PARAMETER `V`, the contents of the core's buffers when the region is entered.
-/
import proofs.«160495_j17575006175717_1_alg».proof.Proof.Gen.KernelIdeal.Launch
import proofs.«160495_j17575006175717_1_alg».proof.Proof.Gen.KernelIdeal.Skeleton
import proofs.«160495_j17575006175717_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of a thousand rows: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the kernel body `cc0__layer_kernel` on one block of rows, at any contents `V` of the core's buffers on entry

The body reads a block of 1000 rows of the neighbour means and of the features, the two 128×128 weight matrices and the five
per-feature rows, and stores, for every row of the block,
  max( ((means·Wl + bl) + features·Wr − mean) · (var + ε)^(-1/2) · γ + β , 0 )
over the whole output block in one store.  What is proved here is only that it runs, and WHAT it stores as a function of the
blocks it was handed (the payload of the one store); the arithmetic is read elsewhere. -/

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or the block index
    stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or the block index
    stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the point fetched it or the block index
    stood still since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the point fetched it or the block index
    stood still since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether the point fetched it or the block index
    stood still since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, whether the point fetched it or the block index
    stood still since the last fetch. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, whether the point fetched it or the block index
    stood still since the last fetch. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, whether the point fetched it or the block index
    stood still since the last fetch. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer, from the input blocks: its one store, over the whole buffer. -/
def out0_9 (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) : Vec F S1000x128 .f32 :=
  View.canon [⟨(Rect.unit (s := S1000x128) ![0, 0] S1000x128.size inb_S1000x128_S1000x128_0_0), k0_pay1 (k0_pay2 (View.ld x0 (Rect.unit (s := S1000x128) ![0, 0] S1000x128.size inb_S1000x128_S1000x128_0_0)) (View.ld x1 (Rect.unit (s := S1000x128) ![0, 0] S1000x128.size inb_S1000x128_S1000x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S1x128) ![0, 0] S1x128.size inb_S1x128_S1x128_0_0)) (View.ld x8 (Rect.unit (s := S1x128) ![0, 0] S1x128.size inb_S1x128_S1x128_0_0)) (View.ld x7 (Rect.unit (s := S1x128) ![0, 0] S1x128.size inb_S1x128_S1x128_0_0)) (View.ld x5 (Rect.unit (s := S1x128) ![0, 0] S1x128.size inb_S1x128_S1x128_0_0)) (View.ld x6 (Rect.unit (s := S1x128) ![0, 0] S1x128.size inb_S1x128_S1x128_0_0))) (Scalar.ofBits .f32 0x00000000#32)⟩]

/-- The one store covers the buffer. -/
theorem cover0_9 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The body on whole staging buffers — the inputs' at contents `xW`, the output's at anything — runs to the end, leaves the
    inputs' as they were and the output's at `out0_9` of them. -/
theorem sound_kernel0 (c : Dev nD) (E : Set ℕ) (i : grid0.Coords) (arg1 : Memref sig .tc .vmem S1000x128 .f32) (harg1 : arg1.IsWhole) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1000x128 .f32) (harg10 : arg10.IsWhole)
    (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The proof data of this pipeline on core `c`: the arrays as the region finds them; after the body at point `t` each
    input's buffer at its block and the output's at `out0_9` of the input blocks; nothing carried between points,
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's run applies; what is carried beside the
    windows passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.IdealRegion1.lean ====
/-
  Region 1 of the program's four kernel launches, at any float instance: the kernel body's run on one block and the
  per-point proof data a pipelined launch needs (which buffer holds which block when the body is called, and what the body
  leaves).  Stated at a PARAMETER `V`, the contents of the core's buffers when the region is entered.
-/
import proofs.«160495_j17575006175717_1_alg».proof.Proof.Gen.KernelIdeal.Launch
import proofs.«160495_j17575006175717_1_alg».proof.Proof.Gen.KernelIdeal.Skeleton
import proofs.«160495_j17575006175717_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of a thousand rows: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the kernel body `cc1__layer_kernel` on one block of rows, at any contents `V` of the core's buffers on entry

The body reads a block of 1000 rows of the neighbour means and of the features, the two 128×128 weight matrices and the five
per-feature rows, and stores, for every row of the block,
  max( ((means·Wl + bl) + features·Wr − mean) · (var + ε)^(-1/2) · γ + β , 0 )
over the whole output block in one store.  What is proved here is only that it runs, and WHAT it stores as a function of the
blocks it was handed (the payload of the one store); the arithmetic is read elsewhere. -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or the block index
    stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or the block index
    stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetched it or the block index
    stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the point fetched it or the block index
    stood still since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the point fetched it or the block index
    stood still since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether the point fetched it or the block index
    stood still since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, whether the point fetched it or the block index
    stood still since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, whether the point fetched it or the block index
    stood still since the last fetch. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer, from the input blocks: its one store, over the whole buffer. -/
def out1_9 (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) : Vec F S1000x128 .f32 :=
  View.canon [⟨(Rect.unit (s := S1000x128) ![0, 0] S1000x128.size inb_S1000x128_S1000x128_0_0), k1_pay1 (k1_pay2 (View.ld x0 (Rect.unit (s := S1000x128) ![0, 0] S1000x128.size inb_S1000x128_S1000x128_0_0)) (View.ld x1 (Rect.unit (s := S1000x128) ![0, 0] S1000x128.size inb_S1000x128_S1000x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S1x128) ![0, 0] S1x128.size inb_S1x128_S1x128_0_0)) (View.ld x8 (Rect.unit (s := S1x128) ![0, 0] S1x128.size inb_S1x128_S1x128_0_0)) (View.ld x7 (Rect.unit (s := S1x128) ![0, 0] S1x128.size inb_S1x128_S1x128_0_0)) (View.ld x5 (Rect.unit (s := S1x128) ![0, 0] S1x128.size inb_S1x128_S1x128_0_0)) (View.ld x6 (Rect.unit (s := S1x128) ![0, 0] S1x128.size inb_S1x128_S1x128_0_0)))⟩]

/-- The one store covers the buffer. -/
theorem cover1_9 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The body on whole staging buffers — the inputs' at contents `xW`, the output's at anything — runs to the end, leaves the
    inputs' as they were and the output's at `out1_9` of them. -/
theorem sound_kernel1 (c : Dev nD) (E : Set ℕ) (i : grid1.Coords) (arg1 : Memref sig .tc .vmem S1000x128 .f32) (harg1 : arg1.IsWhole) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1000x128 .f32) (harg10 : arg10.IsWhole)
    (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- The proof data of this pipeline on core `c`: the arrays as the region finds them; after the body at point `t` each
    input's buffer at its block and the output's at `out1_9` of the input blocks; nothing carried between points,
    nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's run applies; what is carried beside the
    windows passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.IdealRegion2.lean ====
/-
  Region 2 of the program's four kernel launches, at any float instance: the kernel body's run on one block and the
  per-point proof data a pipelined launch needs (which buffer holds which block when the body is called, and what the body
  leaves).  Stated at a PARAMETER `V`, the contents of the core's buffers when the region is entered.
-/
import proofs.«160495_j17575006175717_1_alg».proof.Proof.Gen.KernelIdeal.Launch
import proofs.«160495_j17575006175717_1_alg».proof.Proof.Gen.KernelIdeal.Skeleton
import proofs.«160495_j17575006175717_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of a thousand rows: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: the kernel body `cc2__layer_kernel` on one block of rows, at any contents `V` of the core's buffers on entry

The body reads a block of 1000 rows of the neighbour means and of the features, the two 128×128 weight matrices and the five
per-feature rows, and stores, for every row of the block,
  max( ((means·Wl + bl) + features·Wr − mean) · (var + ε)^(-1/2) · γ + β , 0 )
over the whole output block in one store.  What is proved here is only that it runs, and WHAT it stores as a function of the
blocks it was handed (the payload of the one store); the arithmetic is read elsewhere. -/

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or the block index
    stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or the block index
    stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or the block index
    stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetched it or the block index
    stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetched it or the block index
    stood still since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether the point fetched it or the block index
    stood still since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, whether the point fetched it or the block index
    stood still since the last fetch. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, whether the point fetched it or the block index
    stood still since the last fetch. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's staging buffer holds its block at every point, whether the point fetched it or the block index
    stood still since the last fetch. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output window's buffer, from the input blocks: its one store, over the whole buffer. -/
def out2_9 (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) : Vec F S1000x128 .f32 :=
  View.canon [⟨(Rect.unit (s := S1000x128) ![0, 0] S1000x128.size inb_S1000x128_S1000x128_0_0), k2_pay1 (k2_pay2 (View.ld x0 (Rect.unit (s := S1000x128) ![0, 0] S1000x128.size inb_S1000x128_S1000x128_0_0)) (View.ld x1 (Rect.unit (s := S1000x128) ![0, 0] S1000x128.size inb_S1000x128_S1000x128_0_0)) (View.ld x2 (Rect.unit (s := S128x128) ![0, 0] S128x128.size inb_S128x128_S128x128_0_0)) (View.ld x4 (Rect.unit (s := S128x128) ![0, 0] S128x128.size inb_S128x128_S128x128_0_0)) (View.ld x3 (Rect.unit (s := S1x128) ![0, 0] S1x128.size inb_S1x128_S1x128_0_0)) (View.ld x8 (Rect.unit (s := S1x128) ![0, 0] S1x128.size inb_S1x128_S1x128_0_0)) (View.ld x7 (Rect.unit (s := S1x128) ![0, 0] S1x128.size inb_S1x128_S1x128_0_0)) (View.ld x5 (Rect.unit (s := S1x128) ![0, 0] S1x128.size inb_S1x128_S1x128_0_0)) (View.ld x6 (Rect.unit (s := S1x128) ![0, 0] S1x128.size inb_S1x128_S1x128_0_0)))⟩]

/-- The one store covers the buffer. -/
theorem cover2_9 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The body on whole staging buffers — the inputs' at contents `xW`, the output's at anything — runs to the end, leaves the
    inputs' as they were and the output's at `out2_9` of them. -/
theorem sound_kernel2 (c : Dev nD) (E : Set ℕ) (i : grid2.Coords) (arg1 : Memref sig .tc .vmem S1000x128 .f32) (harg1 : arg1.IsWhole) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1000x128 .f32) (harg10 : arg10.IsWhole)
    (x0 : Vec F S1000x128 .f32) (x1 : Vec F S1000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8 arg9 harg9 arg10 harg10) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The proof data of this pipeline on core `c`: the arrays as the region finds them; after the body at point `t` each
    input's buffer at its block and the output's at `out2_9` of the input blocks; nothing carried between points,
    nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's run applies; what is carried beside the
    windows passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.IdealRegion3.lean ====
/-
  Region 3 of the program's four kernel launches, at any float instance: the kernel body's run on one block and the
  per-point proof data a pipelined launch needs (which buffer holds which block when the body is called, and what the body
  leaves).  Stated at a PARAMETER `V`, the contents of the core's buffers when the region is entered.
-/
import proofs.«160495_j17575006175717_1_alg».proof.Proof.Gen.KernelIdeal.Launch
import proofs.«160495_j17575006175717_1_alg».proof.Proof.Gen.KernelIdeal.Skeleton
import proofs.«160495_j17575006175717_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of a thousand rows: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3: the kernel body `cc3__clf_kernel` on one block of rows, at any contents `V` of the core's buffers on entry

The body reads a block of 1000 joined rows (384 features), the two classifier matrices and their bias rows, and stores
  max(rows·W₁ + b₁, 0)·W₂ + b₂
over the whole output block in one store.  What is proved here is only that it runs, and WHAT it stores as a function of the
blocks it was handed. -/

section
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or the block index
    stood still since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or the block index
    stood still since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or the block index
    stood still since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the point fetched it or the block index
    stood still since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the point fetched it or the block index
    stood still since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the output window's buffer, from the input blocks: its one store, over the whole buffer. -/
def out3_5 (x0 : Vec F S1000x384 .f32) (x1 : Vec F S384x64 .f32) (x2 : Vec F S1x64 .f32) (x3 : Vec F S64x2 .f32) (x4 : Vec F S1x2 .f32) : Vec F S1000x2 .f32 :=
  View.canon [⟨(Rect.unit (s := S1000x2) ![0, 0] S1000x2.size inb_S1000x2_S1000x2_0_0), k3_pay1 (View.ld x0 (Rect.unit (s := S1000x384) ![0, 0] S1000x384.size inb_S1000x384_S1000x384_0_0)) (View.ld x1 (Rect.unit (s := S384x64) ![0, 0] S384x64.size inb_S384x64_S384x64_0_0)) (View.ld x2 (Rect.unit (s := S1x64) ![0, 0] S1x64.size inb_S1x64_S1x64_0_0)) (View.ld x3 (Rect.unit (s := S64x2) ![0, 0] S64x2.size inb_S64x2_S64x2_0_0)) (View.ld x4 (Rect.unit (s := S1x2) ![0, 0] S1x2.size inb_S1x2_S1x2_0_0))⟩]

/-- The one store covers the buffer. -/
theorem cover3_5 (p0 : Vec F S1000x2 .f32) (y : S1000x2.Idx) :
    ∃ pc ∈ ([⟨(Rect.unit (s := S1000x2) ![0, 0] S1000x2.size inb_S1000x2_S1000x2_0_0), p0⟩] : List (View.Piece (Elt F) S1000x2 .f32)), y ∈ pc.1.set :=
  View.cover_of_tiled [⟨(Rect.unit (s := S1000x2) ![0, 0] S1000x2.size inb_S1000x2_S1000x2_0_0), p0⟩] S1000x2.size (by rfl) y

set_option maxHeartbeats 4000000 in
/-- The body on whole staging buffers — the inputs' at contents `xW`, the output's at anything — runs to the end, leaves the
    inputs' as they were and the output's at `out3_5` of them. -/
theorem sound_kernel3 (c : Dev nD) (E : Set ℕ) (i : grid3.Coords) (arg1 : Memref sig .tc .vmem S1000x384 .f32) (harg1 : arg1.IsWhole) (arg2 : Memref sig .tc .vmem S384x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S1x2 .f32) (harg5 : arg5.IsWhole) (arg6 : Memref sig .tc .vmem S1000x2 .f32) (harg6 : arg6.IsWhole)
    (x0 : Vec F S1000x384 .f32) (x1 : Vec F S384x64 .f32) (x2 : Vec F S1x64 .f32) (x3 : Vec F S64x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__clf_kernel i arg1 harg1 arg2 harg2 arg3 harg3 arg4 harg4 arg5 harg5 arg6 harg6) K := by
  simp only [cc3__clf_kernel_eq_skeleton]; unfold cc3__clf_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline on core `c`: the arrays as the region finds them; after the body at point `t` each
    input's buffer at its block and the output's at `out3_5` of the input blocks; nothing carried between points,
    nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's run applies; what is carried beside the
    windows passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.Hand

end
-- ==== Proof.IdealRun.lean ====
/-
  The whole run of the program, at any float instance.  @main is eight stretches in a row: host operations, kernel launch 0,
  host operations, launch 1, host operations, launch 2, host operations (the joined rows), launch 3.  The contents of the
  core's buffers at each boundary are a fold from the launch memory: a host stretch applies its operations; a launch leaves
  every array of its windows at what its pipeline's write-backs leave (the inputs as entered, the output at the blocks the
  body stored) and every other buffer as entered.  The run theorem says: every execution terminates, nothing faults, the
  result array holds the last fold's contents and the thirteen argument arrays hold what they held at launch.
-/
import proofs.«160495_j17575006175717_1_alg».proof.Proof.IdealRegion0
import proofs.«160495_j17575006175717_1_alg».proof.Proof.IdealRegion1
import proofs.«160495_j17575006175717_1_alg».proof.Proof.IdealRegion2
import proofs.«160495_j17575006175717_1_alg».proof.Proof.IdealRegion3
import proofs.«160495_j17575006175717_1_alg».proof.Proof.Gen.KernelIdeal.Regions

-- membership in a rectangle of a thousand rows: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After host stretch 0 (launch 0's entry). -/
abbrev W1 : Dev nD → Valuation τ sig (Elt F) := fun c => StableHlo.after hostOps0 (W0 m c)
/-- The same read at the core's own references. -/
abbrev V1 : (c : Dev nD) → (b : Ref sig .tc) → Buf (Elt F) ((c : Thread nD τ).loc b) := fun c b => W1 m c b
/-- At launch 0's exit: its windows' arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the launch as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After host stretch 1 (launch 1's entry). -/
abbrev W3 : Dev nD → Valuation τ sig (Elt F) := fun c => StableHlo.after hostOps1 (W2 m c)
/-- The same read at the core's own references. -/
abbrev V3 : (c : Dev nD) → (b : Ref sig .tc) → Buf (Elt F) ((c : Thread nD τ).loc b) := fun c b => W3 m c b
/-- At launch 1's exit: its windows' arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input window's array leaves the launch as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After host stretch 2 (launch 2's entry). -/
abbrev W5 : Dev nD → Valuation τ sig (Elt F) := fun c => StableHlo.after hostOps2 (W4 m c)
/-- The same read at the core's own references. -/
abbrev V5 : (c : Dev nD) → (b : Ref sig .tc) → Buf (Elt F) ((c : Thread nD τ).loc b) := fun c b => W5 m c b
/-- At launch 2's exit: its windows' arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- An input window's array leaves the launch as it entered. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After host stretch 3 (launch 3's entry). -/
abbrev W7 : Dev nD → Valuation τ sig (Elt F) := fun c => StableHlo.after hostOps3 (W6 m c)
/-- The same read at the core's own references. -/
abbrev V7 : (c : Dev nD) → (b : Ref sig .tc) → Buf (Elt F) ((c : Thread nD τ).loc b) := fun c b => W7 m c b
/-- At launch 3's exit: its windows' arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- An input window's array leaves the launch as it entered. -/
theorem W8_in (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The arguments end as launched: no host operation writes one, and a launch reads it through an input window or not at all -/

theorem W0_main_arg0 (c : Dev nD) : W0 m c (Proc.devRef .tc main_arg0) = m ((c : Thread nD τ).loc main_arg0) := rfl
theorem W1_main_arg0 (c : Dev nD) : W1 m c (Proc.devRef .tc main_arg0) = m ((c : Thread nD τ).loc main_arg0) :=
  (StableHlo.after_of_writes_sub hostOps0 _ hostOps0_writes (by decide : main_arg0 ∉ hostOps0_W)).trans (W0_main_arg0 m c)
theorem W2_main_arg0 (c : Dev nD) : W2 m c (Proc.devRef .tc main_arg0) = m ((c : Thread nD τ).loc main_arg0) :=
  (W2_in m c 1 rfl).trans (W1_main_arg0 m c)
theorem W3_main_arg0 (c : Dev nD) : W3 m c (Proc.devRef .tc main_arg0) = m ((c : Thread nD τ).loc main_arg0) :=
  (StableHlo.after_of_writes_sub hostOps1 _ hostOps1_writes (by decide : main_arg0 ∉ hostOps1_W)).trans (W2_main_arg0 m c)
theorem W4_main_arg0 (c : Dev nD) : W4 m c (Proc.devRef .tc main_arg0) = m ((c : Thread nD τ).loc main_arg0) :=
  (W4_of_ne m c main_arg0 (by decide)).trans (W3_main_arg0 m c)
theorem W5_main_arg0 (c : Dev nD) : W5 m c (Proc.devRef .tc main_arg0) = m ((c : Thread nD τ).loc main_arg0) :=
  (StableHlo.after_of_writes_sub hostOps2 _ hostOps2_writes (by decide : main_arg0 ∉ hostOps2_W)).trans (W4_main_arg0 m c)
theorem W6_main_arg0 (c : Dev nD) : W6 m c (Proc.devRef .tc main_arg0) = m ((c : Thread nD τ).loc main_arg0) :=
  (W6_of_ne m c main_arg0 (by decide)).trans (W5_main_arg0 m c)
theorem W7_main_arg0 (c : Dev nD) : W7 m c (Proc.devRef .tc main_arg0) = m ((c : Thread nD τ).loc main_arg0) :=
  (StableHlo.after_of_writes_sub hostOps3 _ hostOps3_writes (by decide : main_arg0 ∉ hostOps3_W)).trans (W6_main_arg0 m c)
theorem W8_main_arg0 (c : Dev nD) : W8 m c (Proc.devRef .tc main_arg0) = m ((c : Thread nD τ).loc main_arg0) :=
  (W8_of_ne m c main_arg0 (by decide)).trans (W7_main_arg0 m c)
theorem W0_main_arg1 (c : Dev nD) : W0 m c (Proc.devRef .tc main_arg1) = m ((c : Thread nD τ).loc main_arg1) := rfl
theorem W1_main_arg1 (c : Dev nD) : W1 m c (Proc.devRef .tc main_arg1) = m ((c : Thread nD τ).loc main_arg1) :=
  (StableHlo.after_of_writes_sub hostOps0 _ hostOps0_writes (by decide : main_arg1 ∉ hostOps0_W)).trans (W0_main_arg1 m c)
theorem W2_main_arg1 (c : Dev nD) : W2 m c (Proc.devRef .tc main_arg1) = m ((c : Thread nD τ).loc main_arg1) :=
  (W2_of_ne m c main_arg1 (by decide)).trans (W1_main_arg1 m c)
theorem W3_main_arg1 (c : Dev nD) : W3 m c (Proc.devRef .tc main_arg1) = m ((c : Thread nD τ).loc main_arg1) :=
  (StableHlo.after_of_writes_sub hostOps1 _ hostOps1_writes (by decide : main_arg1 ∉ hostOps1_W)).trans (W2_main_arg1 m c)
theorem W4_main_arg1 (c : Dev nD) : W4 m c (Proc.devRef .tc main_arg1) = m ((c : Thread nD τ).loc main_arg1) :=
  (W4_of_ne m c main_arg1 (by decide)).trans (W3_main_arg1 m c)
theorem W5_main_arg1 (c : Dev nD) : W5 m c (Proc.devRef .tc main_arg1) = m ((c : Thread nD τ).loc main_arg1) :=
  (StableHlo.after_of_writes_sub hostOps2 _ hostOps2_writes (by decide : main_arg1 ∉ hostOps2_W)).trans (W4_main_arg1 m c)
theorem W6_main_arg1 (c : Dev nD) : W6 m c (Proc.devRef .tc main_arg1) = m ((c : Thread nD τ).loc main_arg1) :=
  (W6_of_ne m c main_arg1 (by decide)).trans (W5_main_arg1 m c)
theorem W7_main_arg1 (c : Dev nD) : W7 m c (Proc.devRef .tc main_arg1) = m ((c : Thread nD τ).loc main_arg1) :=
  (StableHlo.after_of_writes_sub hostOps3 _ hostOps3_writes (by decide : main_arg1 ∉ hostOps3_W)).trans (W6_main_arg1 m c)
theorem W8_main_arg1 (c : Dev nD) : W8 m c (Proc.devRef .tc main_arg1) = m ((c : Thread nD τ).loc main_arg1) :=
  (W8_of_ne m c main_arg1 (by decide)).trans (W7_main_arg1 m c)
theorem W0_main_arg2 (c : Dev nD) : W0 m c (Proc.devRef .tc main_arg2) = m ((c : Thread nD τ).loc main_arg2) := rfl
theorem W1_main_arg2 (c : Dev nD) : W1 m c (Proc.devRef .tc main_arg2) = m ((c : Thread nD τ).loc main_arg2) :=
  (StableHlo.after_of_writes_sub hostOps0 _ hostOps0_writes (by decide : main_arg2 ∉ hostOps0_W)).trans (W0_main_arg2 m c)
theorem W2_main_arg2 (c : Dev nD) : W2 m c (Proc.devRef .tc main_arg2) = m ((c : Thread nD τ).loc main_arg2) :=
  (W2_of_ne m c main_arg2 (by decide)).trans (W1_main_arg2 m c)
theorem W3_main_arg2 (c : Dev nD) : W3 m c (Proc.devRef .tc main_arg2) = m ((c : Thread nD τ).loc main_arg2) :=
  (StableHlo.after_of_writes_sub hostOps1 _ hostOps1_writes (by decide : main_arg2 ∉ hostOps1_W)).trans (W2_main_arg2 m c)
theorem W4_main_arg2 (c : Dev nD) : W4 m c (Proc.devRef .tc main_arg2) = m ((c : Thread nD τ).loc main_arg2) :=
  (W4_of_ne m c main_arg2 (by decide)).trans (W3_main_arg2 m c)
theorem W5_main_arg2 (c : Dev nD) : W5 m c (Proc.devRef .tc main_arg2) = m ((c : Thread nD τ).loc main_arg2) :=
  (StableHlo.after_of_writes_sub hostOps2 _ hostOps2_writes (by decide : main_arg2 ∉ hostOps2_W)).trans (W4_main_arg2 m c)
theorem W6_main_arg2 (c : Dev nD) : W6 m c (Proc.devRef .tc main_arg2) = m ((c : Thread nD τ).loc main_arg2) :=
  (W6_of_ne m c main_arg2 (by decide)).trans (W5_main_arg2 m c)
theorem W7_main_arg2 (c : Dev nD) : W7 m c (Proc.devRef .tc main_arg2) = m ((c : Thread nD τ).loc main_arg2) :=
  (StableHlo.after_of_writes_sub hostOps3 _ hostOps3_writes (by decide : main_arg2 ∉ hostOps3_W)).trans (W6_main_arg2 m c)
theorem W8_main_arg2 (c : Dev nD) : W8 m c (Proc.devRef .tc main_arg2) = m ((c : Thread nD τ).loc main_arg2) :=
  (W8_of_ne m c main_arg2 (by decide)).trans (W7_main_arg2 m c)
theorem W0_main_arg3 (c : Dev nD) : W0 m c (Proc.devRef .tc main_arg3) = m ((c : Thread nD τ).loc main_arg3) := rfl
theorem W1_main_arg3 (c : Dev nD) : W1 m c (Proc.devRef .tc main_arg3) = m ((c : Thread nD τ).loc main_arg3) :=
  (StableHlo.after_of_writes_sub hostOps0 _ hostOps0_writes (by decide : main_arg3 ∉ hostOps0_W)).trans (W0_main_arg3 m c)
theorem W2_main_arg3 (c : Dev nD) : W2 m c (Proc.devRef .tc main_arg3) = m ((c : Thread nD τ).loc main_arg3) :=
  (W2_of_ne m c main_arg3 (by decide)).trans (W1_main_arg3 m c)
theorem W3_main_arg3 (c : Dev nD) : W3 m c (Proc.devRef .tc main_arg3) = m ((c : Thread nD τ).loc main_arg3) :=
  (StableHlo.after_of_writes_sub hostOps1 _ hostOps1_writes (by decide : main_arg3 ∉ hostOps1_W)).trans (W2_main_arg3 m c)
theorem W4_main_arg3 (c : Dev nD) : W4 m c (Proc.devRef .tc main_arg3) = m ((c : Thread nD τ).loc main_arg3) :=
  (W4_of_ne m c main_arg3 (by decide)).trans (W3_main_arg3 m c)
theorem W5_main_arg3 (c : Dev nD) : W5 m c (Proc.devRef .tc main_arg3) = m ((c : Thread nD τ).loc main_arg3) :=
  (StableHlo.after_of_writes_sub hostOps2 _ hostOps2_writes (by decide : main_arg3 ∉ hostOps2_W)).trans (W4_main_arg3 m c)
theorem W6_main_arg3 (c : Dev nD) : W6 m c (Proc.devRef .tc main_arg3) = m ((c : Thread nD τ).loc main_arg3) :=
  (W6_of_ne m c main_arg3 (by decide)).trans (W5_main_arg3 m c)
theorem W7_main_arg3 (c : Dev nD) : W7 m c (Proc.devRef .tc main_arg3) = m ((c : Thread nD τ).loc main_arg3) :=
  (StableHlo.after_of_writes_sub hostOps3 _ hostOps3_writes (by decide : main_arg3 ∉ hostOps3_W)).trans (W6_main_arg3 m c)
theorem W8_main_arg3 (c : Dev nD) : W8 m c (Proc.devRef .tc main_arg3) = m ((c : Thread nD τ).loc main_arg3) :=
  (W8_of_ne m c main_arg3 (by decide)).trans (W7_main_arg3 m c)
theorem W0_main_arg4 (c : Dev nD) : W0 m c (Proc.devRef .tc main_arg4) = m ((c : Thread nD τ).loc main_arg4) := rfl
theorem W1_main_arg4 (c : Dev nD) : W1 m c (Proc.devRef .tc main_arg4) = m ((c : Thread nD τ).loc main_arg4) :=
  (StableHlo.after_of_writes_sub hostOps0 _ hostOps0_writes (by decide : main_arg4 ∉ hostOps0_W)).trans (W0_main_arg4 m c)
theorem W2_main_arg4 (c : Dev nD) : W2 m c (Proc.devRef .tc main_arg4) = m ((c : Thread nD τ).loc main_arg4) :=
  (W2_of_ne m c main_arg4 (by decide)).trans (W1_main_arg4 m c)
theorem W3_main_arg4 (c : Dev nD) : W3 m c (Proc.devRef .tc main_arg4) = m ((c : Thread nD τ).loc main_arg4) :=
  (StableHlo.after_of_writes_sub hostOps1 _ hostOps1_writes (by decide : main_arg4 ∉ hostOps1_W)).trans (W2_main_arg4 m c)
theorem W4_main_arg4 (c : Dev nD) : W4 m c (Proc.devRef .tc main_arg4) = m ((c : Thread nD τ).loc main_arg4) :=
  (W4_of_ne m c main_arg4 (by decide)).trans (W3_main_arg4 m c)
theorem W5_main_arg4 (c : Dev nD) : W5 m c (Proc.devRef .tc main_arg4) = m ((c : Thread nD τ).loc main_arg4) :=
  (StableHlo.after_of_writes_sub hostOps2 _ hostOps2_writes (by decide : main_arg4 ∉ hostOps2_W)).trans (W4_main_arg4 m c)
theorem W6_main_arg4 (c : Dev nD) : W6 m c (Proc.devRef .tc main_arg4) = m ((c : Thread nD τ).loc main_arg4) :=
  (W6_of_ne m c main_arg4 (by decide)).trans (W5_main_arg4 m c)
theorem W7_main_arg4 (c : Dev nD) : W7 m c (Proc.devRef .tc main_arg4) = m ((c : Thread nD τ).loc main_arg4) :=
  (StableHlo.after_of_writes_sub hostOps3 _ hostOps3_writes (by decide : main_arg4 ∉ hostOps3_W)).trans (W6_main_arg4 m c)
theorem W8_main_arg4 (c : Dev nD) : W8 m c (Proc.devRef .tc main_arg4) = m ((c : Thread nD τ).loc main_arg4) :=
  (W8_of_ne m c main_arg4 (by decide)).trans (W7_main_arg4 m c)
theorem W0_main_arg5 (c : Dev nD) : W0 m c (Proc.devRef .tc main_arg5) = m ((c : Thread nD τ).loc main_arg5) := rfl
theorem W1_main_arg5 (c : Dev nD) : W1 m c (Proc.devRef .tc main_arg5) = m ((c : Thread nD τ).loc main_arg5) :=
  (StableHlo.after_of_writes_sub hostOps0 _ hostOps0_writes (by decide : main_arg5 ∉ hostOps0_W)).trans (W0_main_arg5 m c)
theorem W2_main_arg5 (c : Dev nD) : W2 m c (Proc.devRef .tc main_arg5) = m ((c : Thread nD τ).loc main_arg5) :=
  (W2_of_ne m c main_arg5 (by decide)).trans (W1_main_arg5 m c)
theorem W3_main_arg5 (c : Dev nD) : W3 m c (Proc.devRef .tc main_arg5) = m ((c : Thread nD τ).loc main_arg5) :=
  (StableHlo.after_of_writes_sub hostOps1 _ hostOps1_writes (by decide : main_arg5 ∉ hostOps1_W)).trans (W2_main_arg5 m c)
theorem W4_main_arg5 (c : Dev nD) : W4 m c (Proc.devRef .tc main_arg5) = m ((c : Thread nD τ).loc main_arg5) :=
  (W4_of_ne m c main_arg5 (by decide)).trans (W3_main_arg5 m c)
theorem W5_main_arg5 (c : Dev nD) : W5 m c (Proc.devRef .tc main_arg5) = m ((c : Thread nD τ).loc main_arg5) :=
  (StableHlo.after_of_writes_sub hostOps2 _ hostOps2_writes (by decide : main_arg5 ∉ hostOps2_W)).trans (W4_main_arg5 m c)
theorem W6_main_arg5 (c : Dev nD) : W6 m c (Proc.devRef .tc main_arg5) = m ((c : Thread nD τ).loc main_arg5) :=
  (W6_of_ne m c main_arg5 (by decide)).trans (W5_main_arg5 m c)
theorem W7_main_arg5 (c : Dev nD) : W7 m c (Proc.devRef .tc main_arg5) = m ((c : Thread nD τ).loc main_arg5) :=
  (StableHlo.after_of_writes_sub hostOps3 _ hostOps3_writes (by decide : main_arg5 ∉ hostOps3_W)).trans (W6_main_arg5 m c)
theorem W8_main_arg5 (c : Dev nD) : W8 m c (Proc.devRef .tc main_arg5) = m ((c : Thread nD τ).loc main_arg5) :=
  (W8_of_ne m c main_arg5 (by decide)).trans (W7_main_arg5 m c)
theorem W0_main_arg6 (c : Dev nD) : W0 m c (Proc.devRef .tc main_arg6) = m ((c : Thread nD τ).loc main_arg6) := rfl
theorem W1_main_arg6 (c : Dev nD) : W1 m c (Proc.devRef .tc main_arg6) = m ((c : Thread nD τ).loc main_arg6) :=
  (StableHlo.after_of_writes_sub hostOps0 _ hostOps0_writes (by decide : main_arg6 ∉ hostOps0_W)).trans (W0_main_arg6 m c)
theorem W2_main_arg6 (c : Dev nD) : W2 m c (Proc.devRef .tc main_arg6) = m ((c : Thread nD τ).loc main_arg6) :=
  (W2_of_ne m c main_arg6 (by decide)).trans (W1_main_arg6 m c)
theorem W3_main_arg6 (c : Dev nD) : W3 m c (Proc.devRef .tc main_arg6) = m ((c : Thread nD τ).loc main_arg6) :=
  (StableHlo.after_of_writes_sub hostOps1 _ hostOps1_writes (by decide : main_arg6 ∉ hostOps1_W)).trans (W2_main_arg6 m c)
theorem W4_main_arg6 (c : Dev nD) : W4 m c (Proc.devRef .tc main_arg6) = m ((c : Thread nD τ).loc main_arg6) :=
  (W4_of_ne m c main_arg6 (by decide)).trans (W3_main_arg6 m c)
theorem W5_main_arg6 (c : Dev nD) : W5 m c (Proc.devRef .tc main_arg6) = m ((c : Thread nD τ).loc main_arg6) :=
  (StableHlo.after_of_writes_sub hostOps2 _ hostOps2_writes (by decide : main_arg6 ∉ hostOps2_W)).trans (W4_main_arg6 m c)
theorem W6_main_arg6 (c : Dev nD) : W6 m c (Proc.devRef .tc main_arg6) = m ((c : Thread nD τ).loc main_arg6) :=
  (W6_of_ne m c main_arg6 (by decide)).trans (W5_main_arg6 m c)
theorem W7_main_arg6 (c : Dev nD) : W7 m c (Proc.devRef .tc main_arg6) = m ((c : Thread nD τ).loc main_arg6) :=
  (StableHlo.after_of_writes_sub hostOps3 _ hostOps3_writes (by decide : main_arg6 ∉ hostOps3_W)).trans (W6_main_arg6 m c)
theorem W8_main_arg6 (c : Dev nD) : W8 m c (Proc.devRef .tc main_arg6) = m ((c : Thread nD τ).loc main_arg6) :=
  (W8_of_ne m c main_arg6 (by decide)).trans (W7_main_arg6 m c)
theorem W0_main_arg7 (c : Dev nD) : W0 m c (Proc.devRef .tc main_arg7) = m ((c : Thread nD τ).loc main_arg7) := rfl
theorem W1_main_arg7 (c : Dev nD) : W1 m c (Proc.devRef .tc main_arg7) = m ((c : Thread nD τ).loc main_arg7) :=
  (StableHlo.after_of_writes_sub hostOps0 _ hostOps0_writes (by decide : main_arg7 ∉ hostOps0_W)).trans (W0_main_arg7 m c)
theorem W2_main_arg7 (c : Dev nD) : W2 m c (Proc.devRef .tc main_arg7) = m ((c : Thread nD τ).loc main_arg7) :=
  (W2_of_ne m c main_arg7 (by decide)).trans (W1_main_arg7 m c)
theorem W3_main_arg7 (c : Dev nD) : W3 m c (Proc.devRef .tc main_arg7) = m ((c : Thread nD τ).loc main_arg7) :=
  (StableHlo.after_of_writes_sub hostOps1 _ hostOps1_writes (by decide : main_arg7 ∉ hostOps1_W)).trans (W2_main_arg7 m c)
theorem W4_main_arg7 (c : Dev nD) : W4 m c (Proc.devRef .tc main_arg7) = m ((c : Thread nD τ).loc main_arg7) :=
  (W4_of_ne m c main_arg7 (by decide)).trans (W3_main_arg7 m c)
theorem W5_main_arg7 (c : Dev nD) : W5 m c (Proc.devRef .tc main_arg7) = m ((c : Thread nD τ).loc main_arg7) :=
  (StableHlo.after_of_writes_sub hostOps2 _ hostOps2_writes (by decide : main_arg7 ∉ hostOps2_W)).trans (W4_main_arg7 m c)
theorem W6_main_arg7 (c : Dev nD) : W6 m c (Proc.devRef .tc main_arg7) = m ((c : Thread nD τ).loc main_arg7) :=
  (W6_of_ne m c main_arg7 (by decide)).trans (W5_main_arg7 m c)
theorem W7_main_arg7 (c : Dev nD) : W7 m c (Proc.devRef .tc main_arg7) = m ((c : Thread nD τ).loc main_arg7) :=
  (StableHlo.after_of_writes_sub hostOps3 _ hostOps3_writes (by decide : main_arg7 ∉ hostOps3_W)).trans (W6_main_arg7 m c)
theorem W8_main_arg7 (c : Dev nD) : W8 m c (Proc.devRef .tc main_arg7) = m ((c : Thread nD τ).loc main_arg7) :=
  (W8_of_ne m c main_arg7 (by decide)).trans (W7_main_arg7 m c)
theorem W0_main_arg8 (c : Dev nD) : W0 m c (Proc.devRef .tc main_arg8) = m ((c : Thread nD τ).loc main_arg8) := rfl
theorem W1_main_arg8 (c : Dev nD) : W1 m c (Proc.devRef .tc main_arg8) = m ((c : Thread nD τ).loc main_arg8) :=
  (StableHlo.after_of_writes_sub hostOps0 _ hostOps0_writes (by decide : main_arg8 ∉ hostOps0_W)).trans (W0_main_arg8 m c)
theorem W2_main_arg8 (c : Dev nD) : W2 m c (Proc.devRef .tc main_arg8) = m ((c : Thread nD τ).loc main_arg8) :=
  (W2_of_ne m c main_arg8 (by decide)).trans (W1_main_arg8 m c)
theorem W3_main_arg8 (c : Dev nD) : W3 m c (Proc.devRef .tc main_arg8) = m ((c : Thread nD τ).loc main_arg8) :=
  (StableHlo.after_of_writes_sub hostOps1 _ hostOps1_writes (by decide : main_arg8 ∉ hostOps1_W)).trans (W2_main_arg8 m c)
theorem W4_main_arg8 (c : Dev nD) : W4 m c (Proc.devRef .tc main_arg8) = m ((c : Thread nD τ).loc main_arg8) :=
  (W4_of_ne m c main_arg8 (by decide)).trans (W3_main_arg8 m c)
theorem W5_main_arg8 (c : Dev nD) : W5 m c (Proc.devRef .tc main_arg8) = m ((c : Thread nD τ).loc main_arg8) :=
  (StableHlo.after_of_writes_sub hostOps2 _ hostOps2_writes (by decide : main_arg8 ∉ hostOps2_W)).trans (W4_main_arg8 m c)
theorem W6_main_arg8 (c : Dev nD) : W6 m c (Proc.devRef .tc main_arg8) = m ((c : Thread nD τ).loc main_arg8) :=
  (W6_of_ne m c main_arg8 (by decide)).trans (W5_main_arg8 m c)
theorem W7_main_arg8 (c : Dev nD) : W7 m c (Proc.devRef .tc main_arg8) = m ((c : Thread nD τ).loc main_arg8) :=
  (StableHlo.after_of_writes_sub hostOps3 _ hostOps3_writes (by decide : main_arg8 ∉ hostOps3_W)).trans (W6_main_arg8 m c)
theorem W8_main_arg8 (c : Dev nD) : W8 m c (Proc.devRef .tc main_arg8) = m ((c : Thread nD τ).loc main_arg8) :=
  (W8_of_ne m c main_arg8 (by decide)).trans (W7_main_arg8 m c)
theorem W0_main_arg9 (c : Dev nD) : W0 m c (Proc.devRef .tc main_arg9) = m ((c : Thread nD τ).loc main_arg9) := rfl
theorem W1_main_arg9 (c : Dev nD) : W1 m c (Proc.devRef .tc main_arg9) = m ((c : Thread nD τ).loc main_arg9) :=
  (StableHlo.after_of_writes_sub hostOps0 _ hostOps0_writes (by decide : main_arg9 ∉ hostOps0_W)).trans (W0_main_arg9 m c)
theorem W2_main_arg9 (c : Dev nD) : W2 m c (Proc.devRef .tc main_arg9) = m ((c : Thread nD τ).loc main_arg9) :=
  (W2_of_ne m c main_arg9 (by decide)).trans (W1_main_arg9 m c)
theorem W3_main_arg9 (c : Dev nD) : W3 m c (Proc.devRef .tc main_arg9) = m ((c : Thread nD τ).loc main_arg9) :=
  (StableHlo.after_of_writes_sub hostOps1 _ hostOps1_writes (by decide : main_arg9 ∉ hostOps1_W)).trans (W2_main_arg9 m c)
theorem W4_main_arg9 (c : Dev nD) : W4 m c (Proc.devRef .tc main_arg9) = m ((c : Thread nD τ).loc main_arg9) :=
  (W4_of_ne m c main_arg9 (by decide)).trans (W3_main_arg9 m c)
theorem W5_main_arg9 (c : Dev nD) : W5 m c (Proc.devRef .tc main_arg9) = m ((c : Thread nD τ).loc main_arg9) :=
  (StableHlo.after_of_writes_sub hostOps2 _ hostOps2_writes (by decide : main_arg9 ∉ hostOps2_W)).trans (W4_main_arg9 m c)
theorem W6_main_arg9 (c : Dev nD) : W6 m c (Proc.devRef .tc main_arg9) = m ((c : Thread nD τ).loc main_arg9) :=
  (W6_of_ne m c main_arg9 (by decide)).trans (W5_main_arg9 m c)
theorem W7_main_arg9 (c : Dev nD) : W7 m c (Proc.devRef .tc main_arg9) = m ((c : Thread nD τ).loc main_arg9) :=
  (StableHlo.after_of_writes_sub hostOps3 _ hostOps3_writes (by decide : main_arg9 ∉ hostOps3_W)).trans (W6_main_arg9 m c)
theorem W8_main_arg9 (c : Dev nD) : W8 m c (Proc.devRef .tc main_arg9) = m ((c : Thread nD τ).loc main_arg9) :=
  (W8_in m c 1 rfl).trans (W7_main_arg9 m c)
theorem W0_main_arg10 (c : Dev nD) : W0 m c (Proc.devRef .tc main_arg10) = m ((c : Thread nD τ).loc main_arg10) := rfl
theorem W1_main_arg10 (c : Dev nD) : W1 m c (Proc.devRef .tc main_arg10) = m ((c : Thread nD τ).loc main_arg10) :=
  (StableHlo.after_of_writes_sub hostOps0 _ hostOps0_writes (by decide : main_arg10 ∉ hostOps0_W)).trans (W0_main_arg10 m c)
theorem W2_main_arg10 (c : Dev nD) : W2 m c (Proc.devRef .tc main_arg10) = m ((c : Thread nD τ).loc main_arg10) :=
  (W2_of_ne m c main_arg10 (by decide)).trans (W1_main_arg10 m c)
theorem W3_main_arg10 (c : Dev nD) : W3 m c (Proc.devRef .tc main_arg10) = m ((c : Thread nD τ).loc main_arg10) :=
  (StableHlo.after_of_writes_sub hostOps1 _ hostOps1_writes (by decide : main_arg10 ∉ hostOps1_W)).trans (W2_main_arg10 m c)
theorem W4_main_arg10 (c : Dev nD) : W4 m c (Proc.devRef .tc main_arg10) = m ((c : Thread nD τ).loc main_arg10) :=
  (W4_of_ne m c main_arg10 (by decide)).trans (W3_main_arg10 m c)
theorem W5_main_arg10 (c : Dev nD) : W5 m c (Proc.devRef .tc main_arg10) = m ((c : Thread nD τ).loc main_arg10) :=
  (StableHlo.after_of_writes_sub hostOps2 _ hostOps2_writes (by decide : main_arg10 ∉ hostOps2_W)).trans (W4_main_arg10 m c)
theorem W6_main_arg10 (c : Dev nD) : W6 m c (Proc.devRef .tc main_arg10) = m ((c : Thread nD τ).loc main_arg10) :=
  (W6_of_ne m c main_arg10 (by decide)).trans (W5_main_arg10 m c)
theorem W7_main_arg10 (c : Dev nD) : W7 m c (Proc.devRef .tc main_arg10) = m ((c : Thread nD τ).loc main_arg10) :=
  (StableHlo.after_of_writes_sub hostOps3 _ hostOps3_writes (by decide : main_arg10 ∉ hostOps3_W)).trans (W6_main_arg10 m c)
theorem W8_main_arg10 (c : Dev nD) : W8 m c (Proc.devRef .tc main_arg10) = m ((c : Thread nD τ).loc main_arg10) :=
  (W8_of_ne m c main_arg10 (by decide)).trans (W7_main_arg10 m c)
theorem W0_main_arg11 (c : Dev nD) : W0 m c (Proc.devRef .tc main_arg11) = m ((c : Thread nD τ).loc main_arg11) := rfl
theorem W1_main_arg11 (c : Dev nD) : W1 m c (Proc.devRef .tc main_arg11) = m ((c : Thread nD τ).loc main_arg11) :=
  (StableHlo.after_of_writes_sub hostOps0 _ hostOps0_writes (by decide : main_arg11 ∉ hostOps0_W)).trans (W0_main_arg11 m c)
theorem W2_main_arg11 (c : Dev nD) : W2 m c (Proc.devRef .tc main_arg11) = m ((c : Thread nD τ).loc main_arg11) :=
  (W2_of_ne m c main_arg11 (by decide)).trans (W1_main_arg11 m c)
theorem W3_main_arg11 (c : Dev nD) : W3 m c (Proc.devRef .tc main_arg11) = m ((c : Thread nD τ).loc main_arg11) :=
  (StableHlo.after_of_writes_sub hostOps1 _ hostOps1_writes (by decide : main_arg11 ∉ hostOps1_W)).trans (W2_main_arg11 m c)
theorem W4_main_arg11 (c : Dev nD) : W4 m c (Proc.devRef .tc main_arg11) = m ((c : Thread nD τ).loc main_arg11) :=
  (W4_of_ne m c main_arg11 (by decide)).trans (W3_main_arg11 m c)
theorem W5_main_arg11 (c : Dev nD) : W5 m c (Proc.devRef .tc main_arg11) = m ((c : Thread nD τ).loc main_arg11) :=
  (StableHlo.after_of_writes_sub hostOps2 _ hostOps2_writes (by decide : main_arg11 ∉ hostOps2_W)).trans (W4_main_arg11 m c)
theorem W6_main_arg11 (c : Dev nD) : W6 m c (Proc.devRef .tc main_arg11) = m ((c : Thread nD τ).loc main_arg11) :=
  (W6_of_ne m c main_arg11 (by decide)).trans (W5_main_arg11 m c)
theorem W7_main_arg11 (c : Dev nD) : W7 m c (Proc.devRef .tc main_arg11) = m ((c : Thread nD τ).loc main_arg11) :=
  (StableHlo.after_of_writes_sub hostOps3 _ hostOps3_writes (by decide : main_arg11 ∉ hostOps3_W)).trans (W6_main_arg11 m c)
theorem W8_main_arg11 (c : Dev nD) : W8 m c (Proc.devRef .tc main_arg11) = m ((c : Thread nD τ).loc main_arg11) :=
  (W8_in m c 3 rfl).trans (W7_main_arg11 m c)
theorem W0_main_arg12 (c : Dev nD) : W0 m c (Proc.devRef .tc main_arg12) = m ((c : Thread nD τ).loc main_arg12) := rfl
theorem W1_main_arg12 (c : Dev nD) : W1 m c (Proc.devRef .tc main_arg12) = m ((c : Thread nD τ).loc main_arg12) :=
  (StableHlo.after_of_writes_sub hostOps0 _ hostOps0_writes (by decide : main_arg12 ∉ hostOps0_W)).trans (W0_main_arg12 m c)
theorem W2_main_arg12 (c : Dev nD) : W2 m c (Proc.devRef .tc main_arg12) = m ((c : Thread nD τ).loc main_arg12) :=
  (W2_of_ne m c main_arg12 (by decide)).trans (W1_main_arg12 m c)
theorem W3_main_arg12 (c : Dev nD) : W3 m c (Proc.devRef .tc main_arg12) = m ((c : Thread nD τ).loc main_arg12) :=
  (StableHlo.after_of_writes_sub hostOps1 _ hostOps1_writes (by decide : main_arg12 ∉ hostOps1_W)).trans (W2_main_arg12 m c)
theorem W4_main_arg12 (c : Dev nD) : W4 m c (Proc.devRef .tc main_arg12) = m ((c : Thread nD τ).loc main_arg12) :=
  (W4_of_ne m c main_arg12 (by decide)).trans (W3_main_arg12 m c)
theorem W5_main_arg12 (c : Dev nD) : W5 m c (Proc.devRef .tc main_arg12) = m ((c : Thread nD τ).loc main_arg12) :=
  (StableHlo.after_of_writes_sub hostOps2 _ hostOps2_writes (by decide : main_arg12 ∉ hostOps2_W)).trans (W4_main_arg12 m c)
theorem W6_main_arg12 (c : Dev nD) : W6 m c (Proc.devRef .tc main_arg12) = m ((c : Thread nD τ).loc main_arg12) :=
  (W6_of_ne m c main_arg12 (by decide)).trans (W5_main_arg12 m c)
theorem W7_main_arg12 (c : Dev nD) : W7 m c (Proc.devRef .tc main_arg12) = m ((c : Thread nD τ).loc main_arg12) :=
  (StableHlo.after_of_writes_sub hostOps3 _ hostOps3_writes (by decide : main_arg12 ∉ hostOps3_W)).trans (W6_main_arg12 m c)
theorem W8_main_arg12 (c : Dev nD) : W8 m c (Proc.devRef .tc main_arg12) = m ((c : Thread nD τ).loc main_arg12) :=
  (W8_of_ne m c main_arg12 (by decide)).trans (W7_main_arg12 m c)

/-! ## The proof data family and what rides beside the buffers -/

abbrev adm : (p : Fin 4) → (pcfgs (F := F) p).Adm := fun p => (cfgs p).toPCfg_adm
/-- Every pipeline's proof data, each at its launch's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- Launch 0: entered from every unscoped buffer at the boundary's contents, left at the next boundary's. Its windows'
    arrays are split out of the buffers on entry and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at the boundary's contents, left at the next boundary's. Its windows'
    arrays are split out of the buffers on entry and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at the boundary's contents, left at the next boundary's. Its windows'
    arrays are split out of the buffers on entry and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at the boundary's contents, left at the next boundary's. Its windows'
    arrays are split out of the buffers on entry and put back at the exit contents; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
theorem main_run (c : Dev nD) : main (F := F) c = Pipeline.Seg.run (segs m) := (main_chain c).trans (by chain_rfl)

/-- What the last launch leaves in the result array: the blocks its body stored, point by point. -/
abbrev result (c : Dev nD) : Buf (Elt F) ((c : Thread nD τ).loc main_v114) := (dat3 (V7 m) c).arrAt 5 cfg3.N

set_option backward.isDefEq.respectTransparency.types false in
/-- THE RUN: from any memory with zero counters every weakly fair execution of @main terminates, nothing faulting; the
    result array ends at `result` and every argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v114) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨(h c _ (mem_uc main_v114 (by decide))).trans (W8_arr m c 5),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c),
       (h c _ (mem_uc main_arg4 (by decide))).trans (W8_main_arg4 m c),
       (h c _ (mem_uc main_arg5 (by decide))).trans (W8_main_arg5 m c),
       (h c _ (mem_uc main_arg6 (by decide))).trans (W8_main_arg6 m c),
       (h c _ (mem_uc main_arg7 (by decide))).trans (W8_main_arg7 m c),
       (h c _ (mem_uc main_arg8 (by decide))).trans (W8_main_arg8 m c),
       (h c _ (mem_uc main_arg9 (by decide))).trans (W8_main_arg9 m c),
       (h c _ (mem_uc main_arg10 (by decide))).trans (W8_main_arg10 m c),
       (h c _ (mem_uc main_arg11 (by decide))).trans (W8_main_arg11 m c),
       (h c _ (mem_uc main_arg12 (by decide))).trans (W8_main_arg12 m c)⟩)

end Cert.KernelIdeal.Hand

end
-- ==== Proof.Spec.lean ====
/-
  The mathematics both programs compute, written once on the extended reals.

  A graph network of three layers over 50000 nodes with 128 features each.  Every layer takes the node features `h`
  and their neighbour mean `a` (one row per node) and returns, at node `r` and feature `c`,

      max ( ((Σₖ a[r,k]·Wl[k,c] + bl[c]) + Σₖ h[r,k]·Wr[k,c] − μ[c]) · (σ²[c] + ε)^(-1/2) · γ[c] + β[c] , 0 )

  — two matrix products, a bias, a normalisation by stored statistics, a clamp at zero.  The classifier joins the three
  layers' rows side by side (384 features), and computes  Σⱼ max(Σₖ jk[r,k]·W₁[k,j] + b₁[j], 0) · W₂[j,c] + b₂[c].
  Nothing here depends on how the rows are tiled: each output entry depends on ONE row of its inputs.
-/
import Idealize.ShloMosaic.PureOps.Ideal
import Idealize.ShloMosaic.Lib.ValueIdx

noncomputable section

namespace Cert.Spec

open Idealize.ShloMosaic Idealize.ShloMosaic.ValueIdx
open scoped BigOperators

/-- The stabiliser added to the variance: the single-precision word nearest to 10⁻⁵, the same word in both programs. -/
def eps : EReal := Ideal.ofBits .f32 0x3727C5AC#32

/-- The clamp's floor: the zero word. -/
def zero : EReal := Ideal.ofBits .f32 0x00000000#32

/-- One entry of a layer's output from the ROW of neighbour means `a`, the ROW of features `h`, the two weight COLUMNS
    `wl`, `wr`, and that feature's bias and statistics. -/
def layerAt (a h wl wr : Fin 128 → EReal) (bl gamma beta rmean rvar : EReal) : EReal :=
  max (((((∑ k : Fin 128, a k * wl k) + bl) + (∑ k : Fin 128, h k * wr k)) - rmean) * Ideal.rsqrt (rvar + eps) * gamma + beta) zero

/-- Layer `l` on whole arrays: entry (r, c) reads row `r` of `agg` and `h`, column `c` of slab `l` of the weights, and
    entry (l, c) of the five per-feature vectors. -/
def layerArr (l : Fin 3) (agg h : (⟨2, ![50000, 128]⟩ : Shape).Idx → EReal) (Wl : (⟨3, ![3, 128, 128]⟩ : Shape).Idx → EReal)
    (bl : (⟨2, ![3, 128]⟩ : Shape).Idx → EReal) (Wr : (⟨3, ![3, 128, 128]⟩ : Shape).Idx → EReal)
    (gamma beta rmean rvar : (⟨2, ![3, 128]⟩ : Shape).Idx → EReal) : (⟨2, ![50000, 128]⟩ : Shape).Idx → EReal :=
  fun i => layerAt (fun k => agg (ix2 (i 0) k)) (fun k => h (ix2 (i 0) k)) (fun k => Wl (ix3 l k (i 1))) (fun k => Wr (ix3 l k (i 1)))
    (bl (ix2 l (i 1))) (gamma (ix2 l (i 1))) (beta (ix2 l (i 1))) (rmean (ix2 l (i 1))) (rvar (ix2 l (i 1)))

/-- The same layer over the arrays as a kernel launch receives them: the weight slab already cut out ([128,128]) and each
    per-feature vector as one row ([1,128]). -/
def layerBlk (agg h : (⟨2, ![50000, 128]⟩ : Shape).Idx → EReal) (wl : (⟨2, ![128, 128]⟩ : Shape).Idx → EReal)
    (bl : (⟨2, ![1, 128]⟩ : Shape).Idx → EReal) (wr : (⟨2, ![128, 128]⟩ : Shape).Idx → EReal)
    (gamma beta rmean rvar : (⟨2, ![1, 128]⟩ : Shape).Idx → EReal) : (⟨2, ![50000, 128]⟩ : Shape).Idx → EReal :=
  fun i => layerAt (fun k => agg (ix2 (i 0) k)) (fun k => h (ix2 (i 0) k)) (fun k => wl (ix2 k (i 1))) (fun k => wr (ix2 k (i 1)))
    (bl (ix2 0 (i 1))) (gamma (ix2 0 (i 1))) (beta (ix2 0 (i 1))) (rmean (ix2 0 (i 1))) (rvar (ix2 0 (i 1)))

/-- Entry `k` of node `r`'s joined row: feature `k % 128` of layer `k / 128`. -/
def jkAt (h1 h2 h3 : (⟨2, ![50000, 128]⟩ : Shape).Idx → EReal) (r : Fin 50000) (k : Fin 384) : EReal :=
  (![h1, h2, h3] ⟨k.val / 128, by omega⟩) (ix2 r ⟨k.val % 128, Nat.mod_lt _ (by decide)⟩)

/-- One entry of the classifier's output from the joined ROW `jk`, the first weight matrix and bias, and the COLUMN
    `w2` and bias `b2` of the second. -/
def clfAt (jk : Fin 384 → EReal) (w1 : Fin 384 → Fin 64 → EReal) (b1 : Fin 64 → EReal) (w2 : Fin 64 → EReal) (b2 : EReal) : EReal :=
  (∑ j : Fin 64, max ((∑ k : Fin 384, jk k * w1 k j) + b1 j) zero * w2 j) + b2

/-- The classifier on whole arrays. -/
def clfArr (h1 h2 h3 : (⟨2, ![50000, 128]⟩ : Shape).Idx → EReal) (W1 : (⟨2, ![384, 64]⟩ : Shape).Idx → EReal)
    (b1 : (⟨1, ![64]⟩ : Shape).Idx → EReal) (W2 : (⟨2, ![64, 2]⟩ : Shape).Idx → EReal) (b2 : (⟨1, ![2]⟩ : Shape).Idx → EReal) :
    (⟨2, ![50000, 2]⟩ : Shape).Idx → EReal :=
  fun i => clfAt (jkAt h1 h2 h3 (i 0)) (fun k j => W1 (ix2 k j)) (fun j => b1 (ix1 j)) (fun j => W2 (ix2 j (i 1))) (b2 (ix1 (i 1)))

/-- The classifier over the arrays as its kernel launch receives them: the joined rows as one array ([50000,384]) and each
    bias as one row. -/
def clfBlk (jk : (⟨2, ![50000, 384]⟩ : Shape).Idx → EReal) (W1 : (⟨2, ![384, 64]⟩ : Shape).Idx → EReal)
    (b1 : (⟨2, ![1, 64]⟩ : Shape).Idx → EReal) (W2 : (⟨2, ![64, 2]⟩ : Shape).Idx → EReal) (b2 : (⟨2, ![1, 2]⟩ : Shape).Idx → EReal) :
    (⟨2, ![50000, 2]⟩ : Shape).Idx → EReal :=
  fun i => clfAt (fun k => jk (ix2 (i 0) k)) (fun k j => W1 (ix2 k j)) (fun j => b1 (ix2 0 j)) (fun j => W2 (ix2 j (i 1))) (b2 (ix2 0 (i 1)))

end Cert.Spec

end
-- ==== Proof.PayLayer.lean ====
import proofs.«160495_j17575006175717_1_alg».proof.Proof.Gen.KernelIdeal.Skeleton
import proofs.«160495_j17575006175717_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Idealize.SL.Sem
open scoped BigOperators

/-!
  The three layer kernels at an index.  Each stores, at row p and feature q of its block,

      max ( ((Σₖ a[p,k]·Wl[k,q] + bl[q]) + Σₖ h[p,k]·Wr[k,q] − μ[q]) · (σ²[q] + ε)^(-1/2) · γ[q] + β[q] , 0 )

  where a, h are the blocks of neighbour means and features, Wl, Wr the two weight slabs and bl, γ, β, μ, σ² the
  per-feature rows.  On the extended reals narrowing to half precision is the identity and a product into the zero
  accumulator is the plain sum over the shared axis; a [1,128] row broadcast down the block reads its one row.
-/

theorem matmul128_lhs0 (i : S1000x128.Idx) (c : dot_S1000x128_S128x128_S1000x128_1_0_0_1_n_n.contr.Idx) : (dot_S1000x128_S128x128_S1000x128_1_0_0_1_n_n.lhsIdx i c 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem matmul128_lhs1 (i : S1000x128.Idx) (c : dot_S1000x128_S128x128_S1000x128_1_0_0_1_n_n.contr.Idx) : (dot_S1000x128_S128x128_S1000x128_1_0_0_1_n_n.lhsIdx i c 1).val = (c ⟨0, by decide⟩).val :=
  dot_S1000x128_S128x128_S1000x128_1_0_0_1_n_n.lhsIdx_val_of_single rfl i c
theorem matmul128_rhs0 (i : S1000x128.Idx) (c : dot_S1000x128_S128x128_S1000x128_1_0_0_1_n_n.contr.Idx) : (dot_S1000x128_S128x128_S1000x128_1_0_0_1_n_n.rhsIdx i c 0).val = (c ⟨0, by decide⟩).val :=
  dot_S1000x128_S128x128_S1000x128_1_0_0_1_n_n.rhsIdx_val_of_single rfl i c
theorem matmul128_rhs1 (i : S1000x128.Idx) (c : dot_S1000x128_S128x128_S1000x128_1_0_0_1_n_n.contr.Idx) : (dot_S1000x128_S128x128_S1000x128_1_0_0_1_n_n.rhsIdx i c 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The product of a [1000,128] block and a [128,128] block into the zero accumulator, read at (p, q):
    the sum over the shared axis of row p of the left factor against column q of the right. -/
theorem matmul128_apply (l : FVec Ideal S1000x128 .bf16) (r : FVec Ideal S128x128 .bf16) (p : Fin 1000) (q : Fin 128) :
    matmul dot_S1000x128_S128x128_S1000x128_1_0_0_1_n_n none l r (constant (F := Ideal) S1000x128 .f32 0x00000000#32) (ix2 p q)
      = ∑ k : Fin 128, l (ix2 p k) * r (ix2 k q) := by
  show FloatOps.matmul dot_S1000x128_S128x128_S1000x128_1_0_0_1_n_n none l r (constant (F := Ideal) S1000x128 .f32 0x00000000#32) (ix2 p q) = _
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact matmul128_lhs0 _ _
    | ⟨1, _⟩ => exact (matmul128_lhs1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (matmul128_rhs0 _ _).trans hk
    | ⟨1, _⟩ => exact matmul128_rhs1 _ _)
  rw [el, er]

/-- The layer kernel of the first call at an index: two products, the bias, the normalisation by the stored
    statistics, the clamp at zero. -/
theorem pay0_apply (x0 x1 : Vec Ideal S1000x128 .f32) (x2 x4 : Vec Ideal S128x128 .f32) (x3 x5 x6 x7 x8 : Vec Ideal S1x128 .f32)
    (p : Fin 1000) (q : Fin 128) :
    Gen.k0_pay1 (F := Ideal) (Gen.k0_pay2 (F := Ideal) x0 x1 x2 x4 x3 x8 x7 x5 x6) (Scalar.ofBits .f32 0x00000000#32) (ix2 p q)
      = Cert.Spec.layerAt (fun k => x0 (ix2 p k)) (fun k => x1 (ix2 p k)) (fun k => x2 (ix2 k q)) (fun k => x4 (ix2 k q))
          (x3 (ix2 0 q)) (x5 (ix2 0 q)) (x6 (ix2 0 q)) (x7 (ix2 0 q)) (x8 (ix2 0 q)) := by
  unfold Gen.k0_pay1 Gen.k0_pay2 Cert.Spec.layerAt Cert.Spec.zero Cert.Spec.eps
  simp only [shapeCast_self, maximumf_apply, addf_apply, mulf_apply, subf_apply, broadcast_apply, matmul128_apply, truncf_apply,
    broadcastTo_1b_ab_apply]
  rfl

/-- The layer kernel of call 1 at an index: the same arithmetic, the features' block also passed through an identity reshape. -/
theorem pay1_apply (x0 x1 : Vec Ideal S1000x128 .f32) (x2 x4 : Vec Ideal S128x128 .f32) (x3 x5 x6 x7 x8 : Vec Ideal S1x128 .f32)
    (p : Fin 1000) (q : Fin 128) :
    Gen.k1_pay1 (F := Ideal) (Gen.k1_pay2 (F := Ideal) x0 x1 x2 x4 x3 x8 x7 x5 x6) (ix2 p q)
      = Cert.Spec.layerAt (fun k => x0 (ix2 p k)) (fun k => x1 (ix2 p k)) (fun k => x2 (ix2 k q)) (fun k => x4 (ix2 k q))
          (x3 (ix2 0 q)) (x5 (ix2 0 q)) (x6 (ix2 0 q)) (x7 (ix2 0 q)) (x8 (ix2 0 q)) := by
  unfold Gen.k1_pay1 Gen.k1_pay2 Cert.Spec.layerAt Cert.Spec.zero Cert.Spec.eps
  simp only [shapeCast_self, maximumf_apply, addf_apply, mulf_apply, subf_apply, broadcast_apply, matmul128_apply, truncf_apply,
    broadcastTo_1b_ab_apply]
  rfl

/-- The layer kernel of call 2 at an index: the same arithmetic, the features' block also passed through an identity reshape. -/
theorem pay2_apply (x0 x1 : Vec Ideal S1000x128 .f32) (x2 x4 : Vec Ideal S128x128 .f32) (x3 x5 x6 x7 x8 : Vec Ideal S1x128 .f32)
    (p : Fin 1000) (q : Fin 128) :
    Gen.k2_pay1 (F := Ideal) (Gen.k2_pay2 (F := Ideal) x0 x1 x2 x4 x3 x8 x7 x5 x6) (ix2 p q)
      = Cert.Spec.layerAt (fun k => x0 (ix2 p k)) (fun k => x1 (ix2 p k)) (fun k => x2 (ix2 k q)) (fun k => x4 (ix2 k q))
          (x3 (ix2 0 q)) (x5 (ix2 0 q)) (x6 (ix2 0 q)) (x7 (ix2 0 q)) (x8 (ix2 0 q)) := by
  unfold Gen.k2_pay1 Gen.k2_pay2 Cert.Spec.layerAt Cert.Spec.zero Cert.Spec.eps
  simp only [shapeCast_self, maximumf_apply, addf_apply, mulf_apply, subf_apply, broadcast_apply, matmul128_apply, truncf_apply,
    broadcastTo_1b_ab_apply]
  rfl

end Cert.KernelIdeal.Pay

end
-- ==== Proof.IdealFinal0.lean ====
/-
  Launch 0 (layer 0) read as a function of whole arrays, on the extended reals.  The launch's grid walks the 50000 rows in
  50 blocks of 1000; point `t` reads rows 1000·t … 1000·t+999 of the neighbour means and of the features, the whole of the two
  weight matrices and of the five per-feature rows, and writes back rows 1000·t … of the output.  Entry (p, q) of the block
  the body stores depends on row p of the two row blocks only, so what point `t` writes back IS block `t` of the layer's
  function of the whole arrays; the 50 blocks tile the output, so the output array ends holding that function.
-/
import proofs.«160495_j17575006175717_1_alg».proof.Proof.IdealRegion0
import proofs.«160495_j17575006175717_1_alg».proof.Proof.PayLayer
import proofs.«160495_j17575006175717_1_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Hand

variable (V : (c : Dev nD) → (b : Ref sig .tc) → Buf (Elt Ideal) ((c : Thread nD τ).loc b))

theorem hz0 : (![0, 0] : Fin 2 → Nat) = fun _ => 0 := funext fun a => by fin_cases a <;> rfl

/-- The layer's function of the arrays the launch's windows read, as the region finds them. -/
abbrev G0 (c : Dev nD) : S50000x128.Idx → EReal := Cert.Spec.layerBlk (V c main_v24 : S50000x128.Idx → EReal) (V c main_arg0 : S50000x128.Idx → EReal) (V c main_v26 : S128x128.Idx → EReal) (V c main_v39 : S1x128.Idx → EReal) (V c main_v30 : S128x128.Idx → EReal) (V c main_v40 : S1x128.Idx → EReal) (V c main_v41 : S1x128.Idx → EReal) (V c main_v42 : S1x128.Idx → EReal) (V c main_v43 : S1x128.Idx → EReal)

/-- The printed index maps over the grid: the row windows and the output move with the point, one block of rows per point;
    the other windows stay at block 0. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_9.index t (0 : Fin 2) = t.val
    ∧ win0_9.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

set_option maxHeartbeats 2000000 in
/-- WHAT POINT `t` WRITES BACK is block `t` of the layer's function of the whole arrays. -/
theorem flushed0_eq (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz0]
  simp only [View.ld_unit_zero (S := S1000x128) hz0, View.ld_unit_zero (S := S128x128) hz0, View.ld_unit_zero (S := S1x128) hz0]
  obtain ⟨e0a, e0b, e1a, e1b, e9a, e9b, e2a, e2b, e3a, e3b, e4a, e4b, e5a, e5b, e6a, e6b, e7a, e7b, e8a, e8b⟩ := idx0 t
  funext y
  obtain ⟨p, q, rfl⟩ : ∃ (p : Fin 1000) (q : Fin 128), y = ix2 p q := ⟨y 0, y 1, eq_ix2 y⟩
  have ht : t.val < 50 := Nat.lt_of_lt_of_eq t.isLt N_0
  have hp : p.val < 1000 := p.isLt
  have hq : q.val < 128 := q.isLt
  refine (Cert.KernelIdeal.Pay.pay0_apply (iblk0 V c 0 t) (iblk0 V c 1 t) (iblk0 V c 2 t) (iblk0 V c 4 t) (iblk0 V c 3 t) (iblk0 V c 5 t) (iblk0 V c 6 t) (iblk0 V c 7 t) (iblk0 V c 8 t) p q).trans ?_
  show _ = Cert.Spec.layerBlk _ _ _ _ _ _ _ _ _ (((cfg0.win 9).blk t).view.emb (ix2 p q))
  unfold Cert.Spec.layerBlk
  have r9 : ((((cfg0.win 9).blk t).view.emb (ix2 p q)) 0).val = t.val * 1000 + p.val := by
    show win0_9.index t (0 : Fin 2) * 1000 + 1 * p.val = _; omega
  have c9 : ((((cfg0.win 9).blk t).view.emb (ix2 p q)) 1).val = q.val := by
    show win0_9.index t (1 : Fin 2) * 128 + 1 * q.val = _; omega
  have h0 : ∀ k : Fin 128, iblk0 V c 0 t (ix2 p k) = V c main_v24 (ix2 ((((cfg0.win 9).blk t).view.emb (ix2 p q)) 0) k) := fun k => by
    show V c main_v24 (((cfg0.win 0).blk t).view.emb (ix2 p k)) = V c main_v24 (ix2 ((((cfg0.win 9).blk t).view.emb (ix2 p q)) 0) k)
    refine congrArg _ (funext fun a => Fin.ext ?_)
    match a with
    | ⟨0, _⟩ => show win0_0.index t (0 : Fin 2) * 1000 + 1 * p.val = _; rw [r9]; omega
    | ⟨1, _⟩ => show win0_0.index t (1 : Fin 2) * 128 + 1 * k.val = k.val; omega
  have h1 : ∀ k : Fin 128, iblk0 V c 1 t (ix2 p k) = V c main_arg0 (ix2 ((((cfg0.win 9).blk t).view.emb (ix2 p q)) 0) k) := fun k => by
    show V c main_arg0 (((cfg0.win 1).blk t).view.emb (ix2 p k)) = V c main_arg0 (ix2 ((((cfg0.win 9).blk t).view.emb (ix2 p q)) 0) k)
    refine congrArg _ (funext fun a => Fin.ext ?_)
    match a with
    | ⟨0, _⟩ => show win0_1.index t (0 : Fin 2) * 1000 + 1 * p.val = _; rw [r9]; omega
    | ⟨1, _⟩ => show win0_1.index t (1 : Fin 2) * 128 + 1 * k.val = k.val; omega
  have h2 : ∀ k : Fin 128, iblk0 V c 2 t (ix2 k q) = V c main_v26 (ix2 k ((((cfg0.win 9).blk t).view.emb (ix2 p q)) 1)) := fun k => by
    show V c main_v26 (((cfg0.win 2).blk t).view.emb (ix2 k q)) = V c main_v26 (ix2 k ((((cfg0.win 9).blk t).view.emb (ix2 p q)) 1))
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = _; rw [c9]; omega
  have h4 : ∀ k : Fin 128, iblk0 V c 4 t (ix2 k q) = V c main_v30 (ix2 k ((((cfg0.win 9).blk t).view.emb (ix2 p q)) 1)) := fun k => by
    show V c main_v30 (((cfg0.win 4).blk t).view.emb (ix2 k q)) = V c main_v30 (ix2 k ((((cfg0.win 9).blk t).view.emb (ix2 p q)) 1))
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = _; rw [c9]; omega
  have h3 : iblk0 V c 3 t (ix2 0 q) = V c main_v39 (ix2 0 ((((cfg0.win 9).blk t).view.emb (ix2 p q)) 1)) := by
    show V c main_v39 (((cfg0.win 3).blk t).view.emb (ix2 0 q)) = V c main_v39 (ix2 0 ((((cfg0.win 9).blk t).view.emb (ix2 p q)) 1))
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = _; rw [c9]; omega
  have h5 : iblk0 V c 5 t (ix2 0 q) = V c main_v40 (ix2 0 ((((cfg0.win 9).blk t).view.emb (ix2 p q)) 1)) := by
    show V c main_v40 (((cfg0.win 5).blk t).view.emb (ix2 0 q)) = V c main_v40 (ix2 0 ((((cfg0.win 9).blk t).view.emb (ix2 p q)) 1))
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * q.val = _; rw [c9]; omega
  have h6 : iblk0 V c 6 t (ix2 0 q) = V c main_v41 (ix2 0 ((((cfg0.win 9).blk t).view.emb (ix2 p q)) 1)) := by
    show V c main_v41 (((cfg0.win 6).blk t).view.emb (ix2 0 q)) = V c main_v41 (ix2 0 ((((cfg0.win 9).blk t).view.emb (ix2 p q)) 1))
    refine congrArg _ (funext fun a => Fin.ext ?_)
    match a with
    | ⟨0, _⟩ => show win0_6.index t (0 : Fin 2) * 1 + 1 * 0 = 0; omega
    | ⟨1, _⟩ => show win0_6.index t (1 : Fin 2) * 128 + 1 * q.val = _; rw [c9]; omega
  have h7 : iblk0 V c 7 t (ix2 0 q) = V c main_v42 (ix2 0 ((((cfg0.win 9).blk t).view.emb (ix2 p q)) 1)) := by
    show V c main_v42 (((cfg0.win 7).blk t).view.emb (ix2 0 q)) = V c main_v42 (ix2 0 ((((cfg0.win 9).blk t).view.emb (ix2 p q)) 1))
    refine congrArg _ (funext fun a => Fin.ext ?_)
    match a with
    | ⟨0, _⟩ => show win0_7.index t (0 : Fin 2) * 1 + 1 * 0 = 0; omega
    | ⟨1, _⟩ => show win0_7.index t (1 : Fin 2) * 128 + 1 * q.val = _; rw [c9]; omega
  have h8 : iblk0 V c 8 t (ix2 0 q) = V c main_v43 (ix2 0 ((((cfg0.win 9).blk t).view.emb (ix2 p q)) 1)) := by
    show V c main_v43 (((cfg0.win 8).blk t).view.emb (ix2 0 q)) = V c main_v43 (ix2 0 ((((cfg0.win 9).blk t).view.emb (ix2 p q)) 1))
    refine congrArg _ (funext fun a => Fin.ext ?_)
    match a with
    | ⟨0, _⟩ => show win0_8.index t (0 : Fin 2) * 1 + 1 * 0 = 0; omega
    | ⟨1, _⟩ => show win0_8.index t (1 : Fin 2) * 128 + 1 * q.val = _; rw [c9]; omega
  simp only [h0, h1, h2, h4, h3, h5, h6, h7, h8]

/-- An index of the output array is in point `t`'s block iff each coordinate is in the block's range on its axis. -/
theorem mem_blk0 (t : Fin cfg0.N) (i : S50000x128.Idx) :
    i ∈ ((cfg0.win 9).blk t).view.set ↔ ∀ a : Fin 2, win0_9.index t a * S1000x128.size a ≤ (i a).val ∧ (i a).val < win0_9.index t a * S1000x128.size a + S1000x128.size a := by
  show i ∈ ((View.whole main_v44).slice (win0_9.rect t)).set ↔ _
  rw [View.set_slice_whole, Rect.mem_set_unit]
  exact Iff.rfl

/-- THE ARRAY after the launch: the layer's function of the arrays its windows read. Row r lies in the block of point r / 1000. -/
theorem final0 (c : Dev nD) : (dat0 V c).arrAt 9 cfg0.N = G0 V c :=
  (dat0 V c).arrAt_eq_of_cover 9 (G0 V c) (fun t _ => flushed0_eq V c t) fun i => by
    have hi0 : (i 0).val < 50000 := (i 0).isLt
    have hi1 : (i 1).val < 128 := (i 1).isLt
    refine ⟨⟨(i 0).val / 1000, Nat.lt_of_lt_of_eq (by omega : (i 0).val / 1000 < 50) N_0.symm⟩, flush0_9 _, ?_⟩
    rw [mem_blk0]
    obtain ⟨e0a, e0b, e1a, e1b, e9a, e9b, e2a, e2b, e3a, e3b, e4a, e4b, e5a, e5b, e6a, e6b, e7a, e7b, e8a, e8b⟩ := idx0 ⟨(i 0).val / 1000, Nat.lt_of_lt_of_eq (by omega : (i 0).val / 1000 < 50) N_0.symm⟩
    intro a
    match a with
    | ⟨0, _⟩ => show win0_9.index _ (0 : Fin 2) * 1000 ≤ (i 0).val ∧ (i 0).val < win0_9.index _ (0 : Fin 2) * 1000 + 1000; rw [e9a]; show (i 0).val / 1000 * 1000 ≤ _ ∧ _ < (i 0).val / 1000 * 1000 + 1000; omega
    | ⟨1, _⟩ => show win0_9.index _ (1 : Fin 2) * 128 ≤ (i 1).val ∧ (i 1).val < win0_9.index _ (1 : Fin 2) * 128 + 128; rw [e9b]; omega

end Cert.KernelIdeal.HandValue

end
-- ==== Proof.IdealFinal1.lean ====
/-
  Launch 1 (layer 1) read as a function of whole arrays, on the extended reals.  The launch's grid walks the 50000 rows in
  50 blocks of 1000; point `t` reads rows 1000·t … 1000·t+999 of the neighbour means and of the features, the whole of the two
  weight matrices and of the five per-feature rows, and writes back rows 1000·t … of the output.  Entry (p, q) of the block
  the body stores depends on row p of the two row blocks only, so what point `t` writes back IS block `t` of the layer's
  function of the whole arrays; the 50 blocks tile the output, so the output array ends holding that function.
-/
import proofs.«160495_j17575006175717_1_alg».proof.Proof.IdealRegion1
import proofs.«160495_j17575006175717_1_alg».proof.Proof.PayLayer
import proofs.«160495_j17575006175717_1_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Hand

variable (V : (c : Dev nD) → (b : Ref sig .tc) → Buf (Elt Ideal) ((c : Thread nD τ).loc b))

theorem hz1 : (![0, 0] : Fin 2 → Nat) = fun _ => 0 := funext fun a => by fin_cases a <;> rfl

/-- The layer's function of the arrays the launch's windows read, as the region finds them. -/
abbrev G1 (c : Dev nD) : S50000x128.Idx → EReal := Cert.Spec.layerBlk (V c main_v57 : S50000x128.Idx → EReal) (V c main_v44 : S50000x128.Idx → EReal) (V c main_v59 : S128x128.Idx → EReal) (V c main_v72 : S1x128.Idx → EReal) (V c main_v63 : S128x128.Idx → EReal) (V c main_v73 : S1x128.Idx → EReal) (V c main_v74 : S1x128.Idx → EReal) (V c main_v75 : S1x128.Idx → EReal) (V c main_v76 : S1x128.Idx → EReal)

/-- The printed index maps over the grid: the row windows and the output move with the point, one block of rows per point;
    the other windows stay at block 0. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_9.index t (0 : Fin 2) = t.val
    ∧ win1_9.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

set_option maxHeartbeats 2000000 in
/-- WHAT POINT `t` WRITES BACK is block `t` of the layer's function of the whole arrays. -/
theorem flushed1_eq (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  unfold out1_9
  rw [View.canon_unit_zero hz1]
  simp only [View.ld_unit_zero (S := S1000x128) hz1, View.ld_unit_zero (S := S128x128) hz1, View.ld_unit_zero (S := S1x128) hz1]
  obtain ⟨e0a, e0b, e1a, e1b, e9a, e9b, e2a, e2b, e3a, e3b, e4a, e4b, e5a, e5b, e6a, e6b, e7a, e7b, e8a, e8b⟩ := idx1 t
  funext y
  obtain ⟨p, q, rfl⟩ : ∃ (p : Fin 1000) (q : Fin 128), y = ix2 p q := ⟨y 0, y 1, eq_ix2 y⟩
  have ht : t.val < 50 := Nat.lt_of_lt_of_eq t.isLt N_1
  have hp : p.val < 1000 := p.isLt
  have hq : q.val < 128 := q.isLt
  refine (Cert.KernelIdeal.Pay.pay1_apply (iblk1 V c 0 t) (iblk1 V c 1 t) (iblk1 V c 2 t) (iblk1 V c 4 t) (iblk1 V c 3 t) (iblk1 V c 5 t) (iblk1 V c 6 t) (iblk1 V c 7 t) (iblk1 V c 8 t) p q).trans ?_
  show _ = Cert.Spec.layerBlk _ _ _ _ _ _ _ _ _ (((cfg1.win 9).blk t).view.emb (ix2 p q))
  unfold Cert.Spec.layerBlk
  have r9 : ((((cfg1.win 9).blk t).view.emb (ix2 p q)) 0).val = t.val * 1000 + p.val := by
    show win1_9.index t (0 : Fin 2) * 1000 + 1 * p.val = _; omega
  have c9 : ((((cfg1.win 9).blk t).view.emb (ix2 p q)) 1).val = q.val := by
    show win1_9.index t (1 : Fin 2) * 128 + 1 * q.val = _; omega
  have h0 : ∀ k : Fin 128, iblk1 V c 0 t (ix2 p k) = V c main_v57 (ix2 ((((cfg1.win 9).blk t).view.emb (ix2 p q)) 0) k) := fun k => by
    show V c main_v57 (((cfg1.win 0).blk t).view.emb (ix2 p k)) = V c main_v57 (ix2 ((((cfg1.win 9).blk t).view.emb (ix2 p q)) 0) k)
    refine congrArg _ (funext fun a => Fin.ext ?_)
    match a with
    | ⟨0, _⟩ => show win1_0.index t (0 : Fin 2) * 1000 + 1 * p.val = _; rw [r9]; omega
    | ⟨1, _⟩ => show win1_0.index t (1 : Fin 2) * 128 + 1 * k.val = k.val; omega
  have h1 : ∀ k : Fin 128, iblk1 V c 1 t (ix2 p k) = V c main_v44 (ix2 ((((cfg1.win 9).blk t).view.emb (ix2 p q)) 0) k) := fun k => by
    show V c main_v44 (((cfg1.win 1).blk t).view.emb (ix2 p k)) = V c main_v44 (ix2 ((((cfg1.win 9).blk t).view.emb (ix2 p q)) 0) k)
    refine congrArg _ (funext fun a => Fin.ext ?_)
    match a with
    | ⟨0, _⟩ => show win1_1.index t (0 : Fin 2) * 1000 + 1 * p.val = _; rw [r9]; omega
    | ⟨1, _⟩ => show win1_1.index t (1 : Fin 2) * 128 + 1 * k.val = k.val; omega
  have h2 : ∀ k : Fin 128, iblk1 V c 2 t (ix2 k q) = V c main_v59 (ix2 k ((((cfg1.win 9).blk t).view.emb (ix2 p q)) 1)) := fun k => by
    show V c main_v59 (((cfg1.win 2).blk t).view.emb (ix2 k q)) = V c main_v59 (ix2 k ((((cfg1.win 9).blk t).view.emb (ix2 p q)) 1))
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = _; rw [c9]; omega
  have h4 : ∀ k : Fin 128, iblk1 V c 4 t (ix2 k q) = V c main_v63 (ix2 k ((((cfg1.win 9).blk t).view.emb (ix2 p q)) 1)) := fun k => by
    show V c main_v63 (((cfg1.win 4).blk t).view.emb (ix2 k q)) = V c main_v63 (ix2 k ((((cfg1.win 9).blk t).view.emb (ix2 p q)) 1))
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = _; rw [c9]; omega
  have h3 : iblk1 V c 3 t (ix2 0 q) = V c main_v72 (ix2 0 ((((cfg1.win 9).blk t).view.emb (ix2 p q)) 1)) := by
    show V c main_v72 (((cfg1.win 3).blk t).view.emb (ix2 0 q)) = V c main_v72 (ix2 0 ((((cfg1.win 9).blk t).view.emb (ix2 p q)) 1))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = _; rw [c9]; omega
  have h5 : iblk1 V c 5 t (ix2 0 q) = V c main_v73 (ix2 0 ((((cfg1.win 9).blk t).view.emb (ix2 p q)) 1)) := by
    show V c main_v73 (((cfg1.win 5).blk t).view.emb (ix2 0 q)) = V c main_v73 (ix2 0 ((((cfg1.win 9).blk t).view.emb (ix2 p q)) 1))
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = _; rw [c9]; omega
  have h6 : iblk1 V c 6 t (ix2 0 q) = V c main_v74 (ix2 0 ((((cfg1.win 9).blk t).view.emb (ix2 p q)) 1)) := by
    show V c main_v74 (((cfg1.win 6).blk t).view.emb (ix2 0 q)) = V c main_v74 (ix2 0 ((((cfg1.win 9).blk t).view.emb (ix2 p q)) 1))
    refine congrArg _ (funext fun a => Fin.ext ?_)
    match a with
    | ⟨0, _⟩ => show win1_6.index t (0 : Fin 2) * 1 + 1 * 0 = 0; omega
    | ⟨1, _⟩ => show win1_6.index t (1 : Fin 2) * 128 + 1 * q.val = _; rw [c9]; omega
  have h7 : iblk1 V c 7 t (ix2 0 q) = V c main_v75 (ix2 0 ((((cfg1.win 9).blk t).view.emb (ix2 p q)) 1)) := by
    show V c main_v75 (((cfg1.win 7).blk t).view.emb (ix2 0 q)) = V c main_v75 (ix2 0 ((((cfg1.win 9).blk t).view.emb (ix2 p q)) 1))
    refine congrArg _ (funext fun a => Fin.ext ?_)
    match a with
    | ⟨0, _⟩ => show win1_7.index t (0 : Fin 2) * 1 + 1 * 0 = 0; omega
    | ⟨1, _⟩ => show win1_7.index t (1 : Fin 2) * 128 + 1 * q.val = _; rw [c9]; omega
  have h8 : iblk1 V c 8 t (ix2 0 q) = V c main_v76 (ix2 0 ((((cfg1.win 9).blk t).view.emb (ix2 p q)) 1)) := by
    show V c main_v76 (((cfg1.win 8).blk t).view.emb (ix2 0 q)) = V c main_v76 (ix2 0 ((((cfg1.win 9).blk t).view.emb (ix2 p q)) 1))
    refine congrArg _ (funext fun a => Fin.ext ?_)
    match a with
    | ⟨0, _⟩ => show win1_8.index t (0 : Fin 2) * 1 + 1 * 0 = 0; omega
    | ⟨1, _⟩ => show win1_8.index t (1 : Fin 2) * 128 + 1 * q.val = _; rw [c9]; omega
  simp only [h0, h1, h2, h4, h3, h5, h6, h7, h8]

/-- An index of the output array is in point `t`'s block iff each coordinate is in the block's range on its axis. -/
theorem mem_blk1 (t : Fin cfg1.N) (i : S50000x128.Idx) :
    i ∈ ((cfg1.win 9).blk t).view.set ↔ ∀ a : Fin 2, win1_9.index t a * S1000x128.size a ≤ (i a).val ∧ (i a).val < win1_9.index t a * S1000x128.size a + S1000x128.size a := by
  show i ∈ ((View.whole main_v77).slice (win1_9.rect t)).set ↔ _
  rw [View.set_slice_whole, Rect.mem_set_unit]
  exact Iff.rfl

/-- THE ARRAY after the launch: the layer's function of the arrays its windows read. Row r lies in the block of point r / 1000. -/
theorem final1 (c : Dev nD) : (dat1 V c).arrAt 9 cfg1.N = G1 V c :=
  (dat1 V c).arrAt_eq_of_cover 9 (G1 V c) (fun t _ => flushed1_eq V c t) fun i => by
    have hi0 : (i 0).val < 50000 := (i 0).isLt
    have hi1 : (i 1).val < 128 := (i 1).isLt
    refine ⟨⟨(i 0).val / 1000, Nat.lt_of_lt_of_eq (by omega : (i 0).val / 1000 < 50) N_1.symm⟩, flush1_9 _, ?_⟩
    rw [mem_blk1]
    obtain ⟨e0a, e0b, e1a, e1b, e9a, e9b, e2a, e2b, e3a, e3b, e4a, e4b, e5a, e5b, e6a, e6b, e7a, e7b, e8a, e8b⟩ := idx1 ⟨(i 0).val / 1000, Nat.lt_of_lt_of_eq (by omega : (i 0).val / 1000 < 50) N_1.symm⟩
    intro a
    match a with
    | ⟨0, _⟩ => show win1_9.index _ (0 : Fin 2) * 1000 ≤ (i 0).val ∧ (i 0).val < win1_9.index _ (0 : Fin 2) * 1000 + 1000; rw [e9a]; show (i 0).val / 1000 * 1000 ≤ _ ∧ _ < (i 0).val / 1000 * 1000 + 1000; omega
    | ⟨1, _⟩ => show win1_9.index _ (1 : Fin 2) * 128 ≤ (i 1).val ∧ (i 1).val < win1_9.index _ (1 : Fin 2) * 128 + 128; rw [e9b]; omega

end Cert.KernelIdeal.HandValue

end
-- ==== Proof.IdealFinal2.lean ====
/-
  Launch 2 (layer 2) read as a function of whole arrays, on the extended reals.  The launch's grid walks the 50000 rows in
  50 blocks of 1000; point `t` reads rows 1000·t … 1000·t+999 of the neighbour means and of the features, the whole of the two
  weight matrices and of the five per-feature rows, and writes back rows 1000·t … of the output.  Entry (p, q) of the block
  the body stores depends on row p of the two row blocks only, so what point `t` writes back IS block `t` of the layer's
  function of the whole arrays; the 50 blocks tile the output, so the output array ends holding that function.
-/
import proofs.«160495_j17575006175717_1_alg».proof.Proof.IdealRegion2
import proofs.«160495_j17575006175717_1_alg».proof.Proof.PayLayer
import proofs.«160495_j17575006175717_1_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl

/-- The layer's function of the arrays the launch's windows read, as the region finds them. -/
abbrev G2 (c : Dev nD) : S50000x128.Idx → EReal := Cert.Spec.layerBlk (V c main_v90 : S50000x128.Idx → EReal) (V c main_v77 : S50000x128.Idx → EReal) (V c main_v92 : S128x128.Idx → EReal) (V c main_v105 : S1x128.Idx → EReal) (V c main_v96 : S128x128.Idx → EReal) (V c main_v106 : S1x128.Idx → EReal) (V c main_v107 : S1x128.Idx → EReal) (V c main_v108 : S1x128.Idx → EReal) (V c main_v109 : S1x128.Idx → EReal)

/-- The printed index maps over the grid: the row windows and the output move with the point, one block of rows per point;
    the other windows stay at block 0. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_9.index t (0 : Fin 2) = t.val
    ∧ win2_9.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0 :=
  (by decide +kernel : ∀ t : Fin grid2.N, _)

set_option maxHeartbeats 2000000 in
/-- WHAT POINT `t` WRITES BACK is block `t` of the layer's function of the whole arrays. -/
theorem flushed2_eq (c : Dev nD) (t : Fin cfg2.N) :
    (dat2 V c).flushed 9 t = ((cfg2.win 9).blk t).view.read (Elt Ideal) (G2 V c) := by
  show (cfg2.win 9).cut (grid2.coords t) ((dat2 V c).after 9 t) = _
  rw [after2_9]
  unfold out2_9
  rw [View.canon_unit_zero hz2]
  simp only [View.ld_unit_zero (S := S1000x128) hz2, View.ld_unit_zero (S := S128x128) hz2, View.ld_unit_zero (S := S1x128) hz2]
  obtain ⟨e0a, e0b, e1a, e1b, e9a, e9b, e2a, e2b, e3a, e3b, e4a, e4b, e5a, e5b, e6a, e6b, e7a, e7b, e8a, e8b⟩ := idx2 t
  funext y
  obtain ⟨p, q, rfl⟩ : ∃ (p : Fin 1000) (q : Fin 128), y = ix2 p q := ⟨y 0, y 1, eq_ix2 y⟩
  have ht : t.val < 50 := Nat.lt_of_lt_of_eq t.isLt N_2
  have hp : p.val < 1000 := p.isLt
  have hq : q.val < 128 := q.isLt
  refine (Cert.KernelIdeal.Pay.pay2_apply (iblk2 V c 0 t) (iblk2 V c 1 t) (iblk2 V c 2 t) (iblk2 V c 4 t) (iblk2 V c 3 t) (iblk2 V c 5 t) (iblk2 V c 6 t) (iblk2 V c 7 t) (iblk2 V c 8 t) p q).trans ?_
  show _ = Cert.Spec.layerBlk _ _ _ _ _ _ _ _ _ (((cfg2.win 9).blk t).view.emb (ix2 p q))
  unfold Cert.Spec.layerBlk
  have r9 : ((((cfg2.win 9).blk t).view.emb (ix2 p q)) 0).val = t.val * 1000 + p.val := by
    show win2_9.index t (0 : Fin 2) * 1000 + 1 * p.val = _; omega
  have c9 : ((((cfg2.win 9).blk t).view.emb (ix2 p q)) 1).val = q.val := by
    show win2_9.index t (1 : Fin 2) * 128 + 1 * q.val = _; omega
  have h0 : ∀ k : Fin 128, iblk2 V c 0 t (ix2 p k) = V c main_v90 (ix2 ((((cfg2.win 9).blk t).view.emb (ix2 p q)) 0) k) := fun k => by
    show V c main_v90 (((cfg2.win 0).blk t).view.emb (ix2 p k)) = V c main_v90 (ix2 ((((cfg2.win 9).blk t).view.emb (ix2 p q)) 0) k)
    refine congrArg _ (funext fun a => Fin.ext ?_)
    match a with
    | ⟨0, _⟩ => show win2_0.index t (0 : Fin 2) * 1000 + 1 * p.val = _; rw [r9]; omega
    | ⟨1, _⟩ => show win2_0.index t (1 : Fin 2) * 128 + 1 * k.val = k.val; omega
  have h1 : ∀ k : Fin 128, iblk2 V c 1 t (ix2 p k) = V c main_v77 (ix2 ((((cfg2.win 9).blk t).view.emb (ix2 p q)) 0) k) := fun k => by
    show V c main_v77 (((cfg2.win 1).blk t).view.emb (ix2 p k)) = V c main_v77 (ix2 ((((cfg2.win 9).blk t).view.emb (ix2 p q)) 0) k)
    refine congrArg _ (funext fun a => Fin.ext ?_)
    match a with
    | ⟨0, _⟩ => show win2_1.index t (0 : Fin 2) * 1000 + 1 * p.val = _; rw [r9]; omega
    | ⟨1, _⟩ => show win2_1.index t (1 : Fin 2) * 128 + 1 * k.val = k.val; omega
  have h2 : ∀ k : Fin 128, iblk2 V c 2 t (ix2 k q) = V c main_v92 (ix2 k ((((cfg2.win 9).blk t).view.emb (ix2 p q)) 1)) := fun k => by
    show V c main_v92 (((cfg2.win 2).blk t).view.emb (ix2 k q)) = V c main_v92 (ix2 k ((((cfg2.win 9).blk t).view.emb (ix2 p q)) 1))
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = _; rw [c9]; omega
  have h4 : ∀ k : Fin 128, iblk2 V c 4 t (ix2 k q) = V c main_v96 (ix2 k ((((cfg2.win 9).blk t).view.emb (ix2 p q)) 1)) := fun k => by
    show V c main_v96 (((cfg2.win 4).blk t).view.emb (ix2 k q)) = V c main_v96 (ix2 k ((((cfg2.win 9).blk t).view.emb (ix2 p q)) 1))
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = _; rw [c9]; omega
  have h3 : iblk2 V c 3 t (ix2 0 q) = V c main_v105 (ix2 0 ((((cfg2.win 9).blk t).view.emb (ix2 p q)) 1)) := by
    show V c main_v105 (((cfg2.win 3).blk t).view.emb (ix2 0 q)) = V c main_v105 (ix2 0 ((((cfg2.win 9).blk t).view.emb (ix2 p q)) 1))
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = _; rw [c9]; omega
  have h5 : iblk2 V c 5 t (ix2 0 q) = V c main_v106 (ix2 0 ((((cfg2.win 9).blk t).view.emb (ix2 p q)) 1)) := by
    show V c main_v106 (((cfg2.win 5).blk t).view.emb (ix2 0 q)) = V c main_v106 (ix2 0 ((((cfg2.win 9).blk t).view.emb (ix2 p q)) 1))
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * q.val = _; rw [c9]; omega
  have h6 : iblk2 V c 6 t (ix2 0 q) = V c main_v107 (ix2 0 ((((cfg2.win 9).blk t).view.emb (ix2 p q)) 1)) := by
    show V c main_v107 (((cfg2.win 6).blk t).view.emb (ix2 0 q)) = V c main_v107 (ix2 0 ((((cfg2.win 9).blk t).view.emb (ix2 p q)) 1))
    refine congrArg _ (funext fun a => Fin.ext ?_)
    match a with
    | ⟨0, _⟩ => show win2_6.index t (0 : Fin 2) * 1 + 1 * 0 = 0; omega
    | ⟨1, _⟩ => show win2_6.index t (1 : Fin 2) * 128 + 1 * q.val = _; rw [c9]; omega
  have h7 : iblk2 V c 7 t (ix2 0 q) = V c main_v108 (ix2 0 ((((cfg2.win 9).blk t).view.emb (ix2 p q)) 1)) := by
    show V c main_v108 (((cfg2.win 7).blk t).view.emb (ix2 0 q)) = V c main_v108 (ix2 0 ((((cfg2.win 9).blk t).view.emb (ix2 p q)) 1))
    refine congrArg _ (funext fun a => Fin.ext ?_)
    match a with
    | ⟨0, _⟩ => show win2_7.index t (0 : Fin 2) * 1 + 1 * 0 = 0; omega
    | ⟨1, _⟩ => show win2_7.index t (1 : Fin 2) * 128 + 1 * q.val = _; rw [c9]; omega
  have h8 : iblk2 V c 8 t (ix2 0 q) = V c main_v109 (ix2 0 ((((cfg2.win 9).blk t).view.emb (ix2 p q)) 1)) := by
    show V c main_v109 (((cfg2.win 8).blk t).view.emb (ix2 0 q)) = V c main_v109 (ix2 0 ((((cfg2.win 9).blk t).view.emb (ix2 p q)) 1))
    refine congrArg _ (funext fun a => Fin.ext ?_)
    match a with
    | ⟨0, _⟩ => show win2_8.index t (0 : Fin 2) * 1 + 1 * 0 = 0; omega
    | ⟨1, _⟩ => show win2_8.index t (1 : Fin 2) * 128 + 1 * q.val = _; rw [c9]; omega
  simp only [h0, h1, h2, h4, h3, h5, h6, h7, h8]

/-- An index of the output array is in point `t`'s block iff each coordinate is in the block's range on its axis. -/
theorem mem_blk2 (t : Fin cfg2.N) (i : S50000x128.Idx) :
    i ∈ ((cfg2.win 9).blk t).view.set ↔ ∀ a : Fin 2, win2_9.index t a * S1000x128.size a ≤ (i a).val ∧ (i a).val < win2_9.index t a * S1000x128.size a + S1000x128.size a := by
  show i ∈ ((View.whole main_v110).slice (win2_9.rect t)).set ↔ _
  rw [View.set_slice_whole, Rect.mem_set_unit]
  exact Iff.rfl

/-- THE ARRAY after the launch: the layer's function of the arrays its windows read. Row r lies in the block of point r / 1000. -/
theorem final2 (c : Dev nD) : (dat2 V c).arrAt 9 cfg2.N = G2 V c :=
  (dat2 V c).arrAt_eq_of_cover 9 (G2 V c) (fun t _ => flushed2_eq V c t) fun i => by
    have hi0 : (i 0).val < 50000 := (i 0).isLt
    have hi1 : (i 1).val < 128 := (i 1).isLt
    refine ⟨⟨(i 0).val / 1000, Nat.lt_of_lt_of_eq (by omega : (i 0).val / 1000 < 50) N_2.symm⟩, flush2_9 _, ?_⟩
    rw [mem_blk2]
    obtain ⟨e0a, e0b, e1a, e1b, e9a, e9b, e2a, e2b, e3a, e3b, e4a, e4b, e5a, e5b, e6a, e6b, e7a, e7b, e8a, e8b⟩ := idx2 ⟨(i 0).val / 1000, Nat.lt_of_lt_of_eq (by omega : (i 0).val / 1000 < 50) N_2.symm⟩
    intro a
    match a with
    | ⟨0, _⟩ => show win2_9.index _ (0 : Fin 2) * 1000 ≤ (i 0).val ∧ (i 0).val < win2_9.index _ (0 : Fin 2) * 1000 + 1000; rw [e9a]; show (i 0).val / 1000 * 1000 ≤ _ ∧ _ < (i 0).val / 1000 * 1000 + 1000; omega
    | ⟨1, _⟩ => show win2_9.index _ (1 : Fin 2) * 128 ≤ (i 1).val ∧ (i 1).val < win2_9.index _ (1 : Fin 2) * 128 + 128; rw [e9b]; omega

end Cert.KernelIdeal.HandValue

end
-- ==== Proof.PayClf.lean ====
import proofs.«160495_j17575006175717_1_alg».proof.Proof.Gen.KernelIdeal.Skeleton
import proofs.«160495_j17575006175717_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Idealize.SL.Sem
open scoped BigOperators

/-!
  The classifier kernel at an index.  At row p and class q of its block it stores

      Σⱼ max(Σₖ x[p,k]·W₁[k,j] + b₁[j], 0) · W₂[j,q] + b₂[q]

  where x is the block of joined rows.  On the extended reals narrowing to half precision is the identity and a
  product into the zero accumulator is the plain sum over the shared axis.
-/

theorem matmul384_lhs0 (i : S1000x64.Idx) (c : dot_S1000x384_S384x64_S1000x64_1_0_0_1_n_n.contr.Idx) : (dot_S1000x384_S384x64_S1000x64_1_0_0_1_n_n.lhsIdx i c 0).val = (i 0).val := by
  unfold DotDims.lhsIdx
  rw [dif_neg (show ¬(0 : Fin S1000x384.rank) ∈ dot_S1000x384_S384x64_S1000x64_1_0_0_1_n_n.lhsBatch by decide), dif_pos (show (0 : Fin S1000x384.rank) ∈ dot_S1000x384_S384x64_S1000x64_1_0_0_1_n_n.lhsNonContracting by decide)]
  rfl
theorem matmul384_lhs1 (i : S1000x64.Idx) (c : dot_S1000x384_S384x64_S1000x64_1_0_0_1_n_n.contr.Idx) : (dot_S1000x384_S384x64_S1000x64_1_0_0_1_n_n.lhsIdx i c 1).val = (c ⟨0, by decide⟩).val :=
  dot_S1000x384_S384x64_S1000x64_1_0_0_1_n_n.lhsIdx_val_of_single rfl i c
theorem matmul384_rhs0 (i : S1000x64.Idx) (c : dot_S1000x384_S384x64_S1000x64_1_0_0_1_n_n.contr.Idx) : (dot_S1000x384_S384x64_S1000x64_1_0_0_1_n_n.rhsIdx i c 0).val = (c ⟨0, by decide⟩).val :=
  dot_S1000x384_S384x64_S1000x64_1_0_0_1_n_n.rhsIdx_val_of_single rfl i c
theorem matmul384_rhs1 (i : S1000x64.Idx) (c : dot_S1000x384_S384x64_S1000x64_1_0_0_1_n_n.contr.Idx) : (dot_S1000x384_S384x64_S1000x64_1_0_0_1_n_n.rhsIdx i c 1).val = (i 1).val := by
  unfold DotDims.rhsIdx
  rw [dif_neg (show ¬(1 : Fin S384x64.rank) ∈ dot_S1000x384_S384x64_S1000x64_1_0_0_1_n_n.rhsBatch by decide), dif_pos (show (1 : Fin S384x64.rank) ∈ dot_S1000x384_S384x64_S1000x64_1_0_0_1_n_n.rhsNonContracting by decide)]
  rfl

/-- The product of a [1000,384] block and a [384,64] block into the zero accumulator, read at (p, q):
    the sum over the shared axis of row p of the left factor against column q of the right. -/
theorem matmul384_apply (l : FVec Ideal S1000x384 .bf16) (r : FVec Ideal S384x64 .bf16) (p : Fin 1000) (q : Fin 64) :
    matmul dot_S1000x384_S384x64_S1000x64_1_0_0_1_n_n none l r (constant (F := Ideal) S1000x64 .f32 0x00000000#32) (ix2 p q)
      = ∑ k : Fin 384, l (ix2 p k) * r (ix2 k q) := by
  show FloatOps.matmul dot_S1000x384_S384x64_S1000x64_1_0_0_1_n_n none l r (constant (F := Ideal) S1000x64 .f32 0x00000000#32) (ix2 p q) = _
  rw [Ideal.matmul_constant_zero_apply, ← Equiv.sum_comp (contrEquiv1 dot_S1000x384_S384x64_S1000x64_1_0_0_1_n_n 384 rfl rfl).symm]
  refine Finset.sum_congr rfl fun k _ => ?_
  have hk := contrEquiv1_symm_val dot_S1000x384_S384x64_S1000x64_1_0_0_1_n_n 384 rfl rfl k
  have el : dot_S1000x384_S384x64_S1000x64_1_0_0_1_n_n.lhsIdx (ix2 p q) ((contrEquiv1 dot_S1000x384_S384x64_S1000x64_1_0_0_1_n_n 384 rfl rfl).symm k) = ix2 p k := funext fun a => Fin.ext (by
    match a with
    | ⟨0, _⟩ => exact matmul384_lhs0 _ _
    | ⟨1, _⟩ => exact (matmul384_lhs1 _ _).trans hk)
  have er : dot_S1000x384_S384x64_S1000x64_1_0_0_1_n_n.rhsIdx (ix2 p q) ((contrEquiv1 dot_S1000x384_S384x64_S1000x64_1_0_0_1_n_n 384 rfl rfl).symm k) = ix2 k q := funext fun a => Fin.ext (by
    match a with
    | ⟨0, _⟩ => exact (matmul384_rhs0 _ _).trans hk
    | ⟨1, _⟩ => exact matmul384_rhs1 _ _)
  rw [el, er]

theorem matmul64_lhs0 (i : S1000x2.Idx) (c : dot_S1000x64_S64x2_S1000x2_1_0_0_1_n_n.contr.Idx) : (dot_S1000x64_S64x2_S1000x2_1_0_0_1_n_n.lhsIdx i c 0).val = (i 0).val := by
  unfold DotDims.lhsIdx
  rw [dif_neg (show ¬(0 : Fin S1000x64.rank) ∈ dot_S1000x64_S64x2_S1000x2_1_0_0_1_n_n.lhsBatch by decide), dif_pos (show (0 : Fin S1000x64.rank) ∈ dot_S1000x64_S64x2_S1000x2_1_0_0_1_n_n.lhsNonContracting by decide)]
  rfl
theorem matmul64_lhs1 (i : S1000x2.Idx) (c : dot_S1000x64_S64x2_S1000x2_1_0_0_1_n_n.contr.Idx) : (dot_S1000x64_S64x2_S1000x2_1_0_0_1_n_n.lhsIdx i c 1).val = (c ⟨0, by decide⟩).val :=
  dot_S1000x64_S64x2_S1000x2_1_0_0_1_n_n.lhsIdx_val_of_single rfl i c
theorem matmul64_rhs0 (i : S1000x2.Idx) (c : dot_S1000x64_S64x2_S1000x2_1_0_0_1_n_n.contr.Idx) : (dot_S1000x64_S64x2_S1000x2_1_0_0_1_n_n.rhsIdx i c 0).val = (c ⟨0, by decide⟩).val :=
  dot_S1000x64_S64x2_S1000x2_1_0_0_1_n_n.rhsIdx_val_of_single rfl i c
theorem matmul64_rhs1 (i : S1000x2.Idx) (c : dot_S1000x64_S64x2_S1000x2_1_0_0_1_n_n.contr.Idx) : (dot_S1000x64_S64x2_S1000x2_1_0_0_1_n_n.rhsIdx i c 1).val = (i 1).val := by
  unfold DotDims.rhsIdx
  rw [dif_neg (show ¬(1 : Fin S64x2.rank) ∈ dot_S1000x64_S64x2_S1000x2_1_0_0_1_n_n.rhsBatch by decide), dif_pos (show (1 : Fin S64x2.rank) ∈ dot_S1000x64_S64x2_S1000x2_1_0_0_1_n_n.rhsNonContracting by decide)]
  rfl

/-- The product of a [1000,64] block and a [64,2] block into the zero accumulator, read at (p, q):
    the sum over the shared axis of row p of the left factor against column q of the right. -/
theorem matmul64_apply (l : FVec Ideal S1000x64 .bf16) (r : FVec Ideal S64x2 .bf16) (p : Fin 1000) (q : Fin 2) :
    matmul dot_S1000x64_S64x2_S1000x2_1_0_0_1_n_n none l r (constant (F := Ideal) S1000x2 .f32 0x00000000#32) (ix2 p q)
      = ∑ k : Fin 64, l (ix2 p k) * r (ix2 k q) := by
  show FloatOps.matmul dot_S1000x64_S64x2_S1000x2_1_0_0_1_n_n none l r (constant (F := Ideal) S1000x2 .f32 0x00000000#32) (ix2 p q) = _
  rw [Ideal.matmul_constant_zero_apply, ← Equiv.sum_comp (contrEquiv1 dot_S1000x64_S64x2_S1000x2_1_0_0_1_n_n 64 rfl rfl).symm]
  refine Finset.sum_congr rfl fun k _ => ?_
  have hk := contrEquiv1_symm_val dot_S1000x64_S64x2_S1000x2_1_0_0_1_n_n 64 rfl rfl k
  have el : dot_S1000x64_S64x2_S1000x2_1_0_0_1_n_n.lhsIdx (ix2 p q) ((contrEquiv1 dot_S1000x64_S64x2_S1000x2_1_0_0_1_n_n 64 rfl rfl).symm k) = ix2 p k := funext fun a => Fin.ext (by
    match a with
    | ⟨0, _⟩ => exact matmul64_lhs0 _ _
    | ⟨1, _⟩ => exact (matmul64_lhs1 _ _).trans hk)
  have er : dot_S1000x64_S64x2_S1000x2_1_0_0_1_n_n.rhsIdx (ix2 p q) ((contrEquiv1 dot_S1000x64_S64x2_S1000x2_1_0_0_1_n_n 64 rfl rfl).symm k) = ix2 k q := funext fun a => Fin.ext (by
    match a with
    | ⟨0, _⟩ => exact (matmul64_rhs0 _ _).trans hk
    | ⟨1, _⟩ => exact matmul64_rhs1 _ _)
  rw [el, er]

/-- The classifier kernel at an index: a product, a bias, the clamp at zero, a second product, a second bias. -/
theorem pay3_apply (x0 : Vec Ideal S1000x384 .f32) (x1 : Vec Ideal S384x64 .f32) (x2 : Vec Ideal S1x64 .f32)
    (x3 : Vec Ideal S64x2 .f32) (x4 : Vec Ideal S1x2 .f32) (p : Fin 1000) (q : Fin 2) :
    Gen.k3_pay1 (F := Ideal) x0 x1 x2 x3 x4 (ix2 p q)
      = Cert.Spec.clfAt (fun k => x0 (ix2 p k)) (fun k j => x1 (ix2 k j)) (fun j => x2 (ix2 0 j)) (fun j => x3 (ix2 j q)) (x4 (ix2 0 q)) := by
  unfold Gen.k3_pay1 Cert.Spec.clfAt Cert.Spec.zero
  simp only [shapeCast_self, maximumf_apply, addf_apply, broadcast_apply, matmul384_apply, matmul64_apply, truncf_apply,
    broadcastTo_1b_ab_apply]
  rfl

end Cert.KernelIdeal.Pay

end
-- ==== Proof.IdealFinal3.lean ====
/-
  Launch 3 (the classifier) read as a function of whole arrays, on the extended reals.  The grid walks the 50000 joined rows in
  50 blocks of 1000; point `t` reads rows 1000·t … of the joined features, the whole of the two matrices and the two bias
  rows, and writes back rows 1000·t … of the two-column output.  Entry (p, q) of the stored block depends on row p of the
  joined block only, so what point `t` writes back is block `t` of the classifier's function of the whole arrays, and the 50
  blocks tile the output.
-/
import proofs.«160495_j17575006175717_1_alg».proof.Proof.IdealRegion3
import proofs.«160495_j17575006175717_1_alg».proof.Proof.PayClf
import proofs.«160495_j17575006175717_1_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Hand

variable (V : (c : Dev nD) → (b : Ref sig .tc) → Buf (Elt Ideal) ((c : Thread nD τ).loc b))

theorem hz3 : (![0, 0] : Fin 2 → Nat) = fun _ => 0 := funext fun a => by fin_cases a <;> rfl

/-- The classifier's function of the arrays the launch's windows read, as the region finds them. -/
abbrev G3 (c : Dev nD) : S50000x2.Idx → EReal := Cert.Spec.clfBlk (V c main_v111 : S50000x384.Idx → EReal) (V c main_arg9 : S384x64.Idx → EReal) (V c main_v112 : S1x64.Idx → EReal) (V c main_arg11 : S64x2.Idx → EReal) (V c main_v113 : S1x2.Idx → EReal)

/-- The printed index maps over the grid: the joined rows and the output move with the point; the rest stays at block 0. -/
theorem idx3 : ∀ t : Fin cfg3.N, win3_0.index t (0 : Fin 2) = t.val
    ∧ win3_0.index t (1 : Fin 2) = 0
    ∧ win3_5.index t (0 : Fin 2) = t.val
    ∧ win3_5.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0 :=
  (by decide +kernel : ∀ t : Fin grid3.N, _)

set_option maxHeartbeats 2000000 in
/-- WHAT POINT `t` WRITES BACK is block `t` of the classifier's function of the whole arrays. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S1000x384) hz3, View.ld_unit_zero (S := S384x64) hz3, View.ld_unit_zero (S := S1x64) hz3, View.ld_unit_zero (S := S64x2) hz3, View.ld_unit_zero (S := S1x2) hz3]
  obtain ⟨e0a, e0b, e5a, e5b, e1a, e1b, e2a, e2b, e3a, e3b, e4a, e4b⟩ := idx3 t
  funext y
  obtain ⟨p, q, rfl⟩ : ∃ (p : Fin 1000) (q : Fin 2), y = ix2 p q := ⟨y 0, y 1, eq_ix2 y⟩
  have ht : t.val < 50 := Nat.lt_of_lt_of_eq t.isLt N_3
  have hp : p.val < 1000 := p.isLt
  have hq : q.val < 2 := q.isLt
  refine (Cert.KernelIdeal.Pay.pay3_apply (iblk3 V c 0 t) (iblk3 V c 1 t) (iblk3 V c 2 t) (iblk3 V c 3 t) (iblk3 V c 4 t) p q).trans ?_
  show _ = Cert.Spec.clfBlk _ _ _ _ _ (((cfg3.win 5).blk t).view.emb (ix2 p q))
  unfold Cert.Spec.clfBlk
  have r5 : ((((cfg3.win 5).blk t).view.emb (ix2 p q)) 0).val = t.val * 1000 + p.val := by
    show win3_5.index t (0 : Fin 2) * 1000 + 1 * p.val = _; omega
  have c5 : ((((cfg3.win 5).blk t).view.emb (ix2 p q)) 1).val = q.val := by
    show win3_5.index t (1 : Fin 2) * 2 + 1 * q.val = _; omega
  have h0 : ∀ k : Fin 384, iblk3 V c 0 t (ix2 p k) = V c main_v111 (ix2 ((((cfg3.win 5).blk t).view.emb (ix2 p q)) 0) k) := fun k => by
    show V c main_v111 (((cfg3.win 0).blk t).view.emb (ix2 p k)) = V c main_v111 (ix2 ((((cfg3.win 5).blk t).view.emb (ix2 p q)) 0) k)
    refine congrArg _ (funext fun a => Fin.ext ?_)
    match a with
    | ⟨0, _⟩ => show win3_0.index t (0 : Fin 2) * 1000 + 1 * p.val = _; rw [r5]; omega
    | ⟨1, _⟩ => show win3_0.index t (1 : Fin 2) * 384 + 1 * k.val = k.val; omega
  have h1 : ∀ (k : Fin 384) (j : Fin 64), iblk3 V c 1 t (ix2 k j) = V c main_arg9 (ix2 k j) := fun k j => by
    show V c main_arg9 (((cfg3.win 1).blk t).view.emb (ix2 k j)) = V c main_arg9 (ix2 k j)
    refine congrArg _ (funext fun a => Fin.ext ?_)
    match a with
    | ⟨0, _⟩ => show win3_1.index t (0 : Fin 2) * 384 + 1 * k.val = k.val; omega
    | ⟨1, _⟩ => show win3_1.index t (1 : Fin 2) * 64 + 1 * j.val = j.val; omega
  have h2 : ∀ j : Fin 64, iblk3 V c 2 t (ix2 0 j) = V c main_v112 (ix2 0 j) := fun j => by
    show V c main_v112 (((cfg3.win 2).blk t).view.emb (ix2 0 j)) = V c main_v112 (ix2 0 j)
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * j.val = j.val; omega
  have h3 : ∀ j : Fin 64, iblk3 V c 3 t (ix2 j q) = V c main_arg11 (ix2 j ((((cfg3.win 5).blk t).view.emb (ix2 p q)) 1)) := fun j => by
    show V c main_arg11 (((cfg3.win 3).blk t).view.emb (ix2 j q)) = V c main_arg11 (ix2 j ((((cfg3.win 5).blk t).view.emb (ix2 p q)) 1))
    refine congrArg _ (funext fun a => Fin.ext ?_)
    match a with
    | ⟨0, _⟩ => show win3_3.index t (0 : Fin 2) * 64 + 1 * j.val = j.val; omega
    | ⟨1, _⟩ => show win3_3.index t (1 : Fin 2) * 2 + 1 * q.val = _; rw [c5]; omega
  have h4 : iblk3 V c 4 t (ix2 0 q) = V c main_v113 (ix2 0 ((((cfg3.win 5).blk t).view.emb (ix2 p q)) 1)) := by
    show V c main_v113 (((cfg3.win 4).blk t).view.emb (ix2 0 q)) = V c main_v113 (ix2 0 ((((cfg3.win 5).blk t).view.emb (ix2 p q)) 1))
    refine congrArg _ (funext fun a => Fin.ext ?_)
    match a with
    | ⟨0, _⟩ => show win3_4.index t (0 : Fin 2) * 1 + 1 * 0 = 0; omega
    | ⟨1, _⟩ => show win3_4.index t (1 : Fin 2) * 2 + 1 * q.val = _; rw [c5]; omega
  simp only [h0, h1, h2, h3, h4]

/-- An index of the output array is in point `t`'s block iff each coordinate is in the block's range on its axis. -/
theorem mem_blk3 (t : Fin cfg3.N) (i : S50000x2.Idx) :
    i ∈ ((cfg3.win 5).blk t).view.set ↔ ∀ a : Fin 2, win3_5.index t a * S1000x2.size a ≤ (i a).val ∧ (i a).val < win3_5.index t a * S1000x2.size a + S1000x2.size a := by
  show i ∈ ((View.whole main_v114).slice (win3_5.rect t)).set ↔ _
  rw [View.set_slice_whole, Rect.mem_set_unit]
  exact Iff.rfl

/-- THE ARRAY after the launch: the classifier's function of the arrays its windows read. Row r lies in the block of point r / 1000. -/
theorem final3 (c : Dev nD) : (dat3 V c).arrAt 5 cfg3.N = G3 V c :=
  (dat3 V c).arrAt_eq_of_cover 5 (G3 V c) (fun t _ => flushed3_eq V c t) fun i => by
    have hi0 : (i 0).val < 50000 := (i 0).isLt
    have hi1 : (i 1).val < 2 := (i 1).isLt
    refine ⟨⟨(i 0).val / 1000, Nat.lt_of_lt_of_eq (by omega : (i 0).val / 1000 < 50) N_3.symm⟩, flush3_5 _, ?_⟩
    rw [mem_blk3]
    obtain ⟨e0a, e0b, e5a, e5b, e1a, e1b, e2a, e2b, e3a, e3b, e4a, e4b⟩ := idx3 ⟨(i 0).val / 1000, Nat.lt_of_lt_of_eq (by omega : (i 0).val / 1000 < 50) N_3.symm⟩
    intro a
    match a with
    | ⟨0, _⟩ => show win3_5.index _ (0 : Fin 2) * 1000 ≤ (i 0).val ∧ (i 0).val < win3_5.index _ (0 : Fin 2) * 1000 + 1000; rw [e5a]; show (i 0).val / 1000 * 1000 ≤ _ ∧ _ < (i 0).val / 1000 * 1000 + 1000; omega
    | ⟨1, _⟩ => show win3_5.index _ (1 : Fin 2) * 2 ≤ (i 1).val ∧ (i 1).val < win3_5.index _ (1 : Fin 2) * 2 + 2; rw [e5b]; omega

end Cert.KernelIdeal.HandValue

end
-- ==== Proof.HostReads.lean ====
import proofs.«160495_j17575006175717_1_alg».proof.KernelIdeal
import proofs.«160495_j17575006175717_1_alg».proof.Proof.Spec
import Idealize.ShloMosaic.Lib.Pipeline.Value
import Idealize.ShloMosaic.Lib.ValueIdx
import Idealize.ShloMosaic.Lib.ValueLayout

noncomputable section

namespace Cert.KernelIdeal.Pay

open Cert.KernelIdeal Idealize.ShloMosaic Idealize.ShloMosaic.ValueIdx Idealize.SL.Sem

variable [Facts₀]
open Facts₀

/-!
  The layout operations the host runs before each launch, read at an index.  Layer l's weight slab is slab l of the
  stacked weights with its unit axis dropped; a per-feature row reaches a kernel as row l of the stacked vector, flattened
  and given a unit axis back; the classifier's biases get a leading unit axis; the joined rows place the three layers'
  rows side by side, 128 features each.
-/

variable {α : Type}

/-- Slab 0 of a [3,128,128] stack, its unit axis dropped, at (k, q): the stack at (0, k, q). -/
theorem slab0_apply (x : S3x128x128.Idx → α) (k q : Fin 128) :
    shapeCast S128x128 (extractStridedSlice S1x128x128 ![0, 0, 0] x slices_S3x128x128_S1x128x128_0_0_0) shapeCasts_S1x128x128_S128x128 (ix2 k q)
      = x (ix3 (0 : Fin 3) k q) := by
  rw [shapeCast_1ab_ab_apply]
  exact extractStridedSlice_apply _ x _ _ _ (fun a => by
    match a with
    | ⟨0, _⟩ => rfl
    | ⟨1, _⟩ => exact (Nat.zero_add _).symm
    | ⟨2, _⟩ => exact (Nat.zero_add _).symm)

/-- Slab 1 of a [3,128,128] stack, its unit axis dropped, at (k, q): the stack at (1, k, q). -/
theorem slab1_apply (x : S3x128x128.Idx → α) (k q : Fin 128) :
    shapeCast S128x128 (extractStridedSlice S1x128x128 ![1, 0, 0] x slices_S3x128x128_S1x128x128_1_0_0) shapeCasts_S1x128x128_S128x128 (ix2 k q)
      = x (ix3 (1 : Fin 3) k q) := by
  rw [shapeCast_1ab_ab_apply]
  exact extractStridedSlice_apply _ x _ _ _ (fun a => by
    match a with
    | ⟨0, _⟩ => rfl
    | ⟨1, _⟩ => exact (Nat.zero_add _).symm
    | ⟨2, _⟩ => exact (Nat.zero_add _).symm)

/-- Slab 2 of a [3,128,128] stack, its unit axis dropped, at (k, q): the stack at (2, k, q). -/
theorem slab2_apply (x : S3x128x128.Idx → α) (k q : Fin 128) :
    shapeCast S128x128 (extractStridedSlice S1x128x128 ![2, 0, 0] x slices_S3x128x128_S1x128x128_2_0_0) shapeCasts_S1x128x128_S128x128 (ix2 k q)
      = x (ix3 (2 : Fin 3) k q) := by
  rw [shapeCast_1ab_ab_apply]
  exact extractStridedSlice_apply _ x _ _ _ (fun a => by
    match a with
    | ⟨0, _⟩ => rfl
    | ⟨1, _⟩ => exact (Nat.zero_add _).symm
    | ⟨2, _⟩ => exact (Nat.zero_add _).symm)

/-- Row 0 of a [3,128] stack, flattened to [128] and given a leading unit axis, at (0, q): the stack at (0, q). -/
theorem row0_apply (x : S3x128.Idx → α) (q : Fin 128) :
    shapeCast S1x128 (shapeCast S128 (extractStridedSlice S1x128 ![0, 0] x slices_S3x128_S1x128_0_0) shapeCasts_S1x128_S128) shapeCasts_S128_S1x128 (ix2 (0 : Fin 1) q)
      = x (ix2 (0 : Fin 3) q) := by
  rw [shapeCast_a_1a_apply, shapeCast_1a_a_apply]
  exact extractStridedSlice_apply _ x _ _ _ (fun a => by
    match a with
    | ⟨0, _⟩ => rfl
    | ⟨1, _⟩ => exact (Nat.zero_add _).symm)

/-- Row 1 of a [3,128] stack, flattened to [128] and given a leading unit axis, at (0, q): the stack at (1, q). -/
theorem row1_apply (x : S3x128.Idx → α) (q : Fin 128) :
    shapeCast S1x128 (shapeCast S128 (extractStridedSlice S1x128 ![1, 0] x slices_S3x128_S1x128_1_0) shapeCasts_S1x128_S128) shapeCasts_S128_S1x128 (ix2 (0 : Fin 1) q)
      = x (ix2 (1 : Fin 3) q) := by
  rw [shapeCast_a_1a_apply, shapeCast_1a_a_apply]
  exact extractStridedSlice_apply _ x _ _ _ (fun a => by
    match a with
    | ⟨0, _⟩ => rfl
    | ⟨1, _⟩ => exact (Nat.zero_add _).symm)

/-- Row 2 of a [3,128] stack, flattened to [128] and given a leading unit axis, at (0, q): the stack at (2, q). -/
theorem row2_apply (x : S3x128.Idx → α) (q : Fin 128) :
    shapeCast S1x128 (shapeCast S128 (extractStridedSlice S1x128 ![2, 0] x slices_S3x128_S1x128_2_0) shapeCasts_S1x128_S128) shapeCasts_S128_S1x128 (ix2 (0 : Fin 1) q)
      = x (ix2 (2 : Fin 3) q) := by
  rw [shapeCast_a_1a_apply, shapeCast_1a_a_apply]
  exact extractStridedSlice_apply _ x _ _ _ (fun a => by
    match a with
    | ⟨0, _⟩ => rfl
    | ⟨1, _⟩ => exact (Nat.zero_add _).symm)

/-- A [64] vector given a leading unit axis, at (0, j): the vector at j. -/
theorem bias64_apply (x : S64.Idx → α) (j : Fin 64) :
    shapeCast S1x64 x shapeCasts_S64_S1x64 (ix2 (0 : Fin 1) j) = x (ix1 j) :=
  shapeCast_a_1a_apply x _ 0 j

/-- A [2] vector given a leading unit axis, at (0, j): the vector at j. -/
theorem bias2_apply (x : S2.Idx → α) (j : Fin 2) :
    shapeCast S1x2 x shapeCasts_S2_S1x2 (ix2 (0 : Fin 1) j) = x (ix1 j) :=
  shapeCast_a_1a_apply x _ 0 j

/-- The three layers' rows joined along the feature axis, at (r, k): feature k % 128 of layer k / 128. -/
theorem joined_apply (h1 h2 h3 : Vec Ideal S50000x128 .f32) (r : Fin 50000) (k : Fin 384) :
    concatenate S50000x384 1 [⟨S50000x128, h1⟩, ⟨S50000x128, h2⟩, ⟨S50000x128, h3⟩]
        concatenates_S50000x128_S50000x128_S50000x128_S50000x384_d1 (ix2 r k)
      = Cert.Spec.jkAt h1 h2 h3 r k := by
  unfold Cert.Spec.jkAt
  refine concatenate_ofFn_apply (t := S50000x384) (s₁ := S50000x128) 1 ![h1, h2, h3] _ rfl 128 rfl (ix2 r k)
    ⟨k.val / 128, by have := k.isLt; omega⟩ rfl (ix2 r ⟨k.val % 128, Nat.mod_lt _ (by decide)⟩) rfl (fun b hb => ?_)
  match b with
  | ⟨0, _⟩ => rfl
  | ⟨1, _⟩ => exact absurd rfl hb

end Cert.KernelIdeal.Pay

end
-- ==== Proof.IdealFold.lean ====
/-
  The fold of the core's buffers through the eight stretches of the program, on the extended reals, as closed functions of
  the thirteen argument arrays.  A host stretch writes each of its results as its operations' term of what the stretch
  found; a launch leaves its output array at its layer's function of the arrays its windows read and every other buffer as
  entered.  Carried through: after launch 0 the first layer's rows, after launch 1 the second's, after launch 2 the
  third's, and the result array ends at the classifier of the three.
-/
import proofs.«160495_j17575006175717_1_alg».proof.Proof.IdealRun
import proofs.«160495_j17575006175717_1_alg».proof.Proof.IdealFinal0
import proofs.«160495_j17575006175717_1_alg».proof.Proof.IdealFinal1
import proofs.«160495_j17575006175717_1_alg».proof.Proof.IdealFinal2
import proofs.«160495_j17575006175717_1_alg».proof.Proof.IdealFinal3
import proofs.«160495_j17575006175717_1_alg».proof.Proof.HostReads
import proofs.«160495_j17575006175717_1_alg».proof.Proof.Spec
import Idealize.ShloMosaic.Lib.StableHlo.Run

set_option maxRecDepth 16384

noncomputable section

namespace Cert.KernelIdeal.HandValue

open Idealize.ShloMosaic Idealize.ShloMosaic.TcCoe Idealize.SL.Sem Idealize.ShloMosaic.StableHlo
open Idealize.ShloMosaic.ValueIdx
open Cert.KernelIdeal Cert.KernelIdeal.Gen Cert.KernelIdeal.Hand Cert.KernelIdeal.Pay

/-! ## The neighbour mean as one function of the features and the edge list -/

/-- The edge list's first row (the sources), as a flat vector. -/
def e1 (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edge list's second row (the destinations), as a flat vector. -/
def e3 (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- One over the larger of a node's in-degree and one: ones summed into the destinations' entries, clamped below at one,
    inverted. -/
def invdeg (v3 : (⟨S800000, .i32⟩ : BufTy).Contents (Elt Ideal)) : (⟨S50000, .f32⟩ : BufTy).Contents (Elt Ideal) :=
  Host.divf (broadcastInDim S50000 ![] bcast_S_S50000 (constant (F := Ideal) S_ .f32 0x3F800000#32))
    (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 v3)
        (broadcastInDim S800000 ![] bcast_S_S800000 (constant (F := Ideal) S_ .f32 0x3F800000#32)))
      (broadcastInDim S50000 ![] bcast_S_S50000 (constant (F := Ideal) S_ .f32 0x3F800000#32)))

/-- The rows of `h` gathered by source (a negative source counted from the end), summed into their destination rows,
    each row scaled by its node's factor `v11`. -/
def aggCore (h : (⟨S50000x128, .f32⟩ : BufTy).Contents (Elt Ideal)) (v1 v3 : (⟨S800000, .i32⟩ : BufTy).Contents (Elt Ideal))
    (v11 : (⟨S50000, .f32⟩ : BufTy).Contents (Elt Ideal)) : (⟨S50000x128, .f32⟩ : BufTy).Contents (Elt Ideal) :=
  mulf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 v3)
      (Host.gather gather_S50000x128_S800000x1_S800000x128_1_0_n_n_0_1_1128 h
        (broadcastInDim S800000x1 ![0] bcast_S800000_S800000x1_0
          (select (cmpi .slt v1 (broadcastInDim S800000 ![] bcast_S_S800000 (constantI S_ 32 0#32)))
            (addi v1 (broadcastInDim S800000 ![] bcast_S_S800000 (constantI S_ 32 50000#32))) v1))))
    (broadcastInDim S50000x128 ![0, 1] bcast_S50000x1_S50000x128_0_1 (broadcastInDim S50000x1 ![0] bcast_S50000_S50000x1_0 v11))

/-- The neighbour mean of the rows `h` over the edge list `e`. -/
def agg (h : (⟨S50000x128, .f32⟩ : BufTy).Contents (Elt Ideal)) (e : (⟨S2x800000, .i32⟩ : BufTy).Contents (Elt Ideal)) :
    (⟨S50000x128, .f32⟩ : BufTy).Contents (Elt Ideal) :=
  aggCore h (e1 e) (e3 e) (invdeg (e3 e))

variable (m : (ℓ : Loc nD τ sig) → Buf (Elt Ideal) ℓ) (c : Dev nD)

/-! ## A layer's slab and rows as the host cuts them -/

section Cuts
variable {α : Type}

/-- Slab 0 of a stacked weight array, its unit axis dropped. -/
def wslab0 (x : S3x128x128.Idx → α) : S128x128.Idx → α :=
  shapeCast S128x128 (extractStridedSlice S1x128x128 ![0, 0, 0] x slices_S3x128x128_S1x128x128_0_0_0) shapeCasts_S1x128x128_S128x128
/-- Row 0 of a stacked per-feature array, as one [1,128] row. -/
def vrow0 (x : S3x128.Idx → α) : S1x128.Idx → α :=
  shapeCast S1x128 (shapeCast S128 (extractStridedSlice S1x128 ![0, 0] x slices_S3x128_S1x128_0_0) shapeCasts_S1x128_S128) shapeCasts_S128_S1x128
theorem wslab0_apply (x : S3x128x128.Idx → α) (k q : Fin 128) : wslab0 x (ix2 k q) = x (ix3 (0 : Fin 3) k q) := slab0_apply x k q
theorem vrow0_apply (x : S3x128.Idx → α) (q : Fin 128) : vrow0 x (ix2 (0 : Fin 1) q) = x (ix2 (0 : Fin 3) q) := row0_apply x q

/-- Slab 1 of a stacked weight array, its unit axis dropped. -/
def wslab1 (x : S3x128x128.Idx → α) : S128x128.Idx → α :=
  shapeCast S128x128 (extractStridedSlice S1x128x128 ![1, 0, 0] x slices_S3x128x128_S1x128x128_1_0_0) shapeCasts_S1x128x128_S128x128
/-- Row 1 of a stacked per-feature array, as one [1,128] row. -/
def vrow1 (x : S3x128.Idx → α) : S1x128.Idx → α :=
  shapeCast S1x128 (shapeCast S128 (extractStridedSlice S1x128 ![1, 0] x slices_S3x128_S1x128_1_0) shapeCasts_S1x128_S128) shapeCasts_S128_S1x128
theorem wslab1_apply (x : S3x128x128.Idx → α) (k q : Fin 128) : wslab1 x (ix2 k q) = x (ix3 (1 : Fin 3) k q) := slab1_apply x k q
theorem vrow1_apply (x : S3x128.Idx → α) (q : Fin 128) : vrow1 x (ix2 (0 : Fin 1) q) = x (ix2 (1 : Fin 3) q) := row1_apply x q

/-- Slab 2 of a stacked weight array, its unit axis dropped. -/
def wslab2 (x : S3x128x128.Idx → α) : S128x128.Idx → α :=
  shapeCast S128x128 (extractStridedSlice S1x128x128 ![2, 0, 0] x slices_S3x128x128_S1x128x128_2_0_0) shapeCasts_S1x128x128_S128x128
/-- Row 2 of a stacked per-feature array, as one [1,128] row. -/
def vrow2 (x : S3x128.Idx → α) : S1x128.Idx → α :=
  shapeCast S1x128 (shapeCast S128 (extractStridedSlice S1x128 ![2, 0] x slices_S3x128_S1x128_2_0) shapeCasts_S1x128_S128) shapeCasts_S128_S1x128
theorem wslab2_apply (x : S3x128x128.Idx → α) (k q : Fin 128) : wslab2 x (ix2 k q) = x (ix3 (2 : Fin 3) k q) := slab2_apply x k q
theorem vrow2_apply (x : S3x128.Idx → α) (q : Fin 128) : vrow2 x (ix2 (0 : Fin 1) q) = x (ix2 (2 : Fin 3) q) := row2_apply x q

end Cuts

/-! ## What host stretch 0 leaves, in the launch contents -/

theorem W1_v1 : W1 m c (Proc.devRef .tc main_v1) = e1 (m ((c : Thread nD τ).loc main_arg1)) := by
  show StableHlo.after hostOps0 (W0 m c) (Proc.devRef .tc main_v1) = _
  unfold e1
  after_results_simp
  rfl

theorem W1_v3 : W1 m c (Proc.devRef .tc main_v3) = e3 (m ((c : Thread nD τ).loc main_arg1)) := by
  show StableHlo.after hostOps0 (W0 m c) (Proc.devRef .tc main_v3) = _
  unfold e3
  after_results_simp
  rfl

theorem W1_v11 : W1 m c (Proc.devRef .tc main_v11) = invdeg (e3 (m ((c : Thread nD τ).loc main_arg1))) := by
  show StableHlo.after hostOps0 (W0 m c) (Proc.devRef .tc main_v11) = _
  unfold invdeg e3
  after_results_simp
  rfl

theorem W1_v24 : W1 m c (Proc.devRef .tc main_v24) = agg (m ((c : Thread nD τ).loc main_arg0)) (m ((c : Thread nD τ).loc main_arg1)) := by
  show StableHlo.after hostOps0 (W0 m c) (Proc.devRef .tc main_v24) = _
  unfold agg aggCore invdeg e1 e3
  after_results_simp
  rfl

theorem W1_v26 : W1 m c (Proc.devRef .tc main_v26) = wslab0 (m ((c : Thread nD τ).loc main_arg2)) := by
  show StableHlo.after hostOps0 (W0 m c) (Proc.devRef .tc main_v26) = _
  unfold wslab0
  after_results_simp
  rfl

theorem W1_v30 : W1 m c (Proc.devRef .tc main_v30) = wslab0 (m ((c : Thread nD τ).loc main_arg4)) := by
  show StableHlo.after hostOps0 (W0 m c) (Proc.devRef .tc main_v30) = _
  unfold wslab0
  after_results_simp
  rfl

theorem W1_v39 : W1 m c (Proc.devRef .tc main_v39) = vrow0 (m ((c : Thread nD τ).loc main_arg3)) := by
  show StableHlo.after hostOps0 (W0 m c) (Proc.devRef .tc main_v39) = _
  unfold vrow0
  after_results_simp
  rfl

theorem W1_v40 : W1 m c (Proc.devRef .tc main_v40) = vrow0 (m ((c : Thread nD τ).loc main_arg5)) := by
  show StableHlo.after hostOps0 (W0 m c) (Proc.devRef .tc main_v40) = _
  unfold vrow0
  after_results_simp
  rfl

theorem W1_v41 : W1 m c (Proc.devRef .tc main_v41) = vrow0 (m ((c : Thread nD τ).loc main_arg6)) := by
  show StableHlo.after hostOps0 (W0 m c) (Proc.devRef .tc main_v41) = _
  unfold vrow0
  after_results_simp
  rfl

theorem W1_v42 : W1 m c (Proc.devRef .tc main_v42) = vrow0 (m ((c : Thread nD τ).loc main_arg7)) := by
  show StableHlo.after hostOps0 (W0 m c) (Proc.devRef .tc main_v42) = _
  unfold vrow0
  after_results_simp
  rfl

theorem W1_v43 : W1 m c (Proc.devRef .tc main_v43) = vrow0 (m ((c : Thread nD τ).loc main_arg8)) := by
  show StableHlo.after hostOps0 (W0 m c) (Proc.devRef .tc main_v43) = _
  unfold vrow0
  after_results_simp
  rfl

/-! ## The edge rows and the degree factor, carried through launches 0 and 1 and host stretch 1 -/

theorem W2_v1 : W2 m c (Proc.devRef .tc main_v1) = e1 (m ((c : Thread nD τ).loc main_arg1)) := (W2_of_ne m c main_v1 (by decide)).trans (W1_v1 m c)
theorem W3_v1 : W3 m c (Proc.devRef .tc main_v1) = e1 (m ((c : Thread nD τ).loc main_arg1)) :=
  (StableHlo.after_of_writes_sub hostOps1 _ hostOps1_writes (by decide : main_v1 ∉ hostOps1_W)).trans (W2_v1 m c)
theorem W4_v1 : W4 m c (Proc.devRef .tc main_v1) = e1 (m ((c : Thread nD τ).loc main_arg1)) := (W4_of_ne m c main_v1 (by decide)).trans (W3_v1 m c)

theorem W2_v3 : W2 m c (Proc.devRef .tc main_v3) = e3 (m ((c : Thread nD τ).loc main_arg1)) := (W2_of_ne m c main_v3 (by decide)).trans (W1_v3 m c)
theorem W3_v3 : W3 m c (Proc.devRef .tc main_v3) = e3 (m ((c : Thread nD τ).loc main_arg1)) :=
  (StableHlo.after_of_writes_sub hostOps1 _ hostOps1_writes (by decide : main_v3 ∉ hostOps1_W)).trans (W2_v3 m c)
theorem W4_v3 : W4 m c (Proc.devRef .tc main_v3) = e3 (m ((c : Thread nD τ).loc main_arg1)) := (W4_of_ne m c main_v3 (by decide)).trans (W3_v3 m c)

theorem W2_v11 : W2 m c (Proc.devRef .tc main_v11) = invdeg (e3 (m ((c : Thread nD τ).loc main_arg1))) := (W2_of_ne m c main_v11 (by decide)).trans (W1_v11 m c)
theorem W3_v11 : W3 m c (Proc.devRef .tc main_v11) = invdeg (e3 (m ((c : Thread nD τ).loc main_arg1))) :=
  (StableHlo.after_of_writes_sub hostOps1 _ hostOps1_writes (by decide : main_v11 ∉ hostOps1_W)).trans (W2_v11 m c)
theorem W4_v11 : W4 m c (Proc.devRef .tc main_v11) = invdeg (e3 (m ((c : Thread nD τ).loc main_arg1))) := (W4_of_ne m c main_v11 (by decide)).trans (W3_v11 m c)

/-! ## What host stretch 1 leaves -/

theorem W3_v57_raw : W3 m c (Proc.devRef .tc main_v57)
    = aggCore (W2 m c (Proc.devRef .tc main_v44)) (W2 m c (Proc.devRef .tc main_v1)) (W2 m c (Proc.devRef .tc main_v3)) (W2 m c (Proc.devRef .tc main_v11)) := by
  show StableHlo.after hostOps1 (W2 m c) (Proc.devRef .tc main_v57) = _
  unfold aggCore
  after_results_simp

theorem W3_v59 : W3 m c (Proc.devRef .tc main_v59) = wslab1 (m ((c : Thread nD τ).loc main_arg2)) := by
  have h : W3 m c (Proc.devRef .tc main_v59) = wslab1 (W2 m c (Proc.devRef .tc main_arg2)) := by
    show StableHlo.after hostOps1 (W2 m c) (Proc.devRef .tc main_v59) = _
    unfold wslab1
    after_results_simp
    rfl
  rw [h, W2_main_arg2 m c]

theorem W3_v63 : W3 m c (Proc.devRef .tc main_v63) = wslab1 (m ((c : Thread nD τ).loc main_arg4)) := by
  have h : W3 m c (Proc.devRef .tc main_v63) = wslab1 (W2 m c (Proc.devRef .tc main_arg4)) := by
    show StableHlo.after hostOps1 (W2 m c) (Proc.devRef .tc main_v63) = _
    unfold wslab1
    after_results_simp
    rfl
  rw [h, W2_main_arg4 m c]

theorem W3_v72 : W3 m c (Proc.devRef .tc main_v72) = vrow1 (m ((c : Thread nD τ).loc main_arg3)) := by
  have h : W3 m c (Proc.devRef .tc main_v72) = vrow1 (W2 m c (Proc.devRef .tc main_arg3)) := by
    show StableHlo.after hostOps1 (W2 m c) (Proc.devRef .tc main_v72) = _
    unfold vrow1
    after_results_simp
    rfl
  rw [h, W2_main_arg3 m c]

theorem W3_v73 : W3 m c (Proc.devRef .tc main_v73) = vrow1 (m ((c : Thread nD τ).loc main_arg5)) := by
  have h : W3 m c (Proc.devRef .tc main_v73) = vrow1 (W2 m c (Proc.devRef .tc main_arg5)) := by
    show StableHlo.after hostOps1 (W2 m c) (Proc.devRef .tc main_v73) = _
    unfold vrow1
    after_results_simp
    rfl
  rw [h, W2_main_arg5 m c]

theorem W3_v74 : W3 m c (Proc.devRef .tc main_v74) = vrow1 (m ((c : Thread nD τ).loc main_arg6)) := by
  have h : W3 m c (Proc.devRef .tc main_v74) = vrow1 (W2 m c (Proc.devRef .tc main_arg6)) := by
    show StableHlo.after hostOps1 (W2 m c) (Proc.devRef .tc main_v74) = _
    unfold vrow1
    after_results_simp
    rfl
  rw [h, W2_main_arg6 m c]

theorem W3_v75 : W3 m c (Proc.devRef .tc main_v75) = vrow1 (m ((c : Thread nD τ).loc main_arg7)) := by
  have h : W3 m c (Proc.devRef .tc main_v75) = vrow1 (W2 m c (Proc.devRef .tc main_arg7)) := by
    show StableHlo.after hostOps1 (W2 m c) (Proc.devRef .tc main_v75) = _
    unfold vrow1
    after_results_simp
    rfl
  rw [h, W2_main_arg7 m c]

theorem W3_v76 : W3 m c (Proc.devRef .tc main_v76) = vrow1 (m ((c : Thread nD τ).loc main_arg8)) := by
  have h : W3 m c (Proc.devRef .tc main_v76) = vrow1 (W2 m c (Proc.devRef .tc main_arg8)) := by
    show StableHlo.after hostOps1 (W2 m c) (Proc.devRef .tc main_v76) = _
    unfold vrow1
    after_results_simp
    rfl
  rw [h, W2_main_arg8 m c]

/-! ## What host stretch 2 leaves -/

theorem W5_v90_raw : W5 m c (Proc.devRef .tc main_v90)
    = aggCore (W4 m c (Proc.devRef .tc main_v77)) (W4 m c (Proc.devRef .tc main_v1)) (W4 m c (Proc.devRef .tc main_v3)) (W4 m c (Proc.devRef .tc main_v11)) := by
  show StableHlo.after hostOps2 (W4 m c) (Proc.devRef .tc main_v90) = _
  unfold aggCore
  after_results_simp

theorem W5_v92 : W5 m c (Proc.devRef .tc main_v92) = wslab2 (m ((c : Thread nD τ).loc main_arg2)) := by
  have h : W5 m c (Proc.devRef .tc main_v92) = wslab2 (W4 m c (Proc.devRef .tc main_arg2)) := by
    show StableHlo.after hostOps2 (W4 m c) (Proc.devRef .tc main_v92) = _
    unfold wslab2
    after_results_simp
    rfl
  rw [h, W4_main_arg2 m c]

theorem W5_v96 : W5 m c (Proc.devRef .tc main_v96) = wslab2 (m ((c : Thread nD τ).loc main_arg4)) := by
  have h : W5 m c (Proc.devRef .tc main_v96) = wslab2 (W4 m c (Proc.devRef .tc main_arg4)) := by
    show StableHlo.after hostOps2 (W4 m c) (Proc.devRef .tc main_v96) = _
    unfold wslab2
    after_results_simp
    rfl
  rw [h, W4_main_arg4 m c]

theorem W5_v105 : W5 m c (Proc.devRef .tc main_v105) = vrow2 (m ((c : Thread nD τ).loc main_arg3)) := by
  have h : W5 m c (Proc.devRef .tc main_v105) = vrow2 (W4 m c (Proc.devRef .tc main_arg3)) := by
    show StableHlo.after hostOps2 (W4 m c) (Proc.devRef .tc main_v105) = _
    unfold vrow2
    after_results_simp
    rfl
  rw [h, W4_main_arg3 m c]

theorem W5_v106 : W5 m c (Proc.devRef .tc main_v106) = vrow2 (m ((c : Thread nD τ).loc main_arg5)) := by
  have h : W5 m c (Proc.devRef .tc main_v106) = vrow2 (W4 m c (Proc.devRef .tc main_arg5)) := by
    show StableHlo.after hostOps2 (W4 m c) (Proc.devRef .tc main_v106) = _
    unfold vrow2
    after_results_simp
    rfl
  rw [h, W4_main_arg5 m c]

theorem W5_v107 : W5 m c (Proc.devRef .tc main_v107) = vrow2 (m ((c : Thread nD τ).loc main_arg6)) := by
  have h : W5 m c (Proc.devRef .tc main_v107) = vrow2 (W4 m c (Proc.devRef .tc main_arg6)) := by
    show StableHlo.after hostOps2 (W4 m c) (Proc.devRef .tc main_v107) = _
    unfold vrow2
    after_results_simp
    rfl
  rw [h, W4_main_arg6 m c]

theorem W5_v108 : W5 m c (Proc.devRef .tc main_v108) = vrow2 (m ((c : Thread nD τ).loc main_arg7)) := by
  have h : W5 m c (Proc.devRef .tc main_v108) = vrow2 (W4 m c (Proc.devRef .tc main_arg7)) := by
    show StableHlo.after hostOps2 (W4 m c) (Proc.devRef .tc main_v108) = _
    unfold vrow2
    after_results_simp
    rfl
  rw [h, W4_main_arg7 m c]

theorem W5_v109 : W5 m c (Proc.devRef .tc main_v109) = vrow2 (m ((c : Thread nD τ).loc main_arg8)) := by
  have h : W5 m c (Proc.devRef .tc main_v109) = vrow2 (W4 m c (Proc.devRef .tc main_arg8)) := by
    show StableHlo.after hostOps2 (W4 m c) (Proc.devRef .tc main_v109) = _
    unfold vrow2
    after_results_simp
    rfl
  rw [h, W4_main_arg8 m c]

/-! ## What host stretch 3 leaves -/

theorem W7_v111_raw : W7 m c (Proc.devRef .tc main_v111)
    = concatenate S50000x384 1 [⟨S50000x128, W6 m c (Proc.devRef .tc main_v44)⟩, ⟨S50000x128, W6 m c (Proc.devRef .tc main_v77)⟩,
        ⟨S50000x128, W6 m c (Proc.devRef .tc main_v110)⟩] concatenates_S50000x128_S50000x128_S50000x128_S50000x384_d1 := by
  show StableHlo.after hostOps3 (W6 m c) (Proc.devRef .tc main_v111) = _
  after_results_simp
  rfl

theorem W7_v112 : W7 m c (Proc.devRef .tc main_v112) = shapeCast S1x64 (m ((c : Thread nD τ).loc main_arg10)) shapeCasts_S64_S1x64 := by
  have h : W7 m c (Proc.devRef .tc main_v112) = shapeCast S1x64 (W6 m c (Proc.devRef .tc main_arg10)) shapeCasts_S64_S1x64 := by
    show StableHlo.after hostOps3 (W6 m c) (Proc.devRef .tc main_v112) = _
    after_results_simp
    rfl
  rw [h, W6_main_arg10 m c]

theorem W7_v113 : W7 m c (Proc.devRef .tc main_v113) = shapeCast S1x2 (m ((c : Thread nD τ).loc main_arg12)) shapeCasts_S2_S1x2 := by
  have h : W7 m c (Proc.devRef .tc main_v113) = shapeCast S1x2 (W6 m c (Proc.devRef .tc main_arg12)) shapeCasts_S2_S1x2 := by
    show StableHlo.after hostOps3 (W6 m c) (Proc.devRef .tc main_v113) = _
    after_results_simp
    rfl
  rw [h, W6_main_arg12 m c]

/-! ## The specification over a launch's arrays against the specification over the stacked arrays -/

theorem layerBlk_congr {g g' h h' : S50000x128.Idx → EReal} {wl wl' wr wr' : S128x128.Idx → EReal}
    {bl bl' ga ga' be be' mu mu' va va' : S1x128.Idx → EReal}
    (e0 : g = g') (e1 : h = h') (e2 : wl = wl') (e3 : bl = bl') (e4 : wr = wr') (e5 : ga = ga') (e6 : be = be') (e7 : mu = mu') (e8 : va = va') :
    Cert.Spec.layerBlk g h wl bl wr ga be mu va = Cert.Spec.layerBlk g' h' wl' bl' wr' ga' be' mu' va' := by
  subst e0 e1 e2 e3 e4 e5 e6 e7 e8; rfl

theorem clfBlk_congr {jk jk' : S50000x384.Idx → EReal} {w1 w1' : S384x64.Idx → EReal} {b1 b1' : S1x64.Idx → EReal}
    {w2 w2' : S64x2.Idx → EReal} {b2 b2' : S1x2.Idx → EReal}
    (e0 : jk = jk') (e1 : w1 = w1') (e2 : b1 = b1') (e3 : w2 = w2') (e4 : b2 = b2') :
    Cert.Spec.clfBlk jk w1 b1 w2 b2 = Cert.Spec.clfBlk jk' w1' b1' w2' b2' := by
  subst e0 e1 e2 e3 e4; rfl

/-- The layer over the arrays as launch 0 receives them (slab 0, rows 0) is layer 0 over the stacked arrays. -/
theorem layerBlk_0 (g h : S50000x128.Idx → EReal) (x2 x4 : S3x128x128.Idx → EReal) (x3 x5 x6 x7 x8 : S3x128.Idx → EReal) :
    Cert.Spec.layerBlk g h (wslab0 x2) (vrow0 x3) (wslab0 x4) (vrow0 x5) (vrow0 x6) (vrow0 x7) (vrow0 x8)
      = Cert.Spec.layerArr 0 g h x2 x3 x4 x5 x6 x7 x8 := by
  funext i
  obtain ⟨r, q, rfl⟩ : ∃ (r : Fin 50000) (q : Fin 128), i = ix2 r q := ⟨i 0, i 1, eq_ix2 i⟩
  show Cert.Spec.layerAt (fun k => g (ix2 r k)) (fun k => h (ix2 r k)) (fun k => wslab0 x2 (ix2 k q)) (fun k => wslab0 x4 (ix2 k q))
      (vrow0 x3 (ix2 (0 : Fin 1) q)) (vrow0 x5 (ix2 (0 : Fin 1) q)) (vrow0 x6 (ix2 (0 : Fin 1) q)) (vrow0 x7 (ix2 (0 : Fin 1) q)) (vrow0 x8 (ix2 (0 : Fin 1) q))
    = Cert.Spec.layerAt (fun k => g (ix2 r k)) (fun k => h (ix2 r k)) (fun k => x2 (ix3 (0 : Fin 3) k q)) (fun k => x4 (ix3 (0 : Fin 3) k q))
      (x3 (ix2 (0 : Fin 3) q)) (x5 (ix2 (0 : Fin 3) q)) (x6 (ix2 (0 : Fin 3) q)) (x7 (ix2 (0 : Fin 3) q)) (x8 (ix2 (0 : Fin 3) q))
  simp only [wslab0_apply, vrow0_apply]

/-- The layer over the arrays as launch 1 receives them (slab 1, rows 1) is layer 1 over the stacked arrays. -/
theorem layerBlk_1 (g h : S50000x128.Idx → EReal) (x2 x4 : S3x128x128.Idx → EReal) (x3 x5 x6 x7 x8 : S3x128.Idx → EReal) :
    Cert.Spec.layerBlk g h (wslab1 x2) (vrow1 x3) (wslab1 x4) (vrow1 x5) (vrow1 x6) (vrow1 x7) (vrow1 x8)
      = Cert.Spec.layerArr 1 g h x2 x3 x4 x5 x6 x7 x8 := by
  funext i
  obtain ⟨r, q, rfl⟩ : ∃ (r : Fin 50000) (q : Fin 128), i = ix2 r q := ⟨i 0, i 1, eq_ix2 i⟩
  show Cert.Spec.layerAt (fun k => g (ix2 r k)) (fun k => h (ix2 r k)) (fun k => wslab1 x2 (ix2 k q)) (fun k => wslab1 x4 (ix2 k q))
      (vrow1 x3 (ix2 (0 : Fin 1) q)) (vrow1 x5 (ix2 (0 : Fin 1) q)) (vrow1 x6 (ix2 (0 : Fin 1) q)) (vrow1 x7 (ix2 (0 : Fin 1) q)) (vrow1 x8 (ix2 (0 : Fin 1) q))
    = Cert.Spec.layerAt (fun k => g (ix2 r k)) (fun k => h (ix2 r k)) (fun k => x2 (ix3 (1 : Fin 3) k q)) (fun k => x4 (ix3 (1 : Fin 3) k q))
      (x3 (ix2 (1 : Fin 3) q)) (x5 (ix2 (1 : Fin 3) q)) (x6 (ix2 (1 : Fin 3) q)) (x7 (ix2 (1 : Fin 3) q)) (x8 (ix2 (1 : Fin 3) q))
  simp only [wslab1_apply, vrow1_apply]

/-- The layer over the arrays as launch 2 receives them (slab 2, rows 2) is layer 2 over the stacked arrays. -/
theorem layerBlk_2 (g h : S50000x128.Idx → EReal) (x2 x4 : S3x128x128.Idx → EReal) (x3 x5 x6 x7 x8 : S3x128.Idx → EReal) :
    Cert.Spec.layerBlk g h (wslab2 x2) (vrow2 x3) (wslab2 x4) (vrow2 x5) (vrow2 x6) (vrow2 x7) (vrow2 x8)
      = Cert.Spec.layerArr 2 g h x2 x3 x4 x5 x6 x7 x8 := by
  funext i
  obtain ⟨r, q, rfl⟩ : ∃ (r : Fin 50000) (q : Fin 128), i = ix2 r q := ⟨i 0, i 1, eq_ix2 i⟩
  show Cert.Spec.layerAt (fun k => g (ix2 r k)) (fun k => h (ix2 r k)) (fun k => wslab2 x2 (ix2 k q)) (fun k => wslab2 x4 (ix2 k q))
      (vrow2 x3 (ix2 (0 : Fin 1) q)) (vrow2 x5 (ix2 (0 : Fin 1) q)) (vrow2 x6 (ix2 (0 : Fin 1) q)) (vrow2 x7 (ix2 (0 : Fin 1) q)) (vrow2 x8 (ix2 (0 : Fin 1) q))
    = Cert.Spec.layerAt (fun k => g (ix2 r k)) (fun k => h (ix2 r k)) (fun k => x2 (ix3 (2 : Fin 3) k q)) (fun k => x4 (ix3 (2 : Fin 3) k q))
      (x3 (ix2 (2 : Fin 3) q)) (x5 (ix2 (2 : Fin 3) q)) (x6 (ix2 (2 : Fin 3) q)) (x7 (ix2 (2 : Fin 3) q)) (x8 (ix2 (2 : Fin 3) q))
  simp only [wslab2_apply, vrow2_apply]

/-- The classifier over the joined rows and the biases as rows is the classifier over the three layers' rows and the
    biases as vectors. -/
theorem clfBlk_joined (h1 h2 h3 : S50000x128.Idx → EReal) (w1 : S384x64.Idx → EReal) (b1 : S64.Idx → EReal)
    (w2 : S64x2.Idx → EReal) (b2 : S2.Idx → EReal) :
    Cert.Spec.clfBlk
        (concatenate S50000x384 1 [⟨S50000x128, h1⟩, ⟨S50000x128, h2⟩, ⟨S50000x128, h3⟩]
          concatenates_S50000x128_S50000x128_S50000x128_S50000x384_d1)
        w1 (shapeCast S1x64 b1 shapeCasts_S64_S1x64) w2 (shapeCast S1x2 b2 shapeCasts_S2_S1x2)
      = Cert.Spec.clfArr h1 h2 h3 w1 b1 w2 b2 := by
  funext i
  obtain ⟨r, q, rfl⟩ : ∃ (r : Fin 50000) (q : Fin 2), i = ix2 r q := ⟨i 0, i 1, eq_ix2 i⟩
  show Cert.Spec.clfAt
      (fun k => concatenate S50000x384 1 [⟨S50000x128, h1⟩, ⟨S50000x128, h2⟩, ⟨S50000x128, h3⟩]
        concatenates_S50000x128_S50000x128_S50000x128_S50000x384_d1 (ix2 r k))
      (fun k j => w1 (ix2 k j)) (fun j => shapeCast S1x64 b1 shapeCasts_S64_S1x64 (ix2 (0 : Fin 1) j)) (fun j => w2 (ix2 j q))
      (shapeCast S1x2 b2 shapeCasts_S2_S1x2 (ix2 (0 : Fin 1) q))
    = Cert.Spec.clfAt (fun k => Cert.Spec.jkAt h1 h2 h3 r k) (fun k j => w1 (ix2 k j)) (fun j => b1 (ix1 j)) (fun j => w2 (ix2 j q)) (b2 (ix1 q))
  simp only [bias64_apply, bias2_apply]
  exact congrArg (fun f => Cert.Spec.clfAt f (fun k j => w1 (ix2 k j)) (fun j => b1 (ix1 j)) (fun j => w2 (ix2 j q)) (b2 (ix1 q)))
    (funext fun k => joined_apply h1 h2 h3 r k)

/-! ## The three layers' rows and the result, as functions of the argument arrays -/

/-- The first layer's rows. -/
def H1 : (⟨S50000x128, .f32⟩ : BufTy).Contents (Elt Ideal) :=
  Cert.Spec.layerArr 0 (agg (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The second layer's rows. -/
def H2 : (⟨S50000x128, .f32⟩ : BufTy).Contents (Elt Ideal) :=
  Cert.Spec.layerArr 1 (agg (H1 m c) (m ((c : Thread nD τ).loc main_arg1))) (H1 m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The third layer's rows. -/
def H3 : (⟨S50000x128, .f32⟩ : BufTy).Contents (Elt Ideal) :=
  Cert.Spec.layerArr 2 (agg (H2 m c) (m ((c : Thread nD τ).loc main_arg1))) (H2 m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Launch 0 leaves the first layer's rows in its output array. -/
theorem W2_v44 : W2 m c (Proc.devRef .tc main_v44) = H1 m c :=
  (W2_arr m c 9).trans ((final0 (Hand.V1 m) c).trans
    ((layerBlk_congr (W1_v24 m c) (W1_main_arg0 m c) (W1_v26 m c) (W1_v39 m c) (W1_v30 m c) (W1_v40 m c) (W1_v41 m c) (W1_v42 m c)
      (W1_v43 m c)).trans (layerBlk_0 _ _ _ _ _ _ _ _ _)))

theorem W3_v44 : W3 m c (Proc.devRef .tc main_v44) = H1 m c :=
  (StableHlo.after_of_writes_sub hostOps1 _ hostOps1_writes (by decide : main_v44 ∉ hostOps1_W)).trans (W2_v44 m c)

theorem W3_v57 : W3 m c (Proc.devRef .tc main_v57) = agg (H1 m c) (m ((c : Thread nD τ).loc main_arg1)) := by
  rw [W3_v57_raw m c, W2_v44 m c, W2_v1 m c, W2_v3 m c, W2_v11 m c]
  rfl

/-- Launch 1 leaves the second layer's rows in its output array. -/
theorem W4_v77 : W4 m c (Proc.devRef .tc main_v77) = H2 m c :=
  (W4_arr m c 9).trans ((final1 (Hand.V3 m) c).trans
    ((layerBlk_congr (W3_v57 m c) (W3_v44 m c) (W3_v59 m c) (W3_v72 m c) (W3_v63 m c) (W3_v73 m c) (W3_v74 m c) (W3_v75 m c)
      (W3_v76 m c)).trans (layerBlk_1 _ _ _ _ _ _ _ _ _)))

/-- The first layer's rows are an input of launch 1, which leaves them as entered. -/
theorem W4_v44 : W4 m c (Proc.devRef .tc main_v44) = H1 m c := (W4_in m c 1 rfl).trans (W3_v44 m c)

theorem W5_v77 : W5 m c (Proc.devRef .tc main_v77) = H2 m c :=
  (StableHlo.after_of_writes_sub hostOps2 _ hostOps2_writes (by decide : main_v77 ∉ hostOps2_W)).trans (W4_v77 m c)

theorem W5_v44 : W5 m c (Proc.devRef .tc main_v44) = H1 m c :=
  (StableHlo.after_of_writes_sub hostOps2 _ hostOps2_writes (by decide : main_v44 ∉ hostOps2_W)).trans (W4_v44 m c)

theorem W5_v90 : W5 m c (Proc.devRef .tc main_v90) = agg (H2 m c) (m ((c : Thread nD τ).loc main_arg1)) := by
  rw [W5_v90_raw m c, W4_v77 m c, W4_v1 m c, W4_v3 m c, W4_v11 m c]
  rfl

/-- Launch 2 leaves the third layer's rows in its output array. -/
theorem W6_v110 : W6 m c (Proc.devRef .tc main_v110) = H3 m c :=
  (W6_arr m c 9).trans ((final2 (Hand.V5 m) c).trans
    ((layerBlk_congr (W5_v90 m c) (W5_v77 m c) (W5_v92 m c) (W5_v105 m c) (W5_v96 m c) (W5_v106 m c) (W5_v107 m c) (W5_v108 m c)
      (W5_v109 m c)).trans (layerBlk_2 _ _ _ _ _ _ _ _ _)))

/-- The second layer's rows are an input of launch 2; the first layer's rows are no array of its windows. -/
theorem W6_v77 : W6 m c (Proc.devRef .tc main_v77) = H2 m c := (W6_in m c 1 rfl).trans (W5_v77 m c)
theorem W6_v44 : W6 m c (Proc.devRef .tc main_v44) = H1 m c := (W6_of_ne m c main_v44 (by decide)).trans (W5_v44 m c)

theorem W7_v111 : W7 m c (Proc.devRef .tc main_v111)
    = concatenate S50000x384 1 [⟨S50000x128, H1 m c⟩, ⟨S50000x128, H2 m c⟩, ⟨S50000x128, H3 m c⟩]
        concatenates_S50000x128_S50000x128_S50000x128_S50000x384_d1 := by
  rw [W7_v111_raw m c, W6_v44 m c, W6_v77 m c, W6_v110 m c]

/-- THE RESULT: the classifier of the three layers' rows. -/
theorem result_eq : result m c
    = Cert.Spec.clfArr (H1 m c) (H2 m c) (H3 m c) (m ((c : Thread nD τ).loc main_arg9)) (m ((c : Thread nD τ).loc main_arg10)) (m ((c : Thread nD τ).loc main_arg11)) (m ((c : Thread nD τ).loc main_arg12)) :=
  (final3 (Hand.V7 m) c).trans
    ((clfBlk_congr (W7_v111 m c) (W7_main_arg9 m c) (W7_v112 m c) (W7_main_arg11 m c) (W7_v113 m c)).trans
      (clfBlk_joined _ _ _ _ _ _ _))

end Cert.KernelIdeal.HandValue

end
-- ==== Proof.RefValue.lean ====
import proofs.«160495_j17575006175717_1_alg».proof.Proof.Gen.ReferenceIdeal.Read
import proofs.«160495_j17575006175717_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-- The neighbour mean as one function of the node features `h` and the edge list `e`: the rows of `h` gathered by
    source, summed into their destination rows, each row divided by the larger of its in-degree and one. It is the
    reference's own chain of operations with `h` in the place of the first argument. -/
def agg (h : (⟨S50000x128, .f32⟩ : BufTy).Contents (Elt Ideal)) (e : (⟨S2x800000, .i32⟩ : BufTy).Contents (Elt Ideal)) :
    (⟨S50000x128, .f32⟩ : BufTy).Contents (Elt Ideal) :=
  val_main_v24 (F := Ideal) h e

/-- The first neighbour mean is `agg` of the input features. -/
theorem agg0 (x0 : (⟨S50000x128, .f32⟩ : BufTy).Contents (Elt Ideal)) (x1 : (⟨S2x800000, .i32⟩ : BufTy).Contents (Elt Ideal)) :
    val_main_v24 (F := Ideal) x0 x1 = agg x0 x1 := rfl

/-- The second neighbour mean repeats the first one's operations on the first layer's output. -/
theorem agg1 (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal)) :
    val_main_v73 (F := Ideal) x0 x1 x2 x3 x4 x5 x6 x7 x8 = agg (val_main_v60 (F := Ideal) x0 x1 x2 x3 x4 x5 x6 x7 x8) x1 := rfl

/-- The third neighbour mean repeats the first one's operations on the second layer's output. -/
theorem agg2 (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal)) :
    val_main_v122 (F := Ideal) x0 x1 x2 x3 x4 x5 x6 x7 x8 = agg (val_main_v109 (F := Ideal) x0 x1 x2 x3 x4 x5 x6 x7 x8) x1 := rfl

/-- Layer 0 of the reference, entry by entry, is the specification's layer on slab 0 of the weights. -/
theorem layer0_eq (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal)) :
    val_main_v60 (F := Ideal) x0 x1 x2 x3 x4 x5 x6 x7 x8 = Cert.Spec.layerArr 0 (agg x0 x1) x0 x2 x3 x4 x5 x6 x7 x8 := by
  funext i
  obtain ⟨r, c, rfl⟩ : ∃ (r : Fin 50000) (c : Fin 128), i = ix2 r c := ⟨i 0, i 1, eq_ix2 i⟩
  rw [← agg0]
  -- the two left operands are read at (r, k), the weights at (0, k, c), the per-feature vectors at (0, c)
  have eAl : ∀ k : Fin 128, lidx_main_v27 (ix2 r c) k = ix2 r k := fun k => funext fun a => Fin.ext (by
      match a with
      | ⟨0, _⟩ => rfl
      | ⟨1, _⟩ => rfl)
  have eHl : ∀ k : Fin 128, lidx_main_v35 (ix2 r c) k = ix2 r k := fun k => funext fun a => Fin.ext (by
      match a with
      | ⟨0, _⟩ => rfl
      | ⟨1, _⟩ => rfl)
  have eWl : ∀ k : Fin 128, idx_main_v25 (idx_main_v26 (ridx_main_v27 (ix2 r c) k)) = ix3 (0 : Fin 3) k c := fun k => funext fun a => Fin.ext (by
      match a with
      | ⟨0, _⟩ => rfl
      | ⟨1, _⟩ => have hk := k.isLt; have hc := c.isLt; show (k.val * 128 + c.val) / 128 % 128 = k.val; omega
      | ⟨2, _⟩ => have hk := k.isLt; have hc := c.isLt; show (k.val * 128 + c.val) % 128 = c.val; omega)
  have eWr : ∀ k : Fin 128, idx_main_v33 (idx_main_v34 (ridx_main_v35 (ix2 r c) k)) = ix3 (0 : Fin 3) k c := fun k => funext fun a => Fin.ext (by
      match a with
      | ⟨0, _⟩ => rfl
      | ⟨1, _⟩ => have hk := k.isLt; have hc := c.isLt; show (k.val * 128 + c.val) / 128 % 128 = k.val; omega
      | ⟨2, _⟩ => have hk := k.isLt; have hc := c.isLt; show (k.val * 128 + c.val) % 128 = c.val; omega)
  have eBl : idx_main_v28 (idx_main_v29 (idx_main_v30 (idx_main_v31 (ix2 r c)))) = ix2 (0 : Fin 3) c := funext fun a => Fin.ext (by
      match a with
      | ⟨0, _⟩ => rfl
      | ⟨1, _⟩ => exact Nat.mod_eq_of_lt c.isLt)
  have eMean : idx_main_v37 (idx_main_v38 (idx_main_v39 (idx_main_v40 (ix2 r c)))) = ix2 (0 : Fin 3) c := funext fun a => Fin.ext (by
      match a with
      | ⟨0, _⟩ => rfl
      | ⟨1, _⟩ => exact Nat.mod_eq_of_lt c.isLt)
  have eVar : idx_main_v42 (idx_main_v43 (idx_main_v47 (idx_main_v48 (ix2 r c)))) = ix2 (0 : Fin 3) c := funext fun a => Fin.ext (by
      match a with
      | ⟨0, _⟩ => rfl
      | ⟨1, _⟩ => exact Nat.mod_eq_of_lt c.isLt)
  have eGamma : idx_main_v50 (idx_main_v51 (idx_main_v52 (idx_main_v53 (ix2 r c)))) = ix2 (0 : Fin 3) c := funext fun a => Fin.ext (by
      match a with
      | ⟨0, _⟩ => rfl
      | ⟨1, _⟩ => exact Nat.mod_eq_of_lt c.isLt)
  have eBeta : idx_main_v55 (idx_main_v56 (idx_main_v57 (idx_main_v58 (ix2 r c)))) = ix2 (0 : Fin 3) c := funext fun a => Fin.ext (by
      match a with
      | ⟨0, _⟩ => rfl
      | ⟨1, _⟩ => exact Nat.mod_eq_of_lt c.isLt)
  rw [val_main_v60_apply, val_main_v59_apply, val_main_v54_apply, val_main_v49_apply, val_main_v41_apply, val_main_v36_apply, val_main_v32_apply, val_main_v27_apply, val_main_v35_apply,
    val_main_v31_apply, val_main_v30_apply, val_main_v29_apply, val_main_v28_apply, val_main_v40_apply, val_main_v39_apply, val_main_v38_apply, val_main_v37_apply,
    val_main_v48_apply, val_main_v47_apply, val_main_v46_apply, val_main_v45_apply, val_main_v44_apply, val_main_cst_5_apply, val_main_v43_apply, val_main_v42_apply,
    val_main_v53_apply, val_main_v52_apply, val_main_v51_apply, val_main_v50_apply, val_main_v58_apply, val_main_v57_apply, val_main_v56_apply, val_main_v55_apply,
    val_main_call0_v0_apply, val_main_call0_cst_apply, eBl, eMean, eVar, eGamma, eBeta]
  generalize val_main_v24 (F := Ideal) x0 x1 = a
  have hS1 : (∑ k : Fin 128, a (lidx_main_v27 (ix2 r c) k) * val_main_v26 (F := Ideal) x2 (ridx_main_v27 (ix2 r c) k))
      = ∑ k : Fin 128, a (ix2 r k) * x2 (ix3 (0 : Fin 3) k c) :=
    Finset.sum_congr rfl fun k _ => by rw [val_main_v26_apply, val_main_v25_apply, eWl k, eAl k]
  have hS2 : (∑ k : Fin 128, x0 (lidx_main_v35 (ix2 r c) k) * val_main_v34 (F := Ideal) x4 (ridx_main_v35 (ix2 r c) k))
      = ∑ k : Fin 128, x0 (ix2 r k) * x4 (ix3 (0 : Fin 3) k c) :=
    Finset.sum_congr rfl fun k _ => by rw [val_main_v34_apply, val_main_v33_apply, eWr k, eHl k]
  rw [hS1, hS2]
  rfl

/-- Layer 1 of the reference, entry by entry, is the specification's layer on slab 1 of the weights. -/
theorem layer1_eq (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal)) :
    val_main_v109 (F := Ideal) x0 x1 x2 x3 x4 x5 x6 x7 x8 = Cert.Spec.layerArr 1 (agg (val_main_v60 (F := Ideal) x0 x1 x2 x3 x4 x5 x6 x7 x8) x1) (val_main_v60 (F := Ideal) x0 x1 x2 x3 x4 x5 x6 x7 x8) x2 x3 x4 x5 x6 x7 x8 := by
  funext i
  obtain ⟨r, c, rfl⟩ : ∃ (r : Fin 50000) (c : Fin 128), i = ix2 r c := ⟨i 0, i 1, eq_ix2 i⟩
  rw [← agg1]
  -- the two left operands are read at (r, k), the weights at (1, k, c), the per-feature vectors at (1, c)
  have eAl : ∀ k : Fin 128, lidx_main_v76 (ix2 r c) k = ix2 r k := fun k => funext fun a => Fin.ext (by
      match a with
      | ⟨0, _⟩ => rfl
      | ⟨1, _⟩ => rfl)
  have eHl : ∀ k : Fin 128, lidx_main_v84 (ix2 r c) k = ix2 r k := fun k => funext fun a => Fin.ext (by
      match a with
      | ⟨0, _⟩ => rfl
      | ⟨1, _⟩ => rfl)
  have eWl : ∀ k : Fin 128, idx_main_v74 (idx_main_v75 (ridx_main_v76 (ix2 r c) k)) = ix3 (1 : Fin 3) k c := fun k => funext fun a => Fin.ext (by
      match a with
      | ⟨0, _⟩ => rfl
      | ⟨1, _⟩ => have hk := k.isLt; have hc := c.isLt; show (k.val * 128 + c.val) / 128 % 128 = k.val; omega
      | ⟨2, _⟩ => have hk := k.isLt; have hc := c.isLt; show (k.val * 128 + c.val) % 128 = c.val; omega)
  have eWr : ∀ k : Fin 128, idx_main_v82 (idx_main_v83 (ridx_main_v84 (ix2 r c) k)) = ix3 (1 : Fin 3) k c := fun k => funext fun a => Fin.ext (by
      match a with
      | ⟨0, _⟩ => rfl
      | ⟨1, _⟩ => have hk := k.isLt; have hc := c.isLt; show (k.val * 128 + c.val) / 128 % 128 = k.val; omega
      | ⟨2, _⟩ => have hk := k.isLt; have hc := c.isLt; show (k.val * 128 + c.val) % 128 = c.val; omega)
  have eBl : idx_main_v77 (idx_main_v78 (idx_main_v79 (idx_main_v80 (ix2 r c)))) = ix2 (1 : Fin 3) c := funext fun a => Fin.ext (by
      match a with
      | ⟨0, _⟩ => rfl
      | ⟨1, _⟩ => exact Nat.mod_eq_of_lt c.isLt)
  have eMean : idx_main_v86 (idx_main_v87 (idx_main_v88 (idx_main_v89 (ix2 r c)))) = ix2 (1 : Fin 3) c := funext fun a => Fin.ext (by
      match a with
      | ⟨0, _⟩ => rfl
      | ⟨1, _⟩ => exact Nat.mod_eq_of_lt c.isLt)
  have eVar : idx_main_v91 (idx_main_v92 (idx_main_v96 (idx_main_v97 (ix2 r c)))) = ix2 (1 : Fin 3) c := funext fun a => Fin.ext (by
      match a with
      | ⟨0, _⟩ => rfl
      | ⟨1, _⟩ => exact Nat.mod_eq_of_lt c.isLt)
  have eGamma : idx_main_v99 (idx_main_v100 (idx_main_v101 (idx_main_v102 (ix2 r c)))) = ix2 (1 : Fin 3) c := funext fun a => Fin.ext (by
      match a with
      | ⟨0, _⟩ => rfl
      | ⟨1, _⟩ => exact Nat.mod_eq_of_lt c.isLt)
  have eBeta : idx_main_v104 (idx_main_v105 (idx_main_v106 (idx_main_v107 (ix2 r c)))) = ix2 (1 : Fin 3) c := funext fun a => Fin.ext (by
      match a with
      | ⟨0, _⟩ => rfl
      | ⟨1, _⟩ => exact Nat.mod_eq_of_lt c.isLt)
  rw [val_main_v109_apply, val_main_v108_apply, val_main_v103_apply, val_main_v98_apply, val_main_v90_apply, val_main_v85_apply, val_main_v81_apply, val_main_v76_apply, val_main_v84_apply,
    val_main_v80_apply, val_main_v79_apply, val_main_v78_apply, val_main_v77_apply, val_main_v89_apply, val_main_v88_apply, val_main_v87_apply, val_main_v86_apply,
    val_main_v97_apply, val_main_v96_apply, val_main_v95_apply, val_main_v94_apply, val_main_v93_apply, val_main_cst_9_apply, val_main_v92_apply, val_main_v91_apply,
    val_main_v102_apply, val_main_v101_apply, val_main_v100_apply, val_main_v99_apply, val_main_v107_apply, val_main_v106_apply, val_main_v105_apply, val_main_v104_apply,
    val_main_call1_v0_apply, val_main_call1_cst_apply, eBl, eMean, eVar, eGamma, eBeta]
  generalize val_main_v73 (F := Ideal) x0 x1 x2 x3 x4 x5 x6 x7 x8 = a
  generalize val_main_v60 (F := Ideal) x0 x1 x2 x3 x4 x5 x6 x7 x8 = h
  have hS1 : (∑ k : Fin 128, a (lidx_main_v76 (ix2 r c) k) * val_main_v75 (F := Ideal) x2 (ridx_main_v76 (ix2 r c) k))
      = ∑ k : Fin 128, a (ix2 r k) * x2 (ix3 (1 : Fin 3) k c) :=
    Finset.sum_congr rfl fun k _ => by rw [val_main_v75_apply, val_main_v74_apply, eWl k, eAl k]
  have hS2 : (∑ k : Fin 128, h (lidx_main_v84 (ix2 r c) k) * val_main_v83 (F := Ideal) x4 (ridx_main_v84 (ix2 r c) k))
      = ∑ k : Fin 128, h (ix2 r k) * x4 (ix3 (1 : Fin 3) k c) :=
    Finset.sum_congr rfl fun k _ => by rw [val_main_v83_apply, val_main_v82_apply, eWr k, eHl k]
  rw [hS1, hS2]
  rfl

/-- Layer 2 of the reference, entry by entry, is the specification's layer on slab 2 of the weights. -/
theorem layer2_eq (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal)) :
    val_main_v158 (F := Ideal) x0 x1 x2 x3 x4 x5 x6 x7 x8 = Cert.Spec.layerArr 2 (agg (val_main_v109 (F := Ideal) x0 x1 x2 x3 x4 x5 x6 x7 x8) x1) (val_main_v109 (F := Ideal) x0 x1 x2 x3 x4 x5 x6 x7 x8) x2 x3 x4 x5 x6 x7 x8 := by
  funext i
  obtain ⟨r, c, rfl⟩ : ∃ (r : Fin 50000) (c : Fin 128), i = ix2 r c := ⟨i 0, i 1, eq_ix2 i⟩
  rw [← agg2]
  -- the two left operands are read at (r, k), the weights at (2, k, c), the per-feature vectors at (2, c)
  have eAl : ∀ k : Fin 128, lidx_main_v125 (ix2 r c) k = ix2 r k := fun k => funext fun a => Fin.ext (by
      match a with
      | ⟨0, _⟩ => rfl
      | ⟨1, _⟩ => rfl)
  have eHl : ∀ k : Fin 128, lidx_main_v133 (ix2 r c) k = ix2 r k := fun k => funext fun a => Fin.ext (by
      match a with
      | ⟨0, _⟩ => rfl
      | ⟨1, _⟩ => rfl)
  have eWl : ∀ k : Fin 128, idx_main_v123 (idx_main_v124 (ridx_main_v125 (ix2 r c) k)) = ix3 (2 : Fin 3) k c := fun k => funext fun a => Fin.ext (by
      match a with
      | ⟨0, _⟩ => rfl
      | ⟨1, _⟩ => have hk := k.isLt; have hc := c.isLt; show (k.val * 128 + c.val) / 128 % 128 = k.val; omega
      | ⟨2, _⟩ => have hk := k.isLt; have hc := c.isLt; show (k.val * 128 + c.val) % 128 = c.val; omega)
  have eWr : ∀ k : Fin 128, idx_main_v131 (idx_main_v132 (ridx_main_v133 (ix2 r c) k)) = ix3 (2 : Fin 3) k c := fun k => funext fun a => Fin.ext (by
      match a with
      | ⟨0, _⟩ => rfl
      | ⟨1, _⟩ => have hk := k.isLt; have hc := c.isLt; show (k.val * 128 + c.val) / 128 % 128 = k.val; omega
      | ⟨2, _⟩ => have hk := k.isLt; have hc := c.isLt; show (k.val * 128 + c.val) % 128 = c.val; omega)
  have eBl : idx_main_v126 (idx_main_v127 (idx_main_v128 (idx_main_v129 (ix2 r c)))) = ix2 (2 : Fin 3) c := funext fun a => Fin.ext (by
      match a with
      | ⟨0, _⟩ => rfl
      | ⟨1, _⟩ => exact Nat.mod_eq_of_lt c.isLt)
  have eMean : idx_main_v135 (idx_main_v136 (idx_main_v137 (idx_main_v138 (ix2 r c)))) = ix2 (2 : Fin 3) c := funext fun a => Fin.ext (by
      match a with
      | ⟨0, _⟩ => rfl
      | ⟨1, _⟩ => exact Nat.mod_eq_of_lt c.isLt)
  have eVar : idx_main_v140 (idx_main_v141 (idx_main_v145 (idx_main_v146 (ix2 r c)))) = ix2 (2 : Fin 3) c := funext fun a => Fin.ext (by
      match a with
      | ⟨0, _⟩ => rfl
      | ⟨1, _⟩ => exact Nat.mod_eq_of_lt c.isLt)
  have eGamma : idx_main_v148 (idx_main_v149 (idx_main_v150 (idx_main_v151 (ix2 r c)))) = ix2 (2 : Fin 3) c := funext fun a => Fin.ext (by
      match a with
      | ⟨0, _⟩ => rfl
      | ⟨1, _⟩ => exact Nat.mod_eq_of_lt c.isLt)
  have eBeta : idx_main_v153 (idx_main_v154 (idx_main_v155 (idx_main_v156 (ix2 r c)))) = ix2 (2 : Fin 3) c := funext fun a => Fin.ext (by
      match a with
      | ⟨0, _⟩ => rfl
      | ⟨1, _⟩ => exact Nat.mod_eq_of_lt c.isLt)
  rw [val_main_v158_apply, val_main_v157_apply, val_main_v152_apply, val_main_v147_apply, val_main_v139_apply, val_main_v134_apply, val_main_v130_apply, val_main_v125_apply, val_main_v133_apply,
    val_main_v129_apply, val_main_v128_apply, val_main_v127_apply, val_main_v126_apply, val_main_v138_apply, val_main_v137_apply, val_main_v136_apply, val_main_v135_apply,
    val_main_v146_apply, val_main_v145_apply, val_main_v144_apply, val_main_v143_apply, val_main_v142_apply, val_main_cst_13_apply, val_main_v141_apply, val_main_v140_apply,
    val_main_v151_apply, val_main_v150_apply, val_main_v149_apply, val_main_v148_apply, val_main_v156_apply, val_main_v155_apply, val_main_v154_apply, val_main_v153_apply,
    val_main_call2_v0_apply, val_main_call2_cst_apply, eBl, eMean, eVar, eGamma, eBeta]
  generalize val_main_v122 (F := Ideal) x0 x1 x2 x3 x4 x5 x6 x7 x8 = a
  generalize val_main_v109 (F := Ideal) x0 x1 x2 x3 x4 x5 x6 x7 x8 = h
  have hS1 : (∑ k : Fin 128, a (lidx_main_v125 (ix2 r c) k) * val_main_v124 (F := Ideal) x2 (ridx_main_v125 (ix2 r c) k))
      = ∑ k : Fin 128, a (ix2 r k) * x2 (ix3 (2 : Fin 3) k c) :=
    Finset.sum_congr rfl fun k _ => by rw [val_main_v124_apply, val_main_v123_apply, eWl k, eAl k]
  have hS2 : (∑ k : Fin 128, h (lidx_main_v133 (ix2 r c) k) * val_main_v132 (F := Ideal) x4 (ridx_main_v133 (ix2 r c) k))
      = ∑ k : Fin 128, h (ix2 r k) * x4 (ix3 (2 : Fin 3) k c) :=
    Finset.sum_congr rfl fun k _ => by rw [val_main_v132_apply, val_main_v131_apply, eWr k, eHl k]
  rw [hS1, hS2]
  rfl

/-- The first layer's output as the specification writes it. -/
abbrev L1 (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal)) : (⟨S50000x128, .f32⟩ : BufTy).Contents (Elt Ideal) :=
  Cert.Spec.layerArr 0 (agg x0 x1) x0 x2 x3 x4 x5 x6 x7 x8

/-- The second layer's output as the specification writes it: the layer fed the first layer's output and its neighbour mean. -/
abbrev L2 (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal)) : (⟨S50000x128, .f32⟩ : BufTy).Contents (Elt Ideal) :=
  Cert.Spec.layerArr 1 (agg (L1 x0 x1 x2 x3 x4 x5 x6 x7 x8) x1) (L1 x0 x1 x2 x3 x4 x5 x6 x7 x8) x2 x3 x4 x5 x6 x7 x8

/-- The third layer's output as the specification writes it. -/
abbrev L3 (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal)) : (⟨S50000x128, .f32⟩ : BufTy).Contents (Elt Ideal) :=
  Cert.Spec.layerArr 2 (agg (L2 x0 x1 x2 x3 x4 x5 x6 x7 x8) x1) (L2 x0 x1 x2 x3 x4 x5 x6 x7 x8) x2 x3 x4 x5 x6 x7 x8

/-- Once the classifier is read off the three layers' outputs, the reference's result is the specification's
    classifier on the specification's three layers, each layer fed the neighbour mean of the one before. -/
theorem result_eq_of_clf (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal))
    (x9 : (⟨S384x64, .f32⟩ : BufTy).Contents (Elt Ideal)) (x10 : (⟨S64, .f32⟩ : BufTy).Contents (Elt Ideal))
    (x11 : (⟨S64x2, .f32⟩ : BufTy).Contents (Elt Ideal)) (x12 : (⟨S2, .f32⟩ : BufTy).Contents (Elt Ideal))
    (hclf : val_main_v168 (F := Ideal) x0 x1 x2 x3 x4 x5 x6 x7 x8 x9 x10 x11 x12 =
      Cert.Spec.clfArr (val_main_v60 (F := Ideal) x0 x1 x2 x3 x4 x5 x6 x7 x8) (val_main_v109 (F := Ideal) x0 x1 x2 x3 x4 x5 x6 x7 x8) (val_main_v158 (F := Ideal) x0 x1 x2 x3 x4 x5 x6 x7 x8) x9 x10 x11 x12) :
    val_main_v168 (F := Ideal) x0 x1 x2 x3 x4 x5 x6 x7 x8 x9 x10 x11 x12 =
      Cert.Spec.clfArr (L1 x0 x1 x2 x3 x4 x5 x6 x7 x8) (L2 x0 x1 x2 x3 x4 x5 x6 x7 x8) (L3 x0 x1 x2 x3 x4 x5 x6 x7 x8) x9 x10 x11 x12 := by
  rw [hclf, layer2_eq, layer1_eq, layer0_eq]

end Cert.ReferenceIdeal.RefValue

end
-- ==== Proof.RefTail.lean ====
import proofs.«160495_j17575006175717_1_alg».proof.Proof.Gen.ReferenceIdeal.Read
import proofs.«160495_j17575006175717_1_alg».proof.Proof.Spec
import Idealize.ShloMosaic.Lib.Pipeline.Value
import Idealize.ShloMosaic.Lib.ValueIdx
import Idealize.ShloMosaic.PureOps.Ideal.Laws

noncomputable section

namespace Cert.ReferenceIdeal.RefClf

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-- Three arrays of 128 features joined side by side, read at (r, k): feature `k % 128` of array `k / 128`. -/
theorem concat_apply (h1 h2 h3 : (⟨S50000x128, .f32⟩ : BufTy).Contents (Elt Ideal))
    (hc : Shape.Concatenates [S50000x128, S50000x128, S50000x128] S50000x384 1) (r : Fin 50000) (k : Fin 384) :
    concatenate S50000x384 1 [⟨S50000x128, h1⟩, ⟨S50000x128, h2⟩, ⟨S50000x128, h3⟩] hc (ix2 r k) = Cert.Spec.jkAt h1 h2 h3 r k := by
  unfold Cert.Spec.jkAt
  exact concatenate_ofFn_apply (t := S50000x384) (s₁ := S50000x128) 1 ![h1, h2, h3] hc rfl 128 rfl (ix2 r k)
    ⟨k.val / 128, by have := k.isLt; omega⟩ rfl (ix2 r ⟨k.val % 128, Nat.mod_lt _ (by decide)⟩) rfl
    (fun b hb => by
      match b with
      | ⟨0, _⟩ => rfl
      | ⟨1, _⟩ => exact absurd rfl hb)

/-- The classifier of the reference, entry by entry, is the specification's classifier on the three layers' outputs. -/
theorem clf_eq (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 x6 x7 x8 : (⟨S3x128, .f32⟩ : BufTy).Contents (Elt Ideal))
    (x9 : (⟨S384x64, .f32⟩ : BufTy).Contents (Elt Ideal)) (x10 : (⟨S64, .f32⟩ : BufTy).Contents (Elt Ideal))
    (x11 : (⟨S64x2, .f32⟩ : BufTy).Contents (Elt Ideal)) (x12 : (⟨S2, .f32⟩ : BufTy).Contents (Elt Ideal)) :
    val_main_v168 (F := Ideal) x0 x1 x2 x3 x4 x5 x6 x7 x8 x9 x10 x11 x12 =
      Cert.Spec.clfArr (val_main_v60 (F := Ideal) x0 x1 x2 x3 x4 x5 x6 x7 x8) (val_main_v109 (F := Ideal) x0 x1 x2 x3 x4 x5 x6 x7 x8) (val_main_v158 (F := Ideal) x0 x1 x2 x3 x4 x5 x6 x7 x8) x9 x10 x11 x12 := by
  funext i
  obtain ⟨r, c, rfl⟩ : ∃ (r : Fin 50000) (c : Fin 2), i = ix2 r c := ⟨i 0, i 1, eq_ix2 i⟩
  -- the hidden row is read at (r, j), the joined row at (r, k), the weights at (k, j) and (j, c), the biases at j and c
  have eL : ∀ j : Fin 64, lidx_main_v165 (ix2 r c) j = ix2 r j := fun j => funext fun a => Fin.ext (by
      match a with
      | ⟨0, _⟩ => rfl
      | ⟨1, _⟩ => rfl)
  have eR : ∀ j : Fin 64, ridx_main_v165 (ix2 r c) j = ix2 j c := fun j => funext fun a => Fin.ext (by
      match a with
      | ⟨0, _⟩ => rfl
      | ⟨1, _⟩ => rfl)
  have eL1 : ∀ (j : Fin 64) (k : Fin 384), lidx_main_v160 (ix2 r j) k = ix2 r k := fun j k => funext fun a => Fin.ext (by
      match a with
      | ⟨0, _⟩ => rfl
      | ⟨1, _⟩ => rfl)
  have eR1 : ∀ (j : Fin 64) (k : Fin 384), ridx_main_v160 (ix2 r j) k = ix2 k j := fun j k => funext fun a => Fin.ext (by
      match a with
      | ⟨0, _⟩ => rfl
      | ⟨1, _⟩ => rfl)
  have eB1 : ∀ j : Fin 64, idx_main_v161 (idx_main_v162 (ix2 r j)) = ix1 j := fun j => funext fun a => Fin.ext (by
      match a with
      | ⟨0, _⟩ => rfl)
  have eB2 : idx_main_v166 (idx_main_v167 (ix2 r c)) = ix1 c := funext fun a => Fin.ext (by
      match a with
      | ⟨0, _⟩ => rfl)
  have hJ : ∀ j : Fin 64, (∑ k : Fin 384, val_main_v159 (F := Ideal) x0 x1 x2 x3 x4 x5 x6 x7 x8 (lidx_main_v160 (ix2 r j) k) * x9 (ridx_main_v160 (ix2 r j) k))
      = ∑ k : Fin 384, Cert.Spec.jkAt (val_main_v60 (F := Ideal) x0 x1 x2 x3 x4 x5 x6 x7 x8) (val_main_v109 (F := Ideal) x0 x1 x2 x3 x4 x5 x6 x7 x8) (val_main_v158 (F := Ideal) x0 x1 x2 x3 x4 x5 x6 x7 x8) r k * x9 (ix2 k j) := fun j =>
    Finset.sum_congr rfl fun k _ => by
      rw [eL1 j k, eR1 j k]; unfold val_main_v159; rw [concat_apply]
  have hH : ∀ j : Fin 64, val_main_v164 (F := Ideal) x0 x1 x2 x3 x4 x5 x6 x7 x8 x9 x10 (lidx_main_v165 (ix2 r c) j)
      = max ((∑ k : Fin 384, Cert.Spec.jkAt (val_main_v60 (F := Ideal) x0 x1 x2 x3 x4 x5 x6 x7 x8) (val_main_v109 (F := Ideal) x0 x1 x2 x3 x4 x5 x6 x7 x8) (val_main_v158 (F := Ideal) x0 x1 x2 x3 x4 x5 x6 x7 x8) r k * x9 (ix2 k j)) + x10 (ix1 j)) Cert.Spec.zero := fun j => by
    rw [eL j, val_main_v164_apply, val_main_v163_apply, val_main_v160_apply, val_main_v162_apply, val_main_v161_apply,
      val_main_call3_v0_apply, val_main_call3_cst_apply, eB1 j, hJ j]
    rfl
  have hS : (∑ j : Fin 64, val_main_v164 (F := Ideal) x0 x1 x2 x3 x4 x5 x6 x7 x8 x9 x10 (lidx_main_v165 (ix2 r c) j) * x11 (ridx_main_v165 (ix2 r c) j))
      = ∑ j : Fin 64, max ((∑ k : Fin 384, Cert.Spec.jkAt (val_main_v60 (F := Ideal) x0 x1 x2 x3 x4 x5 x6 x7 x8) (val_main_v109 (F := Ideal) x0 x1 x2 x3 x4 x5 x6 x7 x8) (val_main_v158 (F := Ideal) x0 x1 x2 x3 x4 x5 x6 x7 x8) r k * x9 (ix2 k j)) + x10 (ix1 j)) Cert.Spec.zero * x11 (ix2 j c) :=
    Finset.sum_congr rfl fun j _ => by rw [hH j, eR j]
  rw [val_main_v168_apply, val_main_v165_apply, val_main_v167_apply, val_main_v166_apply, eB2, hS]
  rfl

end Cert.ReferenceIdeal.RefClf

end
-- ==== Proof.Bridge.lean ====
/-
  Where the two sides meet.  The kernel program's run leaves, in its result array, the classifier of three layers of its
  arguments, each layer fed by the neighbour mean of the layer before (`kernel_value`); the reference's result, read one
  operation at a time, is the same expression with ITS spelling of the neighbour mean (`reference_value`).  The two spellings
  are the same chain of host operations — the edge list's two rows, the in-degrees summed by destination and clamped at one,
  the rows gathered by source and summed by destination, the quotient by the degree — so they are one function (`agg_eq`);
  the gather and the scatter themselves are never opened.
-/
import proofs.«160495_j17575006175717_1_alg».proof.Proof.RefValue
import proofs.«160495_j17575006175717_1_alg».proof.Proof.RefTail
import proofs.«160495_j17575006175717_1_alg».proof.Proof.IdealFold

noncomputable section

namespace Cert.Bridge

open Idealize.ShloMosaic Idealize.ShloMosaic.TcCoe Idealize.SL.Sem

/-- The neighbour mean of the reference is the neighbour mean of the kernel program: the same operations in the same order. -/
theorem agg_eq (h : (⟨Cert.KernelIdeal.S50000x128, .f32⟩ : BufTy).Contents (Elt Ideal)) (e : (⟨Cert.KernelIdeal.S2x800000, .i32⟩ : BufTy).Contents (Elt Ideal)) :
    Cert.ReferenceIdeal.RefValue.agg h e = Cert.KernelIdeal.HandValue.agg h e := rfl

variable (m : (ℓ : Loc Cert.KernelIdeal.nD Cert.KernelIdeal.τ Cert.KernelIdeal.sig) → Buf (Elt Ideal) ℓ) (c : Dev Cert.KernelIdeal.nD)

/-- The common result: the classifier of the three layers of the arguments. -/
def value : Buf (Elt Ideal) ((c.tc : Thread Cert.KernelIdeal.nD Cert.KernelIdeal.τ).loc Cert.KernelIdeal.main_v114) :=
  Cert.Spec.clfArr (Cert.KernelIdeal.HandValue.H1 m c) (Cert.KernelIdeal.HandValue.H2 m c) (Cert.KernelIdeal.HandValue.H3 m c)
    (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12))

/-- The kernel program's result array ends at it. -/
theorem kernel_value : Cert.KernelIdeal.Hand.result m c = value m c := Cert.KernelIdeal.HandValue.result_eq m c

/-- The reference's result, as a function of the same arguments, is it too. -/
theorem reference_value :
    Cert.ReferenceIdeal.Read.val_main_v168 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) = value m c := by
  rw [Cert.ReferenceIdeal.RefValue.result_eq_of_clf _ _ _ _ _ _ _ _ _ _ _ _ _ (Cert.ReferenceIdeal.RefClf.clf_eq _ _ _ _ _ _ _ _ _ _ _ _ _)]
  unfold value Cert.KernelIdeal.HandValue.H3 Cert.KernelIdeal.HandValue.H2 Cert.KernelIdeal.HandValue.H1
  simp only [Cert.ReferenceIdeal.RefValue.L1, Cert.ReferenceIdeal.RefValue.L2, Cert.ReferenceIdeal.RefValue.L3, agg_eq]

end Cert.Bridge

end
-- ==== Proof.lean ====
/-
  The certificate.  The kernel program — three pipelined launches of a layer kernel and one of a classifier kernel, with the
  neighbour aggregation on the host between them — and the plain reference compute, on the extended reals, the same function
  of their thirteen arguments: each layer's output entry is
      max( ((Σₖ a[r,k]·Wl[k,c] + bl[c]) + Σₖ h[r,k]·Wr[k,c] − μ[c]) · (σ²[c] + ε)^(-1/2) · γ[c] + β[c] , 0 )
  whether it is computed on a block of 1000 rows or on all 50000 at once (an entry depends on one row of its inputs), the
  neighbour mean `a` is the same chain of host operations in both programs, and the classifier likewise.  No algebraic law
  beyond reading both sides index by index is needed, so the inputs' finiteness is never used.

  The frames of the two kernel programs come from their runs (every launch's body runs at every grid point; between
  launches the host stretches act on named buffer contents); the reference's frame from its run read back.
-/
import proofs.«160495_j17575006175717_1_alg».proof.Defs
import proofs.«160495_j17575006175717_1_alg».proof.Proof.Gen.Kernel
import proofs.«160495_j17575006175717_1_alg».proof.Proof.Gen.KernelIdeal
import proofs.«160495_j17575006175717_1_alg».proof.Proof.Gen.ReferenceIdeal
import proofs.«160495_j17575006175717_1_alg».proof.Proof.Gen.Pre_finite_inputs
import proofs.«160495_j17575006175717_1_alg».proof.Proof.Gen.ReferenceIdeal.Run
import proofs.«160495_j17575006175717_1_alg».proof.Proof.Gen.ReferenceIdeal.Read
import proofs.«160495_j17575006175717_1_alg».proof.Proof.BitsRun
import proofs.«160495_j17575006175717_1_alg».proof.Proof.IdealRun
import proofs.«160495_j17575006175717_1_alg».proof.Proof.IdealFold
import proofs.«160495_j17575006175717_1_alg».proof.Proof.RefValue
import proofs.«160495_j17575006175717_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Hand.run_main (F := Bits) m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both programs end with the classifier of the three layers of the arguments: the kernel program by its run and the
    launches read as whole-array functions, the reference by its run read one operation at a time; the two spellings of the
    neighbour mean are one chain of host operations. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Bridge.value m c, ?_, ?_⟩
  · exact (θ_run (Cert.KernelIdeal.defs (F := Ideal)) _ _).mono
      (fun _ h c => ⟨(h c).1.trans (Cert.Bridge.kernel_value m c), (h c).2⟩) (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v168_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact Cert.Bridge.reference_value m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
